-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x512 : Shape := ⟨2, ![10000, 512]⟩
abbrev S10000x16 : Shape := ⟨2, ![10000, 16]⟩
abbrev S10000 : Shape := ⟨1, ![10000]⟩
abbrev S512x256 : Shape := ⟨2, ![512, 256]⟩
abbrev S256 : Shape := ⟨1, ![256]⟩
abbrev S256x16 : Shape := ⟨2, ![256, 16]⟩
abbrev S16 : Shape := ⟨1, ![16]⟩
abbrev S16x16 : Shape := ⟨2, ![16, 16]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x512 : S_.BroadcastsInDim S10000x512 (![] : Fin 0 → Fin S10000x512.rank)
  reducesTo_S10000x512_S_d0_1 : S10000x512.ReducesTo [0, 1] S_
  bcast_S_S10000x16 : S_.BroadcastsInDim S10000x16 (![] : Fin 0 → Fin S10000x16.rank)
  reducesTo_S10000x16_S_d0_1 : S10000x16.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part2 {F : FTy → Type} [FloatOps F] (main_arg8 : FVec F S16 .f32) (main_arg9 : FVec F S16x16 .f32) (main_v33 : IVec S_ 1) : IVec S_ 1 :=
  let main_v34 : FVec F S16 .f32 := Host.absf main_arg8
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16x16 .f32 := Host.absf main_arg9
  let main_cst_14 : FVec F S_ .f32 := constant S_ .f32 0x7F800000#32
  let main_v40 : FVec F S16x16 .f32 := broadcastInDim S16x16 ![] bcast_S_S16x16 main_cst_14
  let main_v41 : IVec S16x16 1 := cmpf .olt main_v39 main_v40
  let main_c_15 : IVec S_ 1 := constantI S_ 1 1#1
  let main_v42 : IVec S_ 1 := (fun x v => Host.reduce IntOp.andi x v reducesTo_S16x16_S_d0_1 h_S_) main_v41 main_c_15
  let main_v43 : IVec S_ 1 := andi main_v38 main_v42
  main_v43

def fn_part1 {F : FTy → Type} [FloatOps F] (main_arg5 : FVec F S512x256 .f32) (main_arg6 : FVec F S256 .f32) (main_arg7 : FVec F S256x16 .f32) (main_arg8 : FVec F S16 .f32) (main_arg9 : FVec F S16x16 .f32) (main_v13 : IVec S_ 1) (main_v16 : IVec S10000x16 1) : IVec S_ 1 :=
  let main_c_5 : IVec S_ 1 := constantI S_ 1 1#1
  let main_v17 : IVec S_ 1 := (fun x v => Host.reduce IntOp.andi x v reducesTo_S10000x16_S_d0_1 h_S_) main_v16 main_c_5
  let main_v18 : IVec S_ 1 := andi main_v13 main_v17
  let main_v19 : FVec F S512x256 .f32 := Host.absf main_arg5
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x16 .f32 := Host.absf main_arg7
  let main_cst_10 : FVec F S_ .f32 := constant S_ .f32 0x7F800000#32
  let main_v30 : FVec F S256x16 .f32 := broadcastInDim S256x16 ![] bcast_S_S256x16 main_cst_10
  let main_v31 : IVec S256x16 1 := cmpf .olt main_v29 main_v30
  let main_c_11 : IVec S_ 1 := constantI S_ 1 1#1
  let main_v32 : IVec S_ 1 := (fun x v => Host.reduce IntOp.andi x v reducesTo_S256x16_S_d0_1 h_S_) main_v31 main_c_11
  let main_v33 : IVec S_ 1 := andi main_v28 main_v32
  fn_part2 (F := F) main_arg8 main_arg9 main_v33

def fn {F : FTy → Type} [FloatOps F] (main_arg0 : FVec F S10000x10000 .f32) (main_arg1 : FVec F S10000x10000 .f32) (main_arg2 : FVec F S10000x512 .f32) (main_arg3 : FVec F S10000x16 .f32) (main_arg4 : IVec S10000 1) (main_arg5 : FVec F S512x256 .f32) (main_arg6 : FVec F S256 .f32) (main_arg7 : FVec F S256x16 .f32) (main_arg8 : FVec F S16 .f32) (main_arg9 : FVec F S16x16 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x512 .f32 := Host.absf main_arg2
  let main_cst_2 : FVec F S_ .f32 := constant S_ .f32 0x7F800000#32
  let main_v10 : FVec F S10000x512 .f32 := broadcastInDim S10000x512 ![] bcast_S_S10000x512 main_cst_2
  let main_v11 : IVec S10000x512 1 := cmpf .olt main_v9 main_v10
  let main_c_3 : IVec S_ 1 := constantI S_ 1 1#1
  let main_v12 : IVec S_ 1 := (fun x v => Host.reduce IntOp.andi x v reducesTo_S10000x512_S_d0_1 h_S_) main_v11 main_c_3
  let main_v13 : IVec S_ 1 := andi main_v8 main_v12
  let main_v14 : FVec F S10000x16 .f32 := Host.absf main_arg3
  let main_cst_4 : FVec F S_ .f32 := constant S_ .f32 0x7F800000#32
  let main_v15 : FVec F S10000x16 .f32 := broadcastInDim S10000x16 ![] bcast_S_S10000x16 main_cst_4
  let main_v16 : IVec S10000x16 1 := cmpf .olt main_v14 main_v15
  fn_part1 (F := F) main_arg5 main_arg6 main_arg7 main_arg8 main_arg9 main_v13 main_v16
-- ==== Kernel.lean ====
abbrev S10000x10000 : Shape := ⟨2, ![10000, 10000]⟩
abbrev S10000x512 : Shape := ⟨2, ![10000, 512]⟩
abbrev S10000x16 : Shape := ⟨2, ![10000, 16]⟩
abbrev S10000 : Shape := ⟨1, ![10000]⟩
abbrev S512x256 : Shape := ⟨2, ![512, 256]⟩
abbrev S256 : Shape := ⟨1, ![256]⟩
abbrev S256x16 : Shape := ⟨2, ![256, 16]⟩
abbrev S16 : Shape := ⟨1, ![16]⟩
abbrev S16x16 : Shape := ⟨2, ![16, 16]⟩
abbrev S1x256 : Shape := ⟨2, ![1, 256]⟩
abbrev S1x16 : Shape := ⟨2, ![1, 16]⟩
abbrev S10000x256 : Shape := ⟨2, ![10000, 256]⟩
abbrev S2000x512 : Shape := ⟨2, ![2000, 512]⟩
abbrev S2000x256 : Shape := ⟨2, ![2000, 256]⟩
abbrev S200x10000 : Shape := ⟨2, ![200, 10000]⟩
abbrev S200x256 : Shape := ⟨2, ![200, 256]⟩
abbrev S2000x16 : Shape := ⟨2, ![2000, 16]⟩
abbrev S200x16 : Shape := ⟨2, ![200, 16]⟩
abbrev S200 : Shape := ⟨1, ![200]⟩
abbrev S200x1 : Shape := ⟨2, ![200, 1]⟩
abbrev S400x10000 : Shape := ⟨2, ![400, 10000]⟩
abbrev S400x16 : Shape := ⟨2, ![400, 16]⟩

abbrev nBuf : Space → Nat
  | .hbm => 29
  | .vmem => 52
  | .smem => 0
  | _ => 0

abbrev bufTy : (tb : Table) → Fin (tcTables nBuf tb) → BufTy
  | .hbm, ⟨0, _⟩ => ⟨S10000x10000, .f32⟩
  | .hbm, ⟨1, _⟩ => ⟨S10000x10000, .f32⟩
  | .hbm, ⟨2, _⟩ => ⟨S10000x512, .f32⟩
  | .hbm, ⟨3, _⟩ => ⟨S10000x16, .f32⟩
  | .hbm, ⟨4, _⟩ => ⟨S10000, .i1⟩
  | .hbm, ⟨5, _⟩ => ⟨S512x256, .f32⟩
  | .hbm, ⟨6, _⟩ => ⟨S256, .f32⟩
  | .hbm, ⟨7, _⟩ => ⟨S256x16, .f32⟩
  | .hbm, ⟨8, _⟩ => ⟨S16, .f32⟩
  | .hbm, ⟨9, _⟩ => ⟨S16x16, .f32⟩
  | .hbm, ⟨10, _⟩ => ⟨S1x256, .f32⟩
  | .hbm, ⟨11, _⟩ => ⟨S1x16, .f32⟩
  | .hbm, ⟨12, _⟩ => ⟨S10000x256, .bf16⟩
  | .hbm, ⟨13, _⟩ => ⟨S10000x256, .bf16⟩
  | .hbm, ⟨14, _⟩ => ⟨S10000x16, .bf16⟩
  | .hbm, ⟨15, _⟩ => ⟨S10000x16, .f32⟩
  | .hbm, ⟨16, _⟩ => ⟨S10000x16, .f32⟩
  | .hbm, ⟨17, _⟩ => ⟨S10000x16, .bf16⟩
  | .hbm, ⟨18, _⟩ => ⟨S10000x16, .f32⟩
  | .hbm, ⟨19, _⟩ => ⟨S10000x10000, .bf16⟩
  | .hbm, ⟨20, _⟩ => ⟨S10000x16, .f32⟩
  | .hbm, ⟨21, _⟩ => ⟨S10000x16, .bf16⟩
  | .hbm, ⟨22, _⟩ => ⟨S10000x16, .f32⟩
  | .hbm, ⟨23, _⟩ => ⟨S10000x16, .f32⟩
  | .hbm, ⟨24, _⟩ => ⟨S10000x16, .bf16⟩
  | .hbm, ⟨25, _⟩ => ⟨S10000x16, .f32⟩
  | .hbm, ⟨26, _⟩ => ⟨S10000x16, .f32⟩
  | .hbm, ⟨27, _⟩ => ⟨S10000x16, .bf16⟩
  | .hbm, ⟨28, _⟩ => ⟨S10000x16, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .bf16⟩
  | .local _ .vmem, ⟨4, _⟩ => ⟨S2000x256, .bf16⟩
  | .local _ .vmem, ⟨5, _⟩ => ⟨S200x10000, .f32⟩
  | .local _ .vmem, ⟨6, _⟩ => ⟨S200x10000, .f32⟩
  | .local _ .vmem, ⟨7, _⟩ => ⟨S10000x256, .bf16⟩
  | .local _ .vmem, ⟨8, _⟩ => ⟨S1x256, .f32⟩
  | .local _ .vmem, ⟨9, _⟩ => ⟨S200x256, .bf16⟩
  | .local _ .vmem, ⟨10, _⟩ => ⟨S200x256, .bf16⟩
  | .local _ .vmem, ⟨11, _⟩ => ⟨S2000x256, .bf16⟩
  | .local _ .vmem, ⟨12, _⟩ => ⟨S2000x256, .bf16⟩
  | .local _ .vmem, ⟨13, _⟩ => ⟨S256x16, .f32⟩
  | .local _ .vmem, ⟨14, _⟩ => ⟨S2000x16, .bf16⟩
  | .local _ .vmem, ⟨15, _⟩ => ⟨S2000x16, .bf16⟩
  | .local _ .vmem, ⟨16, _⟩ => ⟨S200x10000, .f32⟩
  | .local _ .vmem, ⟨17, _⟩ => ⟨S200x10000, .f32⟩
  | .local _ .vmem, ⟨18, _⟩ => ⟨S10000x16, .bf16⟩
  | .local _ .vmem, ⟨19, _⟩ => ⟨S1x16, .f32⟩
  | .local _ .vmem, ⟨20, _⟩ => ⟨S200x16, .f32⟩
  | .local _ .vmem, ⟨21, _⟩ => ⟨S200x16, .f32⟩
  | .local _ .vmem, ⟨22, _⟩ => ⟨S200x10000, .f32⟩
  | .local _ .vmem, ⟨23, _⟩ => ⟨S200x10000, .f32⟩
  | .local _ .vmem, ⟨24, _⟩ => ⟨S10000x16, .bf16⟩
  | .local _ .vmem, ⟨25, _⟩ => ⟨S200x16, .f32⟩
  | .local _ .vmem, ⟨26, _⟩ => ⟨S200x16, .f32⟩
  | .local _ .vmem, ⟨27, _⟩ => ⟨S200x16, .f32⟩
  | .local _ .vmem, ⟨28, _⟩ => ⟨S200x16, .f32⟩
  | .local _ .vmem, ⟨29, _⟩ => ⟨S200x10000, .bf16⟩
  | .local _ .vmem, ⟨30, _⟩ => ⟨S200x10000, .bf16⟩
  | .local _ .vmem, ⟨31, _⟩ => ⟨S400x10000, .bf16⟩
  | .local _ .vmem, ⟨32, _⟩ => ⟨S400x10000, .bf16⟩
  | .local _ .vmem, ⟨33, _⟩ => ⟨S10000x16, .bf16⟩
  | .local _ .vmem, ⟨34, _⟩ => ⟨S400x16, .f32⟩
  | .local _ .vmem, ⟨35, _⟩ => ⟨S400x16, .f32⟩
  | .local _ .vmem, ⟨36, _⟩ => ⟨S400x16, .f32⟩
  | .local _ .vmem, ⟨37, _⟩ => ⟨S400x16, .f32⟩
  | .local _ .vmem, ⟨38, _⟩ => ⟨S400x10000, .bf16⟩
  | .local _ .vmem, ⟨39, _⟩ => ⟨S400x10000, .bf16⟩
  | .local _ .vmem, ⟨40, _⟩ => ⟨S10000x16, .bf16⟩
  | .local _ .vmem, ⟨41, _⟩ => ⟨S400x16, .f32⟩
  | .local _ .vmem, ⟨42, _⟩ => ⟨S400x16, .f32⟩
  | .local _ .vmem, ⟨43, _⟩ => ⟨S400x16, .f32⟩
  | .local _ .vmem, ⟨44, _⟩ => ⟨S400x16, .f32⟩
  | .local _ .vmem, ⟨45, _⟩ => ⟨S400x10000, .bf16⟩
  | .local _ .vmem, ⟨46, _⟩ => ⟨S400x10000, .bf16⟩
  | .local _ .vmem, ⟨47, _⟩ => ⟨S10000x16, .bf16⟩
  | .local _ .vmem, ⟨48, _⟩ => ⟨S400x16, .f32⟩
  | .local _ .vmem, ⟨49, _⟩ => ⟨S400x16, .f32⟩
  | .local _ .vmem, ⟨50, _⟩ => ⟨S400x16, .f32⟩
  | .local _ .vmem, ⟨51, _⟩ => ⟨S400x16, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc4_stg3_0 : Ref sig .tc := ⟨.vmem, 27, rfl⟩
abbrev cc4_stg3_1 : Ref sig .tc := ⟨.vmem, 28, rfl⟩
abbrev cc4_stg4_0 : Ref sig .tc := ⟨.vmem, 29, rfl⟩
abbrev cc4_stg4_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg2_1 : Ref sig .tc := ⟨.vmem, 35, rfl⟩
abbrev cc5_stg3_0 : Ref sig .tc := ⟨.vmem, 36, rfl⟩
abbrev cc5_stg3_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg2_1 : Ref sig .tc := ⟨.vmem, 42, rfl⟩
abbrev cc6_stg3_0 : Ref sig .tc := ⟨.vmem, 43, rfl⟩
abbrev cc6_stg3_1 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg2_0 : Ref sig .tc := ⟨.vmem, 48, rfl⟩
abbrev cc7_stg2_1 : Ref sig .tc := ⟨.vmem, 49, rfl⟩
abbrev cc7_stg3_0 : Ref sig .tc := ⟨.vmem, 50, rfl⟩
abbrev cc7_stg3_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc4_sem3_0 : DmaSem sig := 27
abbrev cc4_sem3_1 : DmaSem sig := 28
abbrev cc4_sem4_0 : DmaSem sig := 29
abbrev cc4_sem4_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem2_1 : DmaSem sig := 35
abbrev cc5_sem3_0 : DmaSem sig := 36
abbrev cc5_sem3_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem2_1 : DmaSem sig := 42
abbrev cc6_sem3_0 : DmaSem sig := 43
abbrev cc6_sem3_1 : DmaSem sig := 44
abbrev cc7_sem0_0 : DmaSem sig := 45
abbrev cc7_sem0_1 : DmaSem sig := 46
abbrev cc7_sem1_0 : DmaSem sig := 47
abbrev cc7_sem2_0 : DmaSem sig := 48
abbrev cc7_sem2_1 : DmaSem sig := 49
abbrev cc7_sem3_0 : DmaSem sig := 50
abbrev cc7_sem3_1 : DmaSem sig := 51

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S200x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x16 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S200x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x16 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S200x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S200x10000 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x16 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S200x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S200x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S200x10000 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S400x10000 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S10000x16 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S400x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S400x16 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S400x10000 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S10000x16 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S400x16 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S400x16 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S400x10000 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S10000x16 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S400x16 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S400x16 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  shapeCasts_S256_S1x256 : S256.ShapeCasts S1x256
  shapeCasts_S16_S1x16 : S16.ShapeCasts S1x16
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  inb_S200x10000_S200x10000_0_0 : ∀ a, (![0, 0] : Fin 2 → Nat) a + S200x10000.size a ≤ S200x10000.size a
  h_S200x10000 : 0 < S200x10000.numel
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S200x256 : S1x256.Broadcasts S200x256
  inb_S200x256_S200x256_0_0 : ∀ a, (![0, 0] : Fin 2 → Nat) a + S200x256.size a ≤ S200x256.size a
  h_S200x256 : 0 < S200x256.numel
  packedbf16_S200x256_S200x256_0_0 : (Rect.unit (s := S200x256) ![0, 0] S200x256.size inb_S200x256_S200x256_0_0).PackedRows (EltTy.packing .bf16)
  shapeCasts_S2000x256_S2000x256 : S2000x256.ShapeCasts S2000x256
  inb_S256x16_S256x16_0_0 : ∀ a, (![0, 0] : Fin 2 → Nat) a + S256x16.size a ≤ S256x16.size a
  h_S256x16 : 0 < S256x16.numel
  inb_S2000x16_S2000x16_0_0 : ∀ a, (![0, 0] : Fin 2 → Nat) a + S2000x16.size a ≤ S2000x16.size a
  h_S2000x16 : 0 < S2000x16.numel
  packedbf16_S2000x16_S2000x16_0_0 : (Rect.unit (s := S2000x16) ![0, 0] S2000x16.size inb_S2000x16_S2000x16_0_0).PackedRows (EltTy.packing .bf16)
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S200x16 : S1x16.Broadcasts S200x16
  reduces_S200x16_S200 : S200x16.Reduces [1] S200
  shapeCasts_S200_S200x1 : S200.ShapeCasts S200x1
  broadcasts_S200x1_S200x16 : S200x1.Broadcasts S200x16
  inb_S200x16_S200x16_0_0 : ∀ a, (![0, 0] : Fin 2 → Nat) a + S200x16.size a ≤ S200x16.size a
  h_S200x16 : 0 < S200x16.numel
  packedbf16_S200x10000_S200x10000_0_0 : (Rect.unit (s := S200x10000) ![0, 0] S200x10000.size inb_S200x10000_S200x10000_0_0).PackedRows (EltTy.packing .bf16)
  shapeCasts_S200x16_S200x16 : S200x16.ShapeCasts S200x16
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S400x16_S400x16_0_0 : ∀ a, (![0, 0] : Fin 2 → Nat) a + S400x16.size a ≤ S400x16.size a
  h_S400x16 : 0 < S400x16.numel
  shapeCasts_S400x16_S400x16 : S400x16.ShapeCasts S400x16
  dot_S2000x512_S512x256_S2000x256_1_0_0_1_n_n_wf : DotDims.WF S2000x512 S512x256 S2000x256 [1] [0] [0] [1] [] []
  dot_S200x10000_S10000x256_S200x256_1_0_0_1_n_n_wf : DotDims.WF S200x10000 S10000x256 S200x256 [1] [0] [0] [1] [] []
  dot_S2000x256_S256x16_S2000x16_1_0_0_1_n_n_wf : DotDims.WF S2000x256 S256x16 S2000x16 [1] [0] [0] [1] [] []
  dot_S200x10000_S10000x16_S200x16_1_0_0_1_n_n_wf : DotDims.WF S200x10000 S10000x16 S200x16 [1] [0] [0] [1] [] []
  dot_S10000x16_S16x16_S10000x16_1_0_0_1_n_n_wf : DotDims.WF S10000x16 S16x16 S10000x16 [1] [0] [0] [1] [] []
  dot_S400x10000_S10000x16_S400x16_1_0_0_1_n_n_wf : DotDims.WF S400x10000 S10000x16 S400x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S10000x512.size a
  hwx0_0 : ∀ i : grid0.Coords, EltTy.bits .f32 = 32 ∨ (Rect.block (s := S10000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S10000x256.size a
  hwx0_2 : ∀ i : grid0.Coords, EltTy.bits .bf16 = 32 ∨ (Rect.block (s := S10000x256) S2000x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .bf16 = 32 ∨ (Rect.block (s := S10000x256) S10000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S200x256.size a ≤ S10000x256.size a
  hwx1_3 : ∀ i : grid1.Coords, EltTy.bits .bf16 = 32 ∨ (Rect.block (s := S10000x256) S200x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S10000x256.size a
  hwx2_0 : ∀ i : grid2.Coords, EltTy.bits .bf16 = 32 ∨ (Rect.block (s := S10000x256) S2000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x16.size a ≤ S256x16.size a
  hwx2_1 : ∀ i : grid2.Coords, EltTy.bits .f32 = 32 ∨ (Rect.block (s := S256x16) S256x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x16.size a ≤ S10000x16.size a
  hwx2_2 : ∀ i : grid2.Coords, EltTy.bits .bf16 = 32 ∨ (Rect.block (s := S10000x16) S2000x16.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S200x10000.size a ≤ S10000x10000.size a
  hwx3_0 : ∀ i : grid3.Coords, EltTy.bits .f32 = 32 ∨ (Rect.block (s := S10000x10000) S200x10000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x16.size a ≤ S10000x16.size a
  hwx3_1 : ∀ i : grid3.Coords, EltTy.bits .bf16 = 32 ∨ (Rect.block (s := S10000x16) S10000x16.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16.size a ≤ S1x16.size a
  hwx3_2 : ∀ i : grid3.Coords, EltTy.bits .f32 = 32 ∨ (Rect.block (s := S1x16) S1x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S200x16.size a ≤ S10000x16.size a
  hwx3_3 : ∀ i : grid3.Coords, EltTy.bits .f32 = 32 ∨ (Rect.block (s := S10000x16) S200x16.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S200x10000.size a ≤ S10000x10000.size a
  hwx4_0 : ∀ i : grid4.Coords, EltTy.bits .f32 = 32 ∨ (Rect.block (s := S10000x10000) S200x10000.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x16.size a ≤ S10000x16.size a
  hwx4_1 : ∀ i : grid4.Coords, EltTy.bits .bf16 = 32 ∨ (Rect.block (s := S10000x16) S10000x16.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S200x16.size a ≤ S10000x16.size a
  hwx4_2 : ∀ i : grid4.Coords, EltTy.bits .f32 = 32 ∨ (Rect.block (s := S10000x16) S200x16.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S200x16.size a ≤ S10000x16.size a
  hwx4_3 : ∀ i : grid4.Coords, EltTy.bits .f32 = 32 ∨ (Rect.block (s := S10000x16) S200x16.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S200x10000.size a ≤ S10000x10000.size a
  hwx4_4 : ∀ i : grid4.Coords, EltTy.bits .bf16 = 32 ∨ (Rect.block (s := S10000x10000) S200x10000.size (cc4_transform_4 i) (hinb4_4 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S400x10000.size a ≤ S10000x10000.size a
  hwx5_0 : ∀ i : grid5.Coords, EltTy.bits .bf16 = 32 ∨ (Rect.block (s := S10000x10000) S400x10000.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10000x16.size a ≤ S10000x16.size a
  hwx5_1 : ∀ i : grid5.Coords, EltTy.bits .bf16 = 32 ∨ (Rect.block (s := S10000x16) S10000x16.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S400x16.size a ≤ S10000x16.size a
  hwx5_2 : ∀ i : grid5.Coords, EltTy.bits .f32 = 32 ∨ (Rect.block (s := S10000x16) S400x16.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S400x16.size a ≤ S10000x16.size a
  hwx5_3 : ∀ i : grid5.Coords, EltTy.bits .f32 = 32 ∨ (Rect.block (s := S10000x16) S400x16.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S400x10000.size a ≤ S10000x10000.size a
  hwx6_0 : ∀ i : grid6.Coords, EltTy.bits .bf16 = 32 ∨ (Rect.block (s := S10000x10000) S400x10000.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S10000x16.size a ≤ S10000x16.size a
  hwx6_1 : ∀ i : grid6.Coords, EltTy.bits .bf16 = 32 ∨ (Rect.block (s := S10000x16) S10000x16.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S400x16.size a ≤ S10000x16.size a
  hwx6_2 : ∀ i : grid6.Coords, EltTy.bits .f32 = 32 ∨ (Rect.block (s := S10000x16) S400x16.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S400x16.size a ≤ S10000x16.size a
  hwx6_3 : ∀ i : grid6.Coords, EltTy.bits .f32 = 32 ∨ (Rect.block (s := S10000x16) S400x16.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S400x10000.size a ≤ S10000x10000.size a
  hwx7_0 : ∀ i : grid7.Coords, EltTy.bits .bf16 = 32 ∨ (Rect.block (s := S10000x10000) S400x10000.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S10000x16.size a ≤ S10000x16.size a
  hwx7_1 : ∀ i : grid7.Coords, EltTy.bits .bf16 = 32 ∨ (Rect.block (s := S10000x16) S10000x16.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S400x16.size a ≤ S10000x16.size a
  hwx7_2 : ∀ i : grid7.Coords, EltTy.bits .f32 = 32 ∨ (Rect.block (s := S10000x16) S400x16.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S400x16.size a ≤ S10000x16.size a
  hwx7_3 : ∀ i : grid7.Coords, EltTy.bits .f32 = 32 ∨ (Rect.block (s := S10000x16) S400x16.size (cc7_transform_3 i) (hinb7_3 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf
def dot_S2000x256_S256x16_S2000x16_1_0_0_1_n_n : DotDims S2000x256 S256x16 S2000x16 where
  lhsContracting := [1]
  rhsContracting := [0]
  lhsNonContracting := [0]
  rhsNonContracting := [1]
  lhsBatch := []
  rhsBatch := []
  wf := dot_S2000x256_S256x16_S2000x16_1_0_0_1_n_n_wf
def dot_S200x10000_S10000x16_S200x16_1_0_0_1_n_n : DotDims S200x10000 S10000x16 S200x16 where
  lhsContracting := [1]
  rhsContracting := [0]
  lhsNonContracting := [0]
  rhsNonContracting := [1]
  lhsBatch := []
  rhsBatch := []
  wf := dot_S200x10000_S10000x16_S200x16_1_0_0_1_n_n_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf

abbrev win0_0 : Pipeline.Window sig grid0 :=
  Pipeline.Window.ofSpec (Memref.whole main_arg2) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S200x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v3) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S256x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S2000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg1) S200x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S10000x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v1) S1x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v5) S200x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg0) S200x10000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v7) S10000x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v5) S200x16.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v8_0) S200x16.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v8_1) S200x10000.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v8_1) S400x10000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v10) S10000x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v5) S400x16.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v11) S400x16.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v8_1) S400x10000.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v13) S10000x16.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v5) S400x16.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v14) S400x16.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v8_1) S400x10000.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v16) S10000x16.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v5) S400x16.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v17) S400x16.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S10000x10000 : Shape := ⟨2, ![10000, 10000]⟩
abbrev S10000x512 : Shape := ⟨2, ![10000, 512]⟩
abbrev S10000x16 : Shape := ⟨2, ![10000, 16]⟩
abbrev S10000 : Shape := ⟨1, ![10000]⟩
abbrev S512x256 : Shape := ⟨2, ![512, 256]⟩
abbrev S256 : Shape := ⟨1, ![256]⟩
abbrev S256x16 : Shape := ⟨2, ![256, 16]⟩
abbrev S16 : Shape := ⟨1, ![16]⟩
abbrev S16x16 : Shape := ⟨2, ![16, 16]⟩
abbrev S10000x256 : Shape := ⟨2, ![10000, 256]⟩
abbrev S1x256 : Shape := ⟨2, ![1, 256]⟩
abbrev S_ : Shape := ⟨0, ![]⟩
abbrev S1x16 : Shape := ⟨2, ![1, 16]⟩
abbrev S10000x1 : Shape := ⟨2, ![10000, 1]⟩

abbrev nBuf : Space → Nat
  | .hbm => 55
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x10000, .f32⟩
  | .hbm, ⟨2, _⟩ => ⟨S10000x512, .f32⟩
  | .hbm, ⟨3, _⟩ => ⟨S10000x16, .f32⟩
  | .hbm, ⟨4, _⟩ => ⟨S10000, .i1⟩
  | .hbm, ⟨5, _⟩ => ⟨S512x256, .f32⟩
  | .hbm, ⟨6, _⟩ => ⟨S256, .f32⟩
  | .hbm, ⟨7, _⟩ => ⟨S256x16, .f32⟩
  | .hbm, ⟨8, _⟩ => ⟨S16, .f32⟩
  | .hbm, ⟨9, _⟩ => ⟨S16x16, .f32⟩
  | .hbm, ⟨10, _⟩ => ⟨S10000x256, .f32⟩
  | .hbm, ⟨11, _⟩ => ⟨S10000x256, .f32⟩
  | .hbm, ⟨12, _⟩ => ⟨S1x256, .f32⟩
  | .hbm, ⟨13, _⟩ => ⟨S10000x256, .f32⟩
  | .hbm, ⟨14, _⟩ => ⟨S10000x256, .f32⟩
  | .hbm, ⟨15, _⟩ => ⟨S_, .f32⟩
  | .hbm, ⟨16, _⟩ => ⟨S10000x256, .f32⟩
  | .hbm, ⟨17, _⟩ => ⟨S10000x256, .f32⟩
  | .hbm, ⟨18, _⟩ => ⟨S10000x16, .f32⟩
  | .hbm, ⟨19, _⟩ => ⟨S10000x16, .f32⟩
  | .hbm, ⟨20, _⟩ => ⟨S1x16, .f32⟩
  | .hbm, ⟨21, _⟩ => ⟨S10000x16, .f32⟩
  | .hbm, ⟨22, _⟩ => ⟨S10000x16, .f32⟩
  | .hbm, ⟨23, _⟩ => ⟨S_, .f32⟩
  | .hbm, ⟨24, _⟩ => ⟨S10000, .f32⟩
  | .hbm, ⟨25, _⟩ => ⟨S_, .f32⟩
  | .hbm, ⟨26, _⟩ => ⟨S10000, .f32⟩
  | .hbm, ⟨27, _⟩ => ⟨S10000, .f32⟩
  | .hbm, ⟨28, _⟩ => ⟨S10000x1, .f32⟩
  | .hbm, ⟨29, _⟩ => ⟨S10000x16, .f32⟩
  | .hbm, ⟨30, _⟩ => ⟨S10000x16, .f32⟩
  | .hbm, ⟨31, _⟩ => ⟨S10000x16, .f32⟩
  | .hbm, ⟨32, _⟩ => ⟨S_, .f32⟩
  | .hbm, ⟨33, _⟩ => ⟨S10000, .f32⟩
  | .hbm, ⟨34, _⟩ => ⟨S10000x1, .f32⟩
  | .hbm, ⟨35, _⟩ => ⟨S10000x16, .f32⟩
  | .hbm, ⟨36, _⟩ => ⟨S10000x16, .f32⟩
  | .hbm, ⟨37, _⟩ => ⟨S_, .f32⟩
  | .hbm, ⟨38, _⟩ => ⟨S10000x16, .f32⟩
  | .hbm, ⟨39, _⟩ => ⟨S10000x16, .f32⟩
  | .hbm, ⟨40, _⟩ => ⟨S10000x16, .f32⟩
  | .hbm, ⟨41, _⟩ => ⟨S10000x16, .f32⟩
  | .hbm, ⟨42, _⟩ => ⟨S10000x16, .f32⟩
  | .hbm, ⟨43, _⟩ => ⟨S10000x16, .f32⟩
  | .hbm, ⟨44, _⟩ => ⟨S10000x16, .f32⟩
  | .hbm, ⟨45, _⟩ => ⟨S10000x16, .f32⟩
  | .hbm, ⟨46, _⟩ => ⟨S10000x16, .f32⟩
  | .hbm, ⟨47, _⟩ => ⟨S10000x16, .f32⟩
  | .hbm, ⟨48, _⟩ => ⟨S10000x16, .f32⟩
  | .hbm, ⟨49, _⟩ => ⟨S10000x16, .f32⟩
  | .hbm, ⟨50, _⟩ => ⟨S10000x16, .f32⟩
  | .hbm, ⟨51, _⟩ => ⟨S10000x16, .f32⟩
  | .hbm, ⟨52, _⟩ => ⟨S_, .f32⟩
  | .hbm, ⟨53, _⟩ => ⟨S10000x16, .f32⟩
  | .hbm, ⟨54, _⟩ => ⟨S10000x16, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_3 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  reducesTo_S10000x16_S10000_d1 : S10000x16.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  bcast_S_S10000x16 : S_.BroadcastsInDim S10000x16 (![] : Fin 0 → Fin S10000x16.rank)
  dot_S10000x512_S512x256_S10000x256_1_0_0_1_n_n_wf : DotDims.WF S10000x512 S512x256 S10000x256 [1] [0] [0] [1] [] []
  dot_S10000x10000_S10000x256_S10000x256_1_0_0_1_n_n_wf : DotDims.WF S10000x10000 S10000x256 S10000x256 [1] [0] [0] [1] [] []
  dot_S10000x256_S256x16_S10000x16_1_0_0_1_n_n_wf : DotDims.WF S10000x256 S256x16 S10000x16 [1] [0] [0] [1] [] []
  dot_S10000x10000_S10000x16_S10000x16_1_0_0_1_n_n_wf : DotDims.WF S10000x10000 S10000x16 S10000x16 [1] [0] [0] [1] [] []
  dot_S10000x16_S16x16_S10000x16_1_0_0_1_n_n_wf : DotDims.WF S10000x16 S16x16 S10000x16 [1] [0] [0] [1] [] []

variable [Facts₀]

def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x16_S10000x16_1_0_0_1_n_n : DotDims S10000x256 S256x16 S10000x16 where
  lhsContracting := [1]
  rhsContracting := [0]
  lhsNonContracting := [0]
  rhsNonContracting := [1]
  lhsBatch := []
  rhsBatch := []
  wf := dot_S10000x256_S256x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf

class Facts : Prop extends Facts₀ where

variable [Facts]
-- ==== Proof.KernelRun.lean ====
/-
  The kernel program runs, and its result array ends holding the contents of the last segment boundary.

  The program's run is its thirteen segments launched one after another from the launch memory; every weakly fair
  execution terminates without a fault, and the final state holds, at every buffer that is never freed, the contents
  of the last boundary. Read at the result buffer that is the last call's result array; read at an argument it is the
  argument as launched, since no segment writes one.
-/
import proofs.«153989_j16939351015663_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and the argument arrays as launched. -/
theorem run_value : θ_run defs (onTc (τ := τ) (main (F := F))) ⟨m, fun _ => 0, ρ⟩ (fun r => ∀ c : Dev nD,
      r.2.mem ((c.tc : Thread nD τ).loc main_v17) = W13 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v17 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c)⟩)

end Cert.KernelIdeal.RunValue

end
-- ==== Proof.BeliefSpec.lean ====
/-
  The mathematics both programs compute, over the extended reals, on arrays written as functions of a row and a
  column coordinate.

  A two-layer graph network turns node features into class logits: with `Â` the normalised adjacency,
  `h = max(Â (X W₁) + b₁, 0)` and `z = Â (h W₂) + b₂`. Each row of `z` is turned into a centred belief: the softmax of
  the row minus one sixteenth. The beliefs `E` are then propagated four times along the raw adjacency `A` through a
  class-compatibility matrix `H`: `B ← E + A (B H)`, starting from `B = E`; the answer is the last `B` plus one
  sixteenth.

  Everything here is stated with the very operations the two programs apply at an entry (sum of products, `max`,
  `Ideal.exp`, `Ideal.div`, the three float words as they stand), so that no law of the extended reals is needed
  beyond the commutativity of addition, which joins a product-plus-beliefs to beliefs-plus-product.
-/
import Idealize.ShloMosaic.PureOps.Ideal.Laws

noncomputable section

open scoped BigOperators

namespace Cert.BeliefSpec

open Idealize.ShloMosaic

variable {M K N : ℕ}

/-- The float word of zero, of minus infinity, and of one sixteenth, as extended reals. -/
abbrev zeroW : EReal := Ideal.ofBits .f32 0x00000000#32
abbrev botW : EReal := Ideal.ofBits .f32 0xFF800000#32
abbrev sixteenthW : EReal := Ideal.ofBits .f32 0x3D800000#32

/-- The matrix product: entry `(p, q)` is the sum over `k` of `A p k * X k q`. -/
def mm (A : Fin M → Fin K → EReal) (X : Fin K → Fin N → EReal) : Fin M → Fin N → EReal :=
  fun p q => ∑ k : Fin K, A p k * X k q

/-- A dense layer: the product plus a bias that depends on the column only. -/
def dense (A : Fin M → Fin K → EReal) (X : Fin K → Fin N → EReal) (b : Fin N → EReal) : Fin M → Fin N → EReal :=
  fun p q => mm A X p q + b q

/-- A dense layer followed by the positive part. -/
def reluLayer (A : Fin M → Fin K → EReal) (X : Fin K → Fin N → EReal) (b : Fin N → EReal) : Fin M → Fin N → EReal :=
  fun p q => max (dense A X b p q) zeroW

/-- The largest entry of a row, as both programs take it: a fold of `max` from minus infinity, and once more the
    maximum with minus infinity. -/
def rowTop (z : Fin N → EReal) : EReal := max botW ((Finset.univ : Finset (Fin N)).fold max botW z)

/-- The centred softmax of one row at column `q`: `exp (z q - top) / ∑ c, exp (z c - top)`, minus one sixteenth. -/
def smRow (z : Fin N → EReal) (q : Fin N) : EReal :=
  Ideal.div (Ideal.exp (z q - rowTop z)) (∑ c : Fin N, Ideal.exp (z c - rowTop z)) - sixteenthW

/-- The centred beliefs of a table of logits, row by row. -/
def beliefs (Z : Fin M → Fin N → EReal) : Fin M → Fin N → EReal := fun p q => smRow (Z p) q

/-- One propagation step: the prior beliefs plus the adjacency applied to the current beliefs' compatibilities. -/
def step (A : Fin M → Fin K → EReal) (U : Fin K → Fin N → EReal) (E : Fin M → Fin N → EReal) : Fin M → Fin N → EReal :=
  fun p q => E p q + mm A U p q

/-- The last step, with the one sixteenth put back. -/
def lastStep (A : Fin M → Fin K → EReal) (U : Fin K → Fin N → EReal) (E : Fin M → Fin N → EReal) : Fin M → Fin N → EReal :=
  fun p q => step A U E p q + sixteenthW

variable {M' : ℕ}

/-- A product's entry is determined by one row of the left operand and one column of the right (the two left
    operands may have different numbers of rows). -/
theorem mm_congr {A : Fin M → Fin K → EReal} {A' : Fin M' → Fin K → EReal} {X X' : Fin K → Fin N → EReal}
    (p : Fin M) (p' : Fin M') (q : Fin N) (hA : ∀ k, A p k = A' p' k) (hX : ∀ k, X k q = X' k q) :
    mm A X p q = mm A' X' p' q :=
  Finset.sum_congr rfl fun k _ => by rw [hA k, hX k]

/-- A dense layer's entry is determined by one row of the left operand, one column of the right, and the bias there. -/
theorem dense_congr {A : Fin M → Fin K → EReal} {A' : Fin M' → Fin K → EReal} {X X' : Fin K → Fin N → EReal}
    {b b' : Fin N → EReal} (p : Fin M) (p' : Fin M') (q : Fin N)
    (hA : ∀ k, A p k = A' p' k) (hX : ∀ k, X k q = X' k q) (hb : b q = b' q) :
    dense A X b p q = dense A' X' b' p' q := by
  unfold dense; rw [mm_congr p p' q hA hX, hb]

/-- The same for the layer's positive part. -/
theorem reluLayer_congr {A : Fin M → Fin K → EReal} {A' : Fin M' → Fin K → EReal} {X X' : Fin K → Fin N → EReal}
    {b b' : Fin N → EReal} (p : Fin M) (p' : Fin M') (q : Fin N)
    (hA : ∀ k, A p k = A' p' k) (hX : ∀ k, X k q = X' k q) (hb : b q = b' q) :
    reluLayer A X b p q = reluLayer A' X' b' p' q := by
  unfold reluLayer; rw [dense_congr p p' q hA hX hb]

/-- The beliefs of a row of logits depend on that row only. -/
theorem beliefs_congr {Z : Fin M → Fin N → EReal} {Z' : Fin M' → Fin N → EReal} (p : Fin M) (p' : Fin M')
    (h : ∀ c, Z p c = Z' p' c) (q : Fin N) : beliefs Z p q = beliefs Z' p' q := by
  have e : Z p = Z' p' := funext h
  unfold beliefs; rw [e]

/-- A propagation step's entry is determined by one row of the adjacency, one column of the compatibilities, and the
    prior belief there. -/
theorem step_congr {A : Fin M → Fin K → EReal} {A' : Fin M' → Fin K → EReal} {U U' : Fin K → Fin N → EReal}
    {E : Fin M → Fin N → EReal} {E' : Fin M' → Fin N → EReal} (p : Fin M) (p' : Fin M') (q : Fin N)
    (hA : ∀ k, A p k = A' p' k) (hU : ∀ k, U k q = U' k q) (hE : E p q = E' p' q) :
    step A U E p q = step A' U' E' p' q := by
  unfold step; rw [mm_congr p p' q hA hU, hE]

/-- The same for the last step. -/
theorem lastStep_congr {A : Fin M → Fin K → EReal} {A' : Fin M' → Fin K → EReal} {U U' : Fin K → Fin N → EReal}
    {E : Fin M → Fin N → EReal} {E' : Fin M' → Fin N → EReal} (p : Fin M) (p' : Fin M') (q : Fin N)
    (hA : ∀ k, A p k = A' p' k) (hU : ∀ k, U k q = U' k q) (hE : E p q = E' p' q) :
    lastStep A U E p q = lastStep A' U' E' p' q := by
  unfold lastStep; rw [step_congr p p' q hA hU hE]

/-! ## The whole computation -/

section Network

variable {n f h c : ℕ}

/-- The hidden layer: the positive part of the normalised adjacency applied to the features' first product, plus
    the first bias. -/
def hiddenLayer (Ah : Fin n → Fin n → EReal) (X : Fin n → Fin f → EReal) (W1 : Fin f → Fin h → EReal) (b1 : Fin h → EReal) :
    Fin n → Fin h → EReal :=
  reluLayer Ah (mm X W1) b1

/-- The logits: the normalised adjacency applied to the hidden layer's product, plus the second bias. -/
def logits (Ah : Fin n → Fin n → EReal) (X : Fin n → Fin f → EReal) (W1 : Fin f → Fin h → EReal) (b1 : Fin h → EReal)
    (W2 : Fin h → Fin c → EReal) (b2 : Fin c → EReal) : Fin n → Fin c → EReal :=
  dense Ah (mm (hiddenLayer Ah X W1 b1) W2) b2

/-- The prior beliefs: the centred softmax of each row of logits. -/
def priorBeliefs (Ah : Fin n → Fin n → EReal) (X : Fin n → Fin f → EReal) (W1 : Fin f → Fin h → EReal) (b1 : Fin h → EReal)
    (W2 : Fin h → Fin c → EReal) (b2 : Fin c → EReal) : Fin n → Fin c → EReal :=
  beliefs (logits Ah X W1 b1 W2 b2)

/-- One propagation of beliefs `B` along the adjacency `A` through the compatibilities `H`, from the priors `E`. -/
def propagate (A : Fin n → Fin n → EReal) (H : Fin c → Fin c → EReal) (E B : Fin n → Fin c → EReal) : Fin n → Fin c → EReal :=
  step A (mm B H) E

/-- The last propagation, with the one sixteenth put back. -/
def finish (A : Fin n → Fin n → EReal) (H : Fin c → Fin c → EReal) (E B : Fin n → Fin c → EReal) : Fin n → Fin c → EReal :=
  lastStep A (mm B H) E

/-- The posterior beliefs after four propagations from the priors. -/
def answer (A Ah : Fin n → Fin n → EReal) (X : Fin n → Fin f → EReal) (W1 : Fin f → Fin h → EReal) (b1 : Fin h → EReal)
    (W2 : Fin h → Fin c → EReal) (b2 : Fin c → EReal) (H : Fin c → Fin c → EReal) : Fin n → Fin c → EReal :=
  finish A H (priorBeliefs Ah X W1 b1 W2 b2)
    (propagate A H (priorBeliefs Ah X W1 b1 W2 b2)
      (propagate A H (priorBeliefs Ah X W1 b1 W2 b2)
        (propagate A H (priorBeliefs Ah X W1 b1 W2 b2) (priorBeliefs Ah X W1 b1 W2 b2))))

end Network

end Cert.BeliefSpec

end
-- ==== Proof.LibTwoBlocks.lean ====
/-
  Three readings, at an entry, that come up when one matrix product over a joined axis is compared with two products
  over its parts, for any sizes.

  * A sum over `n = a + b` indices is the sum over the first `a` plus the sum over the last `b` (in any commutative
    monoid: only the grouping changes).
  * An `M × K` by `K × N` matrix product accumulated into zero reads, at `(p, q)`, the sum over `c` of
    `A (p, c) * B (c, q)`.
  * Two matrices with the same number of columns stacked one above the other read, at `(i, j)`, the upper one at
    `(i, j)` for a row of the upper piece and the lower one at `(i - a₁, j)` otherwise.
-/
import Mathlib.Algebra.BigOperators.Fin
import Idealize.ShloMosaic.Lib.Pipeline.Value
import Idealize.ShloMosaic.Lib.ValueIdx
import Idealize.ShloMosaic.PureOps.Ideal.Laws

noncomputable section

open scoped BigOperators

namespace Cert.Lib.TwoBlocks

open Idealize.ShloMosaic Idealize.ShloMosaic.ValueIdx

/-- A sum over `a + b` indices as the sum over the first `a` plus the sum over the last `b`. -/
theorem sum_two_blocks {M : Type*} [AddCommMonoid M] {a b n : ℕ} (hn : a + b = n) (f : Fin n → M) :
    ∑ k, f k = ∑ k : Fin a, f ⟨k.val, by have := k.isLt; omega⟩ + ∑ k : Fin b, f ⟨a + k.val, by have := k.isLt; omega⟩ := by
  subst hn
  rw [Fin.sum_univ_add]
  exact congrArg₂ (· + ·) (Finset.sum_congr rfl fun k _ => congrArg f (Fin.ext rfl))
    (Finset.sum_congr rfl fun k _ => congrArg f (Fin.ext rfl))

/-- An `M × K` by `K × N` product into the zero accumulator reads, at `(p, q)`, the sum over the shared axis. The
    dimension numbers are any that contract the left operand's columns with the right operand's rows and batch
    nothing (`hD`). -/
theorem plain_matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (p : Fin M) (q : Fin N) :
    matmul D prec A B (constant ⟨2, ![M, N]⟩ .f32 0x00000000#32) (ix2 p q) = ∑ c : Fin K, A (ix2 p c) * B (ix2 c q) := by
  subst hD
  show FloatOps.matmul (DotDims.plain M K N) prec A B _ (ix2 p q) = _
  rw [Ideal.matmul_constant_zero_apply, ← Equiv.sum_comp (contrEquiv1 (DotDims.plain M K N) K rfl rfl).symm]
  refine Finset.sum_congr rfl fun c _ => ?_
  have hk := contrEquiv1_symm_val (DotDims.plain M K N) K rfl rfl c
  have el : (DotDims.plain M K N).lhsIdx (ix2 p q) ((contrEquiv1 (DotDims.plain M K N) K rfl rfl).symm c) = ix2 p c :=
    funext fun ax => Fin.ext (by
      match ax with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm c) = ix2 c q :=
    funext fun ax => Fin.ext (by
      match ax with
      | ⟨0, _⟩ => exact ((DotDims.plain M K N).rhsIdx_val_of_single rfl (ix2 p q) _).trans hk
      | ⟨1, _⟩ => rfl)
  rw [el, er]

variable {α : Type}

/-- A row of the upper piece: the stack at `(i, j)` with `i = k < a₁` is the upper piece at `(k, j)`. -/
theorem concat_rows_upper {a₁ a₂ n b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0)
    (i : Fin n) (j : Fin b) (k : Fin a₁) (hk : k.val = i.val) :
    concatenate ⟨2, ![n, b]⟩ 0 [⟨⟨2, ![a₁, b]⟩, x₁⟩, ⟨⟨2, ![a₂, b]⟩, x₂⟩] h (ix2 i j) = x₁ (ix2 k j) :=
  concatenate_pair_apply_left (t := ⟨2, ![n, b]⟩) 0 x₁ x₂ h (ix2 i j) rfl (ix2 k j) (fun ax => by
    match ax with
    | ⟨0, _⟩ => exact hk
    | ⟨1, _⟩ => rfl)

/-- A row of the lower piece: the stack at `(i, j)` with `i = a₁ + k` is the lower piece at `(k, j)`. -/
theorem concat_rows_lower {a₁ a₂ n b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0)
    (i : Fin n) (j : Fin b) (k : Fin a₂) (hk : a₁ + k.val = i.val) :
    concatenate ⟨2, ![n, b]⟩ 0 [⟨⟨2, ![a₁, b]⟩, x₁⟩, ⟨⟨2, ![a₂, b]⟩, x₂⟩] h (ix2 i j) = x₂ (ix2 k j) :=
  concatenate_pair_apply_right (t := ⟨2, ![n, b]⟩) 0 x₁ x₂ h (ix2 i j) rfl rfl (ix2 k j) (fun ax hb => by
    match ax with
    | ⟨0, _⟩ => exact absurd rfl hb
    | ⟨1, _⟩ => rfl) (by
    show k.val + a₁ = i.val
    omega)

end Cert.Lib.TwoBlocks

end
-- ==== Proof.Region4.lean ====
/-
  The first propagation step, `B₁ = E + A u₀`, and the copy of `A`, as the fifth pipelined call leaves them.

  The call walks the 10000 rows of the raw adjacency `A` in fifty blocks of 200. At each block it writes the block
  back unchanged into a second array (a narrower float format there, which is the same number here), multiplies the
  block by the whole of `u₀`, and adds the matching 200 rows of the prior beliefs `E`. The kernel adds the beliefs to
  the product; addition of extended reals commutes, so that is the beliefs plus the product. Row `r` of block `t` is
  row `200 t + r` of `A` and of `E`, and row `p` of either result lies in block `p / 200`, so the fifty blocks tile
  both results.
-/
import proofs.«153989_j16939351015663_2_alg».proof.Proof.Gen.KernelIdeal.Frame
import proofs.«153989_j16939351015663_2_alg».proof.Proof.BeliefSpec
import proofs.«153989_j16939351015663_2_alg».proof.Proof.LibTwoBlocks
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region4

open Cert.KernelIdeal Cert.KernelIdeal.Gen Idealize.ShloMosaic Idealize.ShloMosaic.TcCoe Idealize.SL.Sem Idealize.ShloMosaic.ValueIdx Cert.BeliefSpec
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The whole-array function of the first result: the propagation step, entry by entry. -/
def G (A : S10000x10000.Idx → EReal) (U : S10000x16.Idx → EReal) (E : S10000x16.Idx → EReal) : S10000x16.Idx → EReal :=
  fun i => step (fun p k => A (ix2 p k)) (fun k q => U (ix2 k q)) (fun p q => E (ix2 p q))
    ⟨(i 0).val, (i 0).isLt⟩ ⟨(i 1).val, (i 1).isLt⟩

/-- The body's first result at row `r`, column `q` of a block: the product's entry plus the prior belief, which is
    the prior belief plus the product's entry. -/
theorem pay_apply (x0 : Vec Ideal S200x10000 .f32) (x1 : Vec Ideal S10000x16 .bf16) (x2 : Vec Ideal S200x16 .f32)
    (r : Fin 200) (q : Fin 16) :
    k4_pay2 x0 x1 x2 (ix2 r q)
      = step (fun p k => x0 (ix2 p k)) (fun k q => x1 (ix2 k q)) (fun p q => x2 (ix2 p q)) r q := by
  unfold k4_pay2
  rw [shapeCast_self, shapeCast_self]
  show _ + _ = _ + _
  refine (add_comm _ _).trans (congrArg₂ (· + ·) rfl ?_)
  exact Cert.Lib.TwoBlocks.plain_matmul_zero_apply dot_S200x10000_S10000x16_S200x16_1_0_0_1_n_n rfl none _ _ r q

/-- The index maps over the grid: the row blocks of `A`, of `E` and of both results move together, `u₀` stays. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- Row `r` of block `t` of `A` is row `200 t + r` of the array. -/
theorem read_0 (c : Dev nD) (t : Fin cfg4.N) (r : Fin 200) (p : Fin 10000) (hp : p.val = t.val * 200 + r.val) (k : Fin 10000) :
    iblk4 V c 0 t (ix2 r k) = V c (Pipeline.arrRef spec4 0) (ix2 p k) := by
  obtain ⟨e0, e1, -, -, -, -, -, -, -, -⟩ := idx_facts t
  show V c (Pipeline.arrRef spec4 0) (((cfg4.win 0).blk t).view.emb (ix2 r k)) = _
  refine congrArg (V c (Pipeline.arrRef spec4 0)) (funext fun a => Fin.ext ?_)
  match a with
  | ⟨0, _⟩ => show win4_0.index t (0 : Fin 2) * 200 + 1 * r.val = p.val; omega
  | ⟨1, _⟩ => show win4_0.index t (1 : Fin 2) * 10000 + 1 * k.val = k.val; omega

/-- The block of `u₀` is the whole array at every point. -/
theorem read_1 (c : Dev nD) (t : Fin cfg4.N) (k : Fin 10000) (q : Fin 16) :
    iblk4 V c 1 t (ix2 k q) = V c (Pipeline.arrRef spec4 1) (ix2 k q) := by
  obtain ⟨-, -, e2, e3, -, -, -, -, -, -⟩ := idx_facts t
  show V c (Pipeline.arrRef spec4 1) (((cfg4.win 1).blk t).view.emb (ix2 k q)) = _
  refine congrArg (V c (Pipeline.arrRef spec4 1)) (funext fun a => Fin.ext ?_)
  match a with
  | ⟨0, _⟩ => show win4_1.index t (0 : Fin 2) * 10000 + 1 * k.val = k.val; omega
  | ⟨1, _⟩ => show win4_1.index t (1 : Fin 2) * 16 + 1 * q.val = q.val; omega

/-- Row `r` of block `t` of `E` is row `200 t + r` of the array. -/
theorem read_2 (c : Dev nD) (t : Fin cfg4.N) (r : Fin 200) (p : Fin 10000) (hp : p.val = t.val * 200 + r.val) (q : Fin 16) :
    iblk4 V c 2 t (ix2 r q) = V c (Pipeline.arrRef spec4 2) (ix2 p q) := by
  obtain ⟨-, -, -, -, e4, e5, -, -, -, -⟩ := idx_facts t
  show V c (Pipeline.arrRef spec4 2) (((cfg4.win 2).blk t).view.emb (ix2 r q)) = _
  refine congrArg (V c (Pipeline.arrRef spec4 2)) (funext fun a => Fin.ext ?_)
  match a with
  | ⟨0, _⟩ => show win4_2.index t (0 : Fin 2) * 200 + 1 * r.val = p.val; omega
  | ⟨1, _⟩ => show win4_2.index t (1 : Fin 2) * 16 + 1 * q.val = q.val; omega

/-- What point `t` writes back into the first result is block `t` of the step of the arrays as the call finds them. -/
theorem flushed_eq (c : Dev nD) (t : Fin cfg4.N) :
    (dat4 V c).flushed 3 t = ((cfg4.win 3).blk t).view.read (Elt Ideal)
      (G (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero hz]
  simp only [View.ld_unit_zero (S := S200x10000) hz, View.ld_unit_zero (S := S10000x16) hz, View.ld_unit_zero (S := S200x16) hz]
  obtain ⟨-, -, -, -, -, -, e6, e7, -, -⟩ := idx_facts t
  have hN : cfg4.N = 50 := N_4
  have ht := t.isLt
  funext j
  obtain ⟨r, q, rfl⟩ : ∃ (r : Fin 200) (q : Fin 16), j = ix2 r q := ⟨j 0, j 1, eq_ix2 j⟩
  have hr := r.isLt
  have hemb : ((cfg4.win 3).blk t).view.emb (ix2 r q) = ix2 (⟨t.val * 200 + r.val, by omega⟩ : Fin 10000) q :=
    funext fun a => Fin.ext (by
      match a with
      | ⟨0, _⟩ => show win4_3.index t (0 : Fin 2) * 200 + 1 * r.val = t.val * 200 + r.val; omega
      | ⟨1, _⟩ => show win4_3.index t (1 : Fin 2) * 16 + 1 * q.val = q.val; omega)
  show k4_pay2 (iblk4 V c 0 t) (iblk4 V c 1 t) (iblk4 V c 2 t) (ix2 r q)
    = G (V c (Pipeline.arrRef spec4 0)) (V c (Pipeline.arrRef spec4 1)) (V c (Pipeline.arrRef spec4 2))
        (((cfg4.win 3).blk t).view.emb (ix2 r q))
  rw [hemb]
  refine (pay_apply (iblk4 V c 0 t) (iblk4 V c 1 t) (iblk4 V c 2 t) r q).trans ?_
  show step (fun p k => iblk4 V c 0 t (ix2 p k)) (fun k q => iblk4 V c 1 t (ix2 k q)) (fun p q => iblk4 V c 2 t (ix2 p q)) r q
    = step (fun p k => V c (Pipeline.arrRef spec4 0) (ix2 p k)) (fun k q => V c (Pipeline.arrRef spec4 1) (ix2 k q))
        (fun p q => V c (Pipeline.arrRef spec4 2) (ix2 p q)) (⟨t.val * 200 + r.val, by omega⟩ : Fin 10000) q
  exact step_congr r _ q (fun k => read_0 V c t r _ rfl k) (fun k => read_1 V c t k q) (read_2 V c t r _ rfl q)

/-- What point `t` writes back into the second result is block `t` of `A` itself. -/
theorem flushed_copy (c : Dev nD) (t : Fin cfg4.N) :
    (dat4 V c).flushed 4 t = ((cfg4.win 4).blk t).view.read (Elt Ideal) (V c (Pipeline.arrRef spec4 0)) := by
  show (cfg4.win 4).cut (grid4.coords t) ((dat4 V c).after 4 t) = _
  rw [after4_4]
  unfold out4_4
  rw [View.canon_unit_zero hz]
  simp only [View.ld_unit_zero (S := S200x10000) hz]
  obtain ⟨e0, e1, -, -, -, -, -, -, e8, e9⟩ := idx_facts t
  funext j
  obtain ⟨r, k, rfl⟩ : ∃ (r : Fin 200) (k : Fin 10000), j = ix2 r k := ⟨j 0, j 1, eq_ix2 j⟩
  show V c (Pipeline.arrRef spec4 0) (((cfg4.win 0).blk t).view.emb (ix2 r k))
    = V c (Pipeline.arrRef spec4 0) (((cfg4.win 4).blk t).view.emb (ix2 r k))
  refine congrArg (V c (Pipeline.arrRef spec4 0)) (funext fun a => Fin.ext ?_)
  match a with
  | ⟨0, _⟩ => show win4_0.index t (0 : Fin 2) * 200 + 1 * r.val = win4_4.index t (0 : Fin 2) * 200 + 1 * r.val; omega
  | ⟨1, _⟩ => show win4_0.index t (1 : Fin 2) * 10000 + 1 * k.val = win4_4.index t (1 : Fin 2) * 10000 + 1 * k.val; omega

/-- An index of the first result lies in point `t`'s block iff its row is among the block's 200 rows. -/
theorem mem_blk (t : Fin cfg4.N) (i : S10000x16.Idx) :
    i ∈ ((cfg4.win 3).blk t).view.set ↔ ∀ a : Fin 2, win4_3.index t a * S200x16.size a ≤ (i a).val ∧ (i a).val < win4_3.index t a * S200x16.size a + S200x16.size a := by
  show i ∈ ((View.whole main_v8_0).slice (win4_3.rect t)).set ↔ _
  rw [View.set_slice_whole, Rect.mem_set_unit]
  exact Iff.rfl

/-- The same for the second result. -/
theorem mem_blk_copy (t : Fin cfg4.N) (i : S10000x10000.Idx) :
    i ∈ ((cfg4.win 4).blk t).view.set ↔ ∀ a : Fin 2, win4_4.index t a * S200x10000.size a ≤ (i a).val ∧ (i a).val < win4_4.index t a * S200x10000.size a + S200x10000.size a := by
  show i ∈ ((View.whole main_v8_1).slice (win4_4.rect t)).set ↔ _
  rw [View.set_slice_whole, Rect.mem_set_unit]
  exact Iff.rfl

/-- Every index of the first result is in some point's block: row `p` in block `p / 200`. -/
theorem cover (i : S10000x16.Idx) : ∃ t : Fin cfg4.N, (cfg4.win 3).flush t = true ∧ i ∈ ((cfg4.win 3).blk t).view.set := by
  have hi0 : (i 0).val < 10000 := (i 0).isLt
  have hi1 : (i 1).val < 16 := (i 1).isLt
  have hN : cfg4.N = 50 := N_4
  let t : Fin cfg4.N := ⟨(i 0).val / 200, by rw [hN]; omega⟩
  obtain ⟨-, -, -, -, -, -, e6, e7, -, -⟩ := idx_facts t
  have e6' : win4_3.index t (0 : Fin 2) = (i 0).val / 200 := e6
  refine ⟨t, flush4_3 t, ?_⟩
  rw [mem_blk]
  intro a
  match a with
  | ⟨0, _⟩ => show win4_3.index t (0 : Fin 2) * 200 ≤ (i 0).val ∧ (i 0).val < win4_3.index t (0 : Fin 2) * 200 + 200; omega
  | ⟨1, _⟩ => show win4_3.index t (1 : Fin 2) * 16 ≤ (i 1).val ∧ (i 1).val < win4_3.index t (1 : Fin 2) * 16 + 16; omega

/-- Every index of the second result is in some point's block. -/
theorem cover_copy (i : S10000x10000.Idx) : ∃ t : Fin cfg4.N, (cfg4.win 4).flush t = true ∧ i ∈ ((cfg4.win 4).blk t).view.set := by
  have hi0 : (i 0).val < 10000 := (i 0).isLt
  have hi1 : (i 1).val < 10000 := (i 1).isLt
  have hN : cfg4.N = 50 := N_4
  let t : Fin cfg4.N := ⟨(i 0).val / 200, by rw [hN]; omega⟩
  obtain ⟨-, -, -, -, -, -, -, -, e8, e9⟩ := idx_facts t
  have e8' : win4_4.index t (0 : Fin 2) = (i 0).val / 200 := e8
  refine ⟨t, flush4_4 t, ?_⟩
  rw [mem_blk_copy]
  intro a
  match a with
  | ⟨0, _⟩ => show win4_4.index t (0 : Fin 2) * 200 ≤ (i 0).val ∧ (i 0).val < win4_4.index t (0 : Fin 2) * 200 + 200; omega
  | ⟨1, _⟩ => show win4_4.index t (1 : Fin 2) * 10000 ≤ (i 1).val ∧ (i 1).val < win4_4.index t (1 : Fin 2) * 10000 + 10000; omega

/-- The first result array after the call is the step of the three arrays the call found. -/
theorem final (c : Dev nD) : (dat4 V c).arrAt 3 cfg4.N
    = G (V c (Pipeline.arrRef spec4 0)) (V c (Pipeline.arrRef spec4 1)) (V c (Pipeline.arrRef spec4 2)) :=
  (dat4 V c).arrAt_eq_of_cover 3 _ (fun t _ => flushed_eq V c t) cover

/-- The same, entry by entry. -/
theorem final_apply (c : Dev nD) (p : Fin 10000) (q : Fin 16) :
    (dat4 V c).arrAt 3 cfg4.N (ix2 p q)
      = step (fun p k => V c (Pipeline.arrRef spec4 0) (ix2 p k)) (fun k q => V c (Pipeline.arrRef spec4 1) (ix2 k q))
          (fun p q => V c (Pipeline.arrRef spec4 2) (ix2 p q)) p q := by
  rw [final]; rfl

/-- The second result array after the call is the adjacency the call found. -/
theorem final_copy (c : Dev nD) : (dat4 V c).arrAt 4 cfg4.N = V c (Pipeline.arrRef spec4 0) :=
  (dat4 V c).arrAt_eq_of_cover 4 _ (fun t _ => flushed_copy V c t) cover_copy

end Cert.KernelIdeal.Region4

end
-- ==== Proof.Boundaries.lean ====
/-
  What the buffers hold at the boundaries between the segments of the kernel's program.

  The program is thirteen segments: two reshapes of the biases, four pipelined calls (the two-layer network), and
  then four times a small host product followed by a pipelined call (the propagation steps). A segment changes only
  the buffers it writes: a host stretch its results, a pipelined call its result arrays. Every other buffer holds at
  the next boundary what it held at the previous one; an array a pipelined call only reads is handed back as it was
  found. Followed backwards from where a buffer is read to where it was written, these facts say: the arguments are
  the launch memory's wherever they are read; the two reshaped biases are the biases; the prior beliefs `E`, once
  written, are the same array at every later reader; and the second array the first propagation call writes is the
  raw adjacency itself, at every later reader.
-/
import proofs.«153989_j16939351015663_2_alg».proof.Proof.Gen.KernelIdeal.Frame
import proofs.«153989_j16939351015663_2_alg».proof.Proof.Region4
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Boundaries

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat Cfg Window)

variable (m : (ℓ : Loc nD τ sig) → Buf (Elt Ideal) ℓ) (ρ : Dev nD → PrngReg) (c : Dev nD)

/-! ## After the two reshapes -/

theorem W1_arg0 : W1 m ρ c (Proc.devRef .tc main_arg0) = m ((c : Thread nD τ).loc main_arg0) := by
  show StableHlo.after hostOps0 (W0 m ρ c) (Proc.devRef .tc main_arg0) = _
  after_results
theorem W1_arg1 : W1 m ρ c (Proc.devRef .tc main_arg1) = m ((c : Thread nD τ).loc main_arg1) := by
  show StableHlo.after hostOps0 (W0 m ρ c) (Proc.devRef .tc main_arg1) = _
  after_results
theorem W1_arg2 : W1 m ρ c (Proc.devRef .tc main_arg2) = m ((c : Thread nD τ).loc main_arg2) := by
  show StableHlo.after hostOps0 (W0 m ρ c) (Proc.devRef .tc main_arg2) = _
  after_results
theorem W1_arg5 : W1 m ρ c (Proc.devRef .tc main_arg5) = m ((c : Thread nD τ).loc main_arg5) := by
  show StableHlo.after hostOps0 (W0 m ρ c) (Proc.devRef .tc main_arg5) = _
  after_results
theorem W1_arg7 : W1 m ρ c (Proc.devRef .tc main_arg7) = m ((c : Thread nD τ).loc main_arg7) := by
  show StableHlo.after hostOps0 (W0 m ρ c) (Proc.devRef .tc main_arg7) = _
  after_results
theorem W1_arg9 : W1 m ρ c (Proc.devRef .tc main_arg9) = m ((c : Thread nD τ).loc main_arg9) := by
  show StableHlo.after hostOps0 (W0 m ρ c) (Proc.devRef .tc main_arg9) = _
  after_results

/-- The first bias kept as a one-row array reads, at `(0, q)`, the bias at `q`. -/
theorem W1_v0_apply (u : Fin 1) (q : Fin 256) :
    W1 m ρ c (Proc.devRef .tc main_v0) (ix2 u q) = m ((c : Thread nD τ).loc main_arg6) (ix1 q) := by
  show StableHlo.after hostOps0 (W0 m ρ c) (Proc.devRef .tc main_v0) (ix2 u q) = _
  after_results
  exact shapeCast_a_1a_apply _ _ u q
/-- The second bias kept as a one-row array reads, at `(0, q)`, the bias at `q`. -/
theorem W1_v1_apply (u : Fin 1) (q : Fin 16) :
    W1 m ρ c (Proc.devRef .tc main_v1) (ix2 u q) = m ((c : Thread nD τ).loc main_arg8) (ix1 q) := by
  show StableHlo.after hostOps0 (W0 m ρ c) (Proc.devRef .tc main_v1) (ix2 u q) = _
  after_results
  exact shapeCast_a_1a_apply _ _ u q

/-! ## The network's four calls -/

theorem W2_arg1 : W2 m ρ c (Proc.devRef .tc main_arg1) = m ((c : Thread nD τ).loc main_arg1) :=
  (W2_of_ne m ρ c main_arg1 (by decide)).trans (W1_arg1 m ρ c)
theorem W2_arg7 : W2 m ρ c (Proc.devRef .tc main_arg7) = m ((c : Thread nD τ).loc main_arg7) :=
  (W2_of_ne m ρ c main_arg7 (by decide)).trans (W1_arg7 m ρ c)
theorem W2_arg0 : W2 m ρ c (Proc.devRef .tc main_arg0) = m ((c : Thread nD τ).loc main_arg0) :=
  (W2_of_ne m ρ c main_arg0 (by decide)).trans (W1_arg0 m ρ c)
theorem W2_arg9 : W2 m ρ c (Proc.devRef .tc main_arg9) = m ((c : Thread nD τ).loc main_arg9) :=
  (W2_of_ne m ρ c main_arg9 (by decide)).trans (W1_arg9 m ρ c)
theorem W2_v0_apply (u : Fin 1) (q : Fin 256) :
    W2 m ρ c (Proc.devRef .tc main_v0) (ix2 u q) = m ((c : Thread nD τ).loc main_arg6) (ix1 q) :=
  (congrFun (W2_of_ne m ρ c main_v0 (by decide)) (ix2 u q)).trans (W1_v0_apply m ρ c u q)
theorem W2_v1_apply (u : Fin 1) (q : Fin 16) :
    W2 m ρ c (Proc.devRef .tc main_v1) (ix2 u q) = m ((c : Thread nD τ).loc main_arg8) (ix1 q) :=
  (congrFun (W2_of_ne m ρ c main_v1 (by decide)) (ix2 u q)).trans (W1_v1_apply m ρ c u q)

/-- The second call only reads the normalised adjacency: it is handed back as found. -/
theorem W3_arg1 : W3 m ρ c (Proc.devRef .tc main_arg1) = m ((c : Thread nD τ).loc main_arg1) :=
  (W3_arr m ρ c 0).trans ((((dat1 (V2 m ρ) c).arrAt_in 0 rfl _).trans (A_eq1 (V2 m ρ) c 0)).trans (W2_arg1 m ρ c))
theorem W3_arg7 : W3 m ρ c (Proc.devRef .tc main_arg7) = m ((c : Thread nD τ).loc main_arg7) :=
  (W3_of_ne m ρ c main_arg7 (by decide)).trans (W2_arg7 m ρ c)
theorem W3_arg0 : W3 m ρ c (Proc.devRef .tc main_arg0) = m ((c : Thread nD τ).loc main_arg0) :=
  (W3_of_ne m ρ c main_arg0 (by decide)).trans (W2_arg0 m ρ c)
theorem W3_arg9 : W3 m ρ c (Proc.devRef .tc main_arg9) = m ((c : Thread nD τ).loc main_arg9) :=
  (W3_of_ne m ρ c main_arg9 (by decide)).trans (W2_arg9 m ρ c)
theorem W3_v1_apply (u : Fin 1) (q : Fin 16) :
    W3 m ρ c (Proc.devRef .tc main_v1) (ix2 u q) = m ((c : Thread nD τ).loc main_arg8) (ix1 q) :=
  (congrFun (W3_of_ne m ρ c main_v1 (by decide)) (ix2 u q)).trans (W2_v1_apply m ρ c u q)

theorem W4_arg1 : W4 m ρ c (Proc.devRef .tc main_arg1) = m ((c : Thread nD τ).loc main_arg1) :=
  (W4_of_ne m ρ c main_arg1 (by decide)).trans (W3_arg1 m ρ c)
theorem W4_arg0 : W4 m ρ c (Proc.devRef .tc main_arg0) = m ((c : Thread nD τ).loc main_arg0) :=
  (W4_of_ne m ρ c main_arg0 (by decide)).trans (W3_arg0 m ρ c)
theorem W4_arg9 : W4 m ρ c (Proc.devRef .tc main_arg9) = m ((c : Thread nD τ).loc main_arg9) :=
  (W4_of_ne m ρ c main_arg9 (by decide)).trans (W3_arg9 m ρ c)
theorem W4_v1_apply (u : Fin 1) (q : Fin 16) :
    W4 m ρ c (Proc.devRef .tc main_v1) (ix2 u q) = m ((c : Thread nD τ).loc main_arg8) (ix1 q) :=
  (congrFun (W4_of_ne m ρ c main_v1 (by decide)) (ix2 u q)).trans (W3_v1_apply m ρ c u q)

theorem W5_arg0 : W5 m ρ c (Proc.devRef .tc main_arg0) = m ((c : Thread nD τ).loc main_arg0) :=
  (W5_of_ne m ρ c main_arg0 (by decide)).trans (W4_arg0 m ρ c)
theorem W5_arg9 : W5 m ρ c (Proc.devRef .tc main_arg9) = m ((c : Thread nD τ).loc main_arg9) :=
  (W5_of_ne m ρ c main_arg9 (by decide)).trans (W4_arg9 m ρ c)

/-! ## The first propagation step -/

theorem W6_arg0 : W6 m ρ c (Proc.devRef .tc main_arg0) = m ((c : Thread nD τ).loc main_arg0) := by
  show StableHlo.after hostOps4 (W5 m ρ c) (Proc.devRef .tc main_arg0) = _
  after_results; exact W5_arg0 m ρ c
theorem W6_arg9 : W6 m ρ c (Proc.devRef .tc main_arg9) = m ((c : Thread nD τ).loc main_arg9) := by
  show StableHlo.after hostOps4 (W5 m ρ c) (Proc.devRef .tc main_arg9) = _
  after_results; exact W5_arg9 m ρ c
theorem W6_v5 : W6 m ρ c (Proc.devRef .tc main_v5) = W5 m ρ c (Proc.devRef .tc main_v5) := by
  show StableHlo.after hostOps4 (W5 m ρ c) (Proc.devRef .tc main_v5) = _
  after_results

theorem W7_arg9 : W7 m ρ c (Proc.devRef .tc main_arg9) = m ((c : Thread nD τ).loc main_arg9) :=
  (W7_of_ne m ρ c main_arg9 (by decide)).trans (W6_arg9 m ρ c)
/-- The call only reads the prior beliefs: they are handed back as found. -/
theorem W7_v5 : W7 m ρ c (Proc.devRef .tc main_v5) = W5 m ρ c (Proc.devRef .tc main_v5) :=
  (W7_arr m ρ c 2).trans ((((dat4 (V6 m ρ) c).arrAt_in 2 rfl _).trans (A_eq4 (V6 m ρ) c 2)).trans (W6_v5 m ρ c))
/-- The second array the call writes is the raw adjacency, entry by entry. -/
theorem W7_v8_1_apply (p k : Fin 10000) :
    W7 m ρ c (Proc.devRef .tc main_v8_1) (ix2 p k) = m ((c : Thread nD τ).loc main_arg0) (ix2 p k) :=
  (congrFun (W7_arr m ρ c 4) (ix2 p k)).trans
    ((congrFun (Cert.KernelIdeal.Region4.final_copy (V6 m ρ) c) (ix2 p k)).trans (congrFun (W6_arg0 m ρ c) (ix2 p k)))

/-! ## The second propagation step -/

theorem W8_arg9 : W8 m ρ c (Proc.devRef .tc main_arg9) = m ((c : Thread nD τ).loc main_arg9) := by
  show StableHlo.after hostOps5 (W7 m ρ c) (Proc.devRef .tc main_arg9) = _
  after_results; exact W7_arg9 m ρ c
theorem W8_v5 : W8 m ρ c (Proc.devRef .tc main_v5) = W5 m ρ c (Proc.devRef .tc main_v5) := by
  show StableHlo.after hostOps5 (W7 m ρ c) (Proc.devRef .tc main_v5) = _
  after_results; exact W7_v5 m ρ c
theorem W8_v8_1_apply (p k : Fin 10000) :
    W8 m ρ c (Proc.devRef .tc main_v8_1) (ix2 p k) = m ((c : Thread nD τ).loc main_arg0) (ix2 p k) := by
  show StableHlo.after hostOps5 (W7 m ρ c) (Proc.devRef .tc main_v8_1) (ix2 p k) = _
  after_results; exact W7_v8_1_apply m ρ c p k

theorem W9_arg9 : W9 m ρ c (Proc.devRef .tc main_arg9) = m ((c : Thread nD τ).loc main_arg9) :=
  (W9_of_ne m ρ c main_arg9 (by decide)).trans (W8_arg9 m ρ c)
theorem W9_v5 : W9 m ρ c (Proc.devRef .tc main_v5) = W5 m ρ c (Proc.devRef .tc main_v5) :=
  (W9_arr m ρ c 2).trans ((((dat5 (V8 m ρ) c).arrAt_in 2 rfl _).trans (A_eq5 (V8 m ρ) c 2)).trans (W8_v5 m ρ c))
theorem W9_v8_1_apply (p k : Fin 10000) :
    W9 m ρ c (Proc.devRef .tc main_v8_1) (ix2 p k) = m ((c : Thread nD τ).loc main_arg0) (ix2 p k) :=
  (congrFun ((W9_arr m ρ c 0).trans (((dat5 (V8 m ρ) c).arrAt_in 0 rfl _).trans (A_eq5 (V8 m ρ) c 0))) (ix2 p k)).trans
    (W8_v8_1_apply m ρ c p k)

/-! ## The third propagation step -/

theorem W10_arg9 : W10 m ρ c (Proc.devRef .tc main_arg9) = m ((c : Thread nD τ).loc main_arg9) := by
  show StableHlo.after hostOps6 (W9 m ρ c) (Proc.devRef .tc main_arg9) = _
  after_results; exact W9_arg9 m ρ c
theorem W10_v5 : W10 m ρ c (Proc.devRef .tc main_v5) = W5 m ρ c (Proc.devRef .tc main_v5) := by
  show StableHlo.after hostOps6 (W9 m ρ c) (Proc.devRef .tc main_v5) = _
  after_results; exact W9_v5 m ρ c
theorem W10_v8_1_apply (p k : Fin 10000) :
    W10 m ρ c (Proc.devRef .tc main_v8_1) (ix2 p k) = m ((c : Thread nD τ).loc main_arg0) (ix2 p k) := by
  show StableHlo.after hostOps6 (W9 m ρ c) (Proc.devRef .tc main_v8_1) (ix2 p k) = _
  after_results; exact W9_v8_1_apply m ρ c p k

theorem W11_arg9 : W11 m ρ c (Proc.devRef .tc main_arg9) = m ((c : Thread nD τ).loc main_arg9) :=
  (W11_of_ne m ρ c main_arg9 (by decide)).trans (W10_arg9 m ρ c)
theorem W11_v5 : W11 m ρ c (Proc.devRef .tc main_v5) = W5 m ρ c (Proc.devRef .tc main_v5) :=
  (W11_arr m ρ c 2).trans ((((dat6 (V10 m ρ) c).arrAt_in 2 rfl _).trans (A_eq6 (V10 m ρ) c 2)).trans (W10_v5 m ρ c))
theorem W11_v8_1_apply (p k : Fin 10000) :
    W11 m ρ c (Proc.devRef .tc main_v8_1) (ix2 p k) = m ((c : Thread nD τ).loc main_arg0) (ix2 p k) :=
  (congrFun ((W11_arr m ρ c 0).trans (((dat6 (V10 m ρ) c).arrAt_in 0 rfl _).trans (A_eq6 (V10 m ρ) c 0))) (ix2 p k)).trans
    (W10_v8_1_apply m ρ c p k)

/-! ## The last propagation step -/

theorem W12_v5 : W12 m ρ c (Proc.devRef .tc main_v5) = W5 m ρ c (Proc.devRef .tc main_v5) := by
  show StableHlo.after hostOps7 (W11 m ρ c) (Proc.devRef .tc main_v5) = _
  after_results; exact W11_v5 m ρ c
theorem W12_v8_1_apply (p k : Fin 10000) :
    W12 m ρ c (Proc.devRef .tc main_v8_1) (ix2 p k) = m ((c : Thread nD τ).loc main_arg0) (ix2 p k) := by
  show StableHlo.after hostOps7 (W11 m ρ c) (Proc.devRef .tc main_v8_1) (ix2 p k) = _
  after_results; exact W11_v8_1_apply m ρ c p k

end Cert.KernelIdeal.Boundaries

end
-- ==== Proof.Region0.lean ====
/-
  The first product, `t₁ = X W₁`, as the first pipelined call leaves it.

  The call walks the 10000 rows of `X` in five blocks of 2000; at each block it multiplies the block by the whole of
  `W₁`. Row `r` of block `t` is row `2000 t + r` of `X`, and the entry of the product at a row depends on that row of
  `X` only, so each block written back is the block of one whole-array function: the matrix product. The five blocks
  tile the result (row `p` lies in block `p / 2000`), so the array ends holding the product everywhere.
-/
import proofs.«153989_j16939351015663_2_alg».proof.Proof.Gen.KernelIdeal.Frame
import proofs.«153989_j16939351015663_2_alg».proof.Proof.BeliefSpec
import proofs.«153989_j16939351015663_2_alg».proof.Proof.LibTwoBlocks
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Cert.KernelIdeal Cert.KernelIdeal.Gen Idealize.ShloMosaic Idealize.ShloMosaic.TcCoe Idealize.SL.Sem Idealize.ShloMosaic.ValueIdx Cert.BeliefSpec
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The whole-array function the call computes: the product of the two arrays, entry by entry. -/
def G (A : S10000x512.Idx → EReal) (X : S512x256.Idx → EReal) : S10000x256.Idx → EReal :=
  fun i => mm (fun p k => A (ix2 p k)) (fun k q => X (ix2 k q)) ⟨(i 0).val, (i 0).isLt⟩ ⟨(i 1).val, (i 1).isLt⟩

/-- The body's result at row `r`, column `q` of a block: the sum over `k` of the block's row times the column. -/
theorem pay_apply (x0 : Vec Ideal S2000x512 .f32) (x1 : Vec Ideal S512x256 .f32) (r : Fin 2000) (q : Fin 256) :
    k0_pay1 x0 x1 (ix2 r q) = ∑ k : Fin 512, x0 (ix2 r k) * x1 (ix2 k q) := by
  unfold k0_pay1
  exact Cert.Lib.TwoBlocks.plain_matmul_zero_apply dot_S2000x512_S512x256_S2000x256_1_0_0_1_n_n rfl none _ _ r q

/-- The index maps over the grid: the row blocks of `X` and of the result move together, `W₁` stays. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the arrays as the call finds them. -/
theorem flushed_eq (c : Dev nD) (t : Fin cfg0.N) :
    (dat0 V c).flushed 2 t = ((cfg0.win 2).blk t).view.read (Elt Ideal) (G (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x256) hz]
  obtain ⟨e0, e1, e2, e3, e4, e5⟩ := idx_facts t
  funext j
  obtain ⟨r, q, rfl⟩ : ∃ (r : Fin 2000) (q : Fin 256), j = ix2 r q := ⟨j 0, j 1, eq_ix2 j⟩
  show k0_pay1 (iblk0 V c 0 t) (iblk0 V c 1 t) (ix2 r q)
    = G (V c (Pipeline.arrRef spec0 0)) (V c (Pipeline.arrRef spec0 1)) (((cfg0.win 2).blk t).view.emb (ix2 r q))
  refine (pay_apply (iblk0 V c 0 t) (iblk0 V c 1 t) r q).trans ?_
  unfold G mm
  refine Finset.sum_congr rfl fun k _ => ?_
  have h0 : iblk0 V c 0 t (ix2 r k) = V c (Pipeline.arrRef spec0 0)
      (ix2 ⟨((((cfg0.win 2).blk t).view.emb (ix2 r q)) 0).val, ((((cfg0.win 2).blk t).view.emb (ix2 r q)) 0).isLt⟩ k) := by
    show V c (Pipeline.arrRef spec0 0) (((cfg0.win 0).blk t).view.emb (ix2 r k)) = _
    refine congrArg (V c (Pipeline.arrRef spec0 0)) (funext fun a => Fin.ext ?_)
    match a with
    | ⟨0, _⟩ => show win0_0.index t (0 : Fin 2) * 2000 + 1 * r.val = win0_2.index t (0 : Fin 2) * 2000 + 1 * r.val; omega
    | ⟨1, _⟩ => show win0_0.index t (1 : Fin 2) * 512 + 1 * k.val = k.val; omega
  have h1 : iblk0 V c 1 t (ix2 k q) = V c (Pipeline.arrRef spec0 1)
      (ix2 k ⟨((((cfg0.win 2).blk t).view.emb (ix2 r q)) 1).val, ((((cfg0.win 2).blk t).view.emb (ix2 r q)) 1).isLt⟩) := by
    show V c (Pipeline.arrRef spec0 1) (((cfg0.win 1).blk t).view.emb (ix2 k q)) = _
    refine congrArg (V c (Pipeline.arrRef spec0 1)) (funext fun a => Fin.ext ?_)
    match a with
    | ⟨0, _⟩ => show win0_1.index t (0 : Fin 2) * 512 + 1 * k.val = k.val; omega
    | ⟨1, _⟩ => show win0_1.index t (1 : Fin 2) * 256 + 1 * q.val = win0_2.index t (1 : Fin 2) * 256 + 1 * q.val; omega
  rw [h0, h1]

/-- An index of the result lies in point `t`'s block iff its row is among the block's 2000 rows. -/
theorem mem_blk (t : Fin cfg0.N) (i : S10000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v2).slice (win0_2.rect t)).set ↔ _
  rw [View.set_slice_whole, Rect.mem_set_unit]
  exact Iff.rfl

/-- Every index of the result is in some point's block: row `p` in block `p / 2000`. -/
theorem cover (i : S10000x256.Idx) : ∃ t : Fin cfg0.N, (cfg0.win 2).flush t = true ∧ i ∈ ((cfg0.win 2).blk t).view.set := by
  have hi0 : (i 0).val < 10000 := (i 0).isLt
  have hi1 : (i 1).val < 256 := (i 1).isLt
  have hN : cfg0.N = 5 := N_0
  let t : Fin cfg0.N := ⟨(i 0).val / 2000, by rw [hN]; omega⟩
  obtain ⟨-, -, -, -, e4, e5⟩ := idx_facts t
  have e4' : win0_2.index t (0 : Fin 2) = (i 0).val / 2000 := e4
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- The result array after the call is the product of the two arrays the call found. -/
theorem final (c : Dev nD) : (dat0 V c).arrAt 2 cfg0.N = G (V c (Pipeline.arrRef spec0 0)) (V c (Pipeline.arrRef spec0 1)) :=
  (dat0 V c).arrAt_eq_of_cover 2 _ (fun t _ => flushed_eq V c t) cover

/-- The same, entry by entry. -/
theorem final_apply (c : Dev nD) (p : Fin 10000) (q : Fin 256) :
    (dat0 V c).arrAt 2 cfg0.N (ix2 p q)
      = mm (fun p k => V c (Pipeline.arrRef spec0 0) (ix2 p k)) (fun k q => V c (Pipeline.arrRef spec0 1) (ix2 k q)) p q := by
  rw [final]; rfl

end Cert.KernelIdeal.Region0

end
-- ==== Proof.Region1.lean ====
/-
  The hidden layer, `h = max(Â t₁ + b₁, 0)`, as the second pipelined call leaves it.

  The call walks the 10000 rows of the normalised adjacency `Â` in fifty blocks of 200. At each block it multiplies
  the block by the whole of `t₁`, adds the bias row `b₁` to every row, and takes the positive part. Row `r` of block
  `t` is row `200 t + r` of `Â`, and an entry of the layer at a row depends on that row of `Â` only, so each block
  written back is the block of one whole-array function. Row `p` of the result lies in block `p / 200`, so the fifty
  blocks tile the result.
-/
import proofs.«153989_j16939351015663_2_alg».proof.Proof.Gen.KernelIdeal.Frame
import proofs.«153989_j16939351015663_2_alg».proof.Proof.BeliefSpec
import proofs.«153989_j16939351015663_2_alg».proof.Proof.LibTwoBlocks
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen Idealize.ShloMosaic Idealize.ShloMosaic.TcCoe Idealize.SL.Sem Idealize.ShloMosaic.ValueIdx Cert.BeliefSpec
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The whole-array function the call computes: the dense layer's positive part, entry by entry. -/
def G (A : S10000x10000.Idx → EReal) (X : S10000x256.Idx → EReal) (b : S1x256.Idx → EReal) : S10000x256.Idx → EReal :=
  fun i => reluLayer (fun p k => A (ix2 p k)) (fun k q => X (ix2 k q)) (fun q => b (ix2 (0 : Fin 1) q))
    ⟨(i 0).val, (i 0).isLt⟩ ⟨(i 1).val, (i 1).isLt⟩

/-- The body's result at row `r`, column `q` of a block. -/
theorem pay_apply (x0 : Vec Ideal S200x10000 .f32) (x1 : Vec Ideal S10000x256 .bf16) (x2 : Vec Ideal S1x256 .f32)
    (r : Fin 200) (q : Fin 256) :
    k1_pay1 x0 x1 x2 (ix2 r q)
      = reluLayer (fun p k => x0 (ix2 p k)) (fun k q => x1 (ix2 k q)) (fun q => x2 (ix2 (0 : Fin 1) q)) r q := by
  unfold k1_pay1
  rw [shapeCast_self, shapeCast_self]
  show max (_ + _) _ = max (_ + _) _
  refine congrArg₂ max (congrArg₂ (· + ·) ?_ ?_) rfl
  · exact Cert.Lib.TwoBlocks.plain_matmul_zero_apply dot_S200x10000_S10000x256_S200x256_1_0_0_1_n_n rfl none _ _ r q
  · exact broadcastTo_1b_ab_apply x2 _ r q

/-- The index maps over the grid: the row blocks of `Â` and of the result move together, `t₁` and `b₁` stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `r` of block `t` of `Â` is row `200 t + r` of the array. -/
theorem read_0 (c : Dev nD) (t : Fin cfg1.N) (r : Fin 200) (p : Fin 10000) (hp : p.val = t.val * 200 + r.val) (k : Fin 10000) :
    iblk1 V c 0 t (ix2 r k) = V c (Pipeline.arrRef spec1 0) (ix2 p k) := by
  obtain ⟨e0, e1, -, -, -, -, -, -⟩ := idx_facts t
  show V c (Pipeline.arrRef spec1 0) (((cfg1.win 0).blk t).view.emb (ix2 r k)) = _
  refine congrArg (V c (Pipeline.arrRef spec1 0)) (funext fun a => Fin.ext ?_)
  match a with
  | ⟨0, _⟩ => show win1_0.index t (0 : Fin 2) * 200 + 1 * r.val = p.val; omega
  | ⟨1, _⟩ => show win1_0.index t (1 : Fin 2) * 10000 + 1 * k.val = k.val; omega

/-- The block of `t₁` is the whole array at every point. -/
theorem read_1 (c : Dev nD) (t : Fin cfg1.N) (k : Fin 10000) (q : Fin 256) :
    iblk1 V c 1 t (ix2 k q) = V c (Pipeline.arrRef spec1 1) (ix2 k q) := by
  obtain ⟨-, -, e2, e3, -, -, -, -⟩ := idx_facts t
  show V c (Pipeline.arrRef spec1 1) (((cfg1.win 1).blk t).view.emb (ix2 k q)) = _
  refine congrArg (V c (Pipeline.arrRef spec1 1)) (funext fun a => Fin.ext ?_)
  match a with
  | ⟨0, _⟩ => show win1_1.index t (0 : Fin 2) * 10000 + 1 * k.val = k.val; omega
  | ⟨1, _⟩ => show win1_1.index t (1 : Fin 2) * 256 + 1 * q.val = q.val; omega

/-- The block of the bias row is the whole row at every point. -/
theorem read_2 (c : Dev nD) (t : Fin cfg1.N) (u : Fin 1) (q : Fin 256) :
    iblk1 V c 2 t (ix2 u q) = V c (Pipeline.arrRef spec1 2) (ix2 u q) := by
  obtain ⟨-, -, -, -, e4, e5, -, -⟩ := idx_facts t
  show V c (Pipeline.arrRef spec1 2) (((cfg1.win 2).blk t).view.emb (ix2 u q)) = _
  refine congrArg (V c (Pipeline.arrRef spec1 2)) (funext fun a => Fin.ext ?_)
  match a with
  | ⟨0, _⟩ => show win1_2.index t (0 : Fin 2) * 1 + 1 * u.val = u.val; omega
  | ⟨1, _⟩ => show win1_2.index t (1 : Fin 2) * 256 + 1 * q.val = q.val; omega

/-- What point `t` writes back is block `t` of the layer of the arrays as the call finds them. -/
theorem flushed_eq (c : Dev nD) (t : Fin cfg1.N) :
    (dat1 V c).flushed 3 t = ((cfg1.win 3).blk t).view.read (Elt Ideal)
      (G (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz]
  simp only [View.ld_unit_zero (S := S200x10000) hz, View.ld_unit_zero (S := S10000x256) hz, View.ld_unit_zero (S := S1x256) hz]
  obtain ⟨-, -, -, -, -, -, e6, e7⟩ := idx_facts t
  have hN : cfg1.N = 50 := N_1
  have ht := t.isLt
  funext j
  obtain ⟨r, q, rfl⟩ : ∃ (r : Fin 200) (q : Fin 256), j = ix2 r q := ⟨j 0, j 1, eq_ix2 j⟩
  have hr := r.isLt
  have hemb : ((cfg1.win 3).blk t).view.emb (ix2 r q) = ix2 (⟨t.val * 200 + r.val, by omega⟩ : Fin 10000) q :=
    funext fun a => Fin.ext (by
      match a with
      | ⟨0, _⟩ => show win1_3.index t (0 : Fin 2) * 200 + 1 * r.val = t.val * 200 + r.val; omega
      | ⟨1, _⟩ => show win1_3.index t (1 : Fin 2) * 256 + 1 * q.val = q.val; omega)
  show k1_pay1 (iblk1 V c 0 t) (iblk1 V c 1 t) (iblk1 V c 2 t) (ix2 r q)
    = G (V c (Pipeline.arrRef spec1 0)) (V c (Pipeline.arrRef spec1 1)) (V c (Pipeline.arrRef spec1 2))
        (((cfg1.win 3).blk t).view.emb (ix2 r q))
  rw [hemb]
  refine (pay_apply (iblk1 V c 0 t) (iblk1 V c 1 t) (iblk1 V c 2 t) r q).trans ?_
  show reluLayer (fun p k => iblk1 V c 0 t (ix2 p k)) (fun k q => iblk1 V c 1 t (ix2 k q)) (fun q => iblk1 V c 2 t (ix2 (0 : Fin 1) q)) r q
    = reluLayer (fun p k => V c (Pipeline.arrRef spec1 0) (ix2 p k)) (fun k q => V c (Pipeline.arrRef spec1 1) (ix2 k q))
        (fun q => V c (Pipeline.arrRef spec1 2) (ix2 (0 : Fin 1) q)) (⟨t.val * 200 + r.val, by omega⟩ : Fin 10000) q
  simp only [reluLayer, dense, mm, read_0 V c t r (⟨t.val * 200 + r.val, by omega⟩ : Fin 10000) rfl, read_1 V c t, read_2 V c t]

/-- An index of the result lies in point `t`'s block iff its row is among the block's 200 rows. -/
theorem mem_blk (t : Fin cfg1.N) (i : S10000x256.Idx) :
    i ∈ ((cfg1.win 3).blk t).view.set ↔ ∀ a : Fin 2, win1_3.index t a * S200x256.size a ≤ (i a).val ∧ (i a).val < win1_3.index t a * S200x256.size a + S200x256.size a := by
  show i ∈ ((View.whole main_v3).slice (win1_3.rect t)).set ↔ _
  rw [View.set_slice_whole, Rect.mem_set_unit]
  exact Iff.rfl

/-- Every index of the result is in some point's block: row `p` in block `p / 200`. -/
theorem cover (i : S10000x256.Idx) : ∃ t : Fin cfg1.N, (cfg1.win 3).flush t = true ∧ i ∈ ((cfg1.win 3).blk t).view.set := by
  have hi0 : (i 0).val < 10000 := (i 0).isLt
  have hi1 : (i 1).val < 256 := (i 1).isLt
  have hN : cfg1.N = 50 := N_1
  let t : Fin cfg1.N := ⟨(i 0).val / 200, by rw [hN]; omega⟩
  obtain ⟨-, -, -, -, -, -, e6, e7⟩ := idx_facts t
  have e6' : win1_3.index t (0 : Fin 2) = (i 0).val / 200 := e6
  refine ⟨t, flush1_3 t, ?_⟩
  rw [mem_blk]
  intro a
  match a with
  | ⟨0, _⟩ => show win1_3.index t (0 : Fin 2) * 200 ≤ (i 0).val ∧ (i 0).val < win1_3.index t (0 : Fin 2) * 200 + 200; omega
  | ⟨1, _⟩ => show win1_3.index t (1 : Fin 2) * 256 ≤ (i 1).val ∧ (i 1).val < win1_3.index t (1 : Fin 2) * 256 + 256; omega

/-- The result array after the call is the layer of the three arrays the call found. -/
theorem final (c : Dev nD) : (dat1 V c).arrAt 3 cfg1.N
    = G (V c (Pipeline.arrRef spec1 0)) (V c (Pipeline.arrRef spec1 1)) (V c (Pipeline.arrRef spec1 2)) :=
  (dat1 V c).arrAt_eq_of_cover 3 _ (fun t _ => flushed_eq V c t) cover

/-- The same, entry by entry. -/
theorem final_apply (c : Dev nD) (p : Fin 10000) (q : Fin 256) :
    (dat1 V c).arrAt 3 cfg1.N (ix2 p q)
      = reluLayer (fun p k => V c (Pipeline.arrRef spec1 0) (ix2 p k)) (fun k q => V c (Pipeline.arrRef spec1 1) (ix2 k q))
          (fun q => V c (Pipeline.arrRef spec1 2) (ix2 (0 : Fin 1) q)) p q := by
  rw [final]; rfl

end Cert.KernelIdeal.Region1

end
-- ==== Proof.Region2.lean ====
/-
  The second small product, `t₂ = h W₂`, as the third pipelined call leaves it.

  The call walks the 10000 rows of the hidden layer `h` in five blocks of 2000; at each block it multiplies the block
  by the whole of `W₂`. Row `r` of block `t` is row `2000 t + r` of `h`, and the entry of the product at a row depends
  on that row of `h` only, so each block written back is the block of one whole-array function: the matrix product.
  Row `p` of the result lies in block `p / 2000`, so the five blocks tile the result.
-/
import proofs.«153989_j16939351015663_2_alg».proof.Proof.Gen.KernelIdeal.Frame
import proofs.«153989_j16939351015663_2_alg».proof.Proof.BeliefSpec
import proofs.«153989_j16939351015663_2_alg».proof.Proof.LibTwoBlocks
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region2

open Cert.KernelIdeal Cert.KernelIdeal.Gen Idealize.ShloMosaic Idealize.ShloMosaic.TcCoe Idealize.SL.Sem Idealize.ShloMosaic.ValueIdx Cert.BeliefSpec
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The whole-array function the call computes: the product of the two arrays, entry by entry. -/
def G (A : S10000x256.Idx → EReal) (X : S256x16.Idx → EReal) : S10000x16.Idx → EReal :=
  fun i => mm (fun p k => A (ix2 p k)) (fun k q => X (ix2 k q)) ⟨(i 0).val, (i 0).isLt⟩ ⟨(i 1).val, (i 1).isLt⟩

/-- The body's result at row `r`, column `q` of a block: the sum over `k` of the block's row times the column. -/
theorem pay_apply (x0 : Vec Ideal S2000x256 .bf16) (x1 : Vec Ideal S256x16 .f32) (r : Fin 2000) (q : Fin 16) :
    k2_pay1 x0 x1 (ix2 r q) = mm (fun p k => x0 (ix2 p k)) (fun k q => x1 (ix2 k q)) r q := by
  unfold k2_pay1
  rw [shapeCast_self]
  exact Cert.Lib.TwoBlocks.plain_matmul_zero_apply (φ₁ := .bf16) (φ₂ := .bf16) dot_S2000x256_S256x16_S2000x16_1_0_0_1_n_n rfl none _ _ r q

/-- The index maps over the grid: the row blocks of `h` and of the result move together, `W₂` stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `r` of block `t` of `h` is row `2000 t + r` of the array. -/
theorem read_0 (c : Dev nD) (t : Fin cfg2.N) (r : Fin 2000) (p : Fin 10000) (hp : p.val = t.val * 2000 + r.val) (k : Fin 256) :
    iblk2 V c 0 t (ix2 r k) = V c (Pipeline.arrRef spec2 0) (ix2 p k) := by
  obtain ⟨e0, e1, -, -, -, -⟩ := idx_facts t
  show V c (Pipeline.arrRef spec2 0) (((cfg2.win 0).blk t).view.emb (ix2 r k)) = _
  refine congrArg (V c (Pipeline.arrRef spec2 0)) (funext fun a => Fin.ext ?_)
  match a with
  | ⟨0, _⟩ => show win2_0.index t (0 : Fin 2) * 2000 + 1 * r.val = p.val; omega
  | ⟨1, _⟩ => show win2_0.index t (1 : Fin 2) * 256 + 1 * k.val = k.val; omega

/-- The block of `W₂` is the whole array at every point. -/
theorem read_1 (c : Dev nD) (t : Fin cfg2.N) (k : Fin 256) (q : Fin 16) :
    iblk2 V c 1 t (ix2 k q) = V c (Pipeline.arrRef spec2 1) (ix2 k q) := by
  obtain ⟨-, -, e2, e3, -, -⟩ := idx_facts t
  show V c (Pipeline.arrRef spec2 1) (((cfg2.win 1).blk t).view.emb (ix2 k q)) = _
  refine congrArg (V c (Pipeline.arrRef spec2 1)) (funext fun a => Fin.ext ?_)
  match a with
  | ⟨0, _⟩ => show win2_1.index t (0 : Fin 2) * 256 + 1 * k.val = k.val; omega
  | ⟨1, _⟩ => show win2_1.index t (1 : Fin 2) * 16 + 1 * q.val = q.val; omega

/-- What point `t` writes back is block `t` of the product of the arrays as the call finds them. -/
theorem flushed_eq (c : Dev nD) (t : Fin cfg2.N) :
    (dat2 V c).flushed 2 t = ((cfg2.win 2).blk t).view.read (Elt Ideal)
      (G (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S2000x256) hz, View.ld_unit_zero (S := S256x16) hz]
  obtain ⟨-, -, -, -, e4, e5⟩ := idx_facts t
  have hN : cfg2.N = 5 := N_2
  have ht := t.isLt
  funext j
  obtain ⟨r, q, rfl⟩ : ∃ (r : Fin 2000) (q : Fin 16), j = ix2 r q := ⟨j 0, j 1, eq_ix2 j⟩
  have hr := r.isLt
  have hemb : ((cfg2.win 2).blk t).view.emb (ix2 r q) = ix2 (⟨t.val * 2000 + r.val, by omega⟩ : Fin 10000) q :=
    funext fun a => Fin.ext (by
      match a with
      | ⟨0, _⟩ => show win2_2.index t (0 : Fin 2) * 2000 + 1 * r.val = t.val * 2000 + r.val; omega
      | ⟨1, _⟩ => show win2_2.index t (1 : Fin 2) * 16 + 1 * q.val = q.val; omega)
  show k2_pay1 (iblk2 V c 0 t) (iblk2 V c 1 t) (ix2 r q)
    = G (V c (Pipeline.arrRef spec2 0)) (V c (Pipeline.arrRef spec2 1)) (((cfg2.win 2).blk t).view.emb (ix2 r q))
  rw [hemb]
  refine (pay_apply (iblk2 V c 0 t) (iblk2 V c 1 t) r q).trans ?_
  show mm (fun p k => iblk2 V c 0 t (ix2 p k)) (fun k q => iblk2 V c 1 t (ix2 k q)) r q
    = mm (fun p k => V c (Pipeline.arrRef spec2 0) (ix2 p k)) (fun k q => V c (Pipeline.arrRef spec2 1) (ix2 k q))
        (⟨t.val * 2000 + r.val, by omega⟩ : Fin 10000) q
  exact mm_congr r _ q (fun k => read_0 V c t r _ rfl k) (fun k => read_1 V c t k q)

/-- An index of the result lies in point `t`'s block iff its row is among the block's 2000 rows. -/
theorem mem_blk (t : Fin cfg2.N) (i : S10000x16.Idx) :
    i ∈ ((cfg2.win 2).blk t).view.set ↔ ∀ a : Fin 2, win2_2.index t a * S2000x16.size a ≤ (i a).val ∧ (i a).val < win2_2.index t a * S2000x16.size a + S2000x16.size a := by
  show i ∈ ((View.whole main_v4).slice (win2_2.rect t)).set ↔ _
  rw [View.set_slice_whole, Rect.mem_set_unit]
  exact Iff.rfl

/-- Every index of the result is in some point's block: row `p` in block `p / 2000`. -/
theorem cover (i : S10000x16.Idx) : ∃ t : Fin cfg2.N, (cfg2.win 2).flush t = true ∧ i ∈ ((cfg2.win 2).blk t).view.set := by
  have hi0 : (i 0).val < 10000 := (i 0).isLt
  have hi1 : (i 1).val < 16 := (i 1).isLt
  have hN : cfg2.N = 5 := N_2
  let t : Fin cfg2.N := ⟨(i 0).val / 2000, by rw [hN]; omega⟩
  obtain ⟨-, -, -, -, e4, e5⟩ := idx_facts t
  have e4' : win2_2.index t (0 : Fin 2) = (i 0).val / 2000 := e4
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 16 ≤ (i 1).val ∧ (i 1).val < win2_2.index t (1 : Fin 2) * 16 + 16; omega

/-- The result array after the call is the product of the two arrays the call found. -/
theorem final (c : Dev nD) : (dat2 V c).arrAt 2 cfg2.N = G (V c (Pipeline.arrRef spec2 0)) (V c (Pipeline.arrRef spec2 1)) :=
  (dat2 V c).arrAt_eq_of_cover 2 _ (fun t _ => flushed_eq V c t) cover

/-- The same, entry by entry. -/
theorem final_apply (c : Dev nD) (p : Fin 10000) (q : Fin 16) :
    (dat2 V c).arrAt 2 cfg2.N (ix2 p q)
      = mm (fun p k => V c (Pipeline.arrRef spec2 0) (ix2 p k)) (fun k q => V c (Pipeline.arrRef spec2 1) (ix2 k q)) p q := by
  rw [final]; rfl

end Cert.KernelIdeal.Region2

end
-- ==== Proof.LibRowMax.lean ====
/-
  General lemmas about a row-wise maximum over the extended reals.
-/
import Idealize.ShloMosaic.Lib.Pipeline.Value
import Idealize.ShloMosaic.Lib.ValueIdx
import Idealize.ShloMosaic.PureOps.Ideal.Laws

noncomputable section

namespace Cert.Lib.RowMax

open Idealize.ShloMosaic Idealize.ShloMosaic.ValueIdx

/-- A maximum along the lanes of an `n × k` array taken from the word of `-∞` reads, at row `r`, the fold of `max` from
    that word over the row's `k` entries (in any order: `max` commutes and associates). -/
theorem laneMax_apply {n k : ℕ} (src : FVec Ideal ⟨2, ![n, k]⟩ .f32) (h : (⟨2, ![n, k]⟩ : Shape).Reduces [1] ⟨1, ![n]⟩)
    (hφ : FKind.Formats .f32) (hacc : (0xFF800000#32 : BitVec 32) = 0xFF800000#32) (r : Fin n) :
    multiReduction .maximumf [1] ⟨1, ![n]⟩ src 0xFF800000#32 h hφ hacc (ix1 r)
      = (Finset.univ : Finset (Fin k)).fold max (Ideal.ofBits .f32 0xFF800000#32) (fun c => src (ix2 r c)) := by
  refine (Ideal.multiReduction_maximumf_single src 0xFF800000#32 h hφ hacc (ix1 r)).trans ?_
  refine congrArg (fun f => (Finset.univ : Finset (Fin k)).fold max (Ideal.ofBits .f32 0xFF800000#32) f) (funext fun c => ?_)
  exact congrArg src (funext fun ax => Fin.ext (by
    match ax with
    | ⟨0, _⟩ => rfl
    | ⟨1, _⟩ => rfl))

/-- The exponential of a vector read at an entry. -/
theorem exp_apply {s : Shape} {φ : FTy} (x : FVec Ideal s φ) (i : s.Idx) : exp x i = Ideal.exp (x i) := rfl

/-- The host's exponential of a vector read at an entry: the same function. -/
theorem hostExp_apply {s : Shape} {φ : FTy} (x : FVec Ideal s φ) (i : s.Idx) : Host.exp x i = Ideal.exp (x i) := rfl

/-- The word `0xFF800000` is the bottom of the extended reals, so a maximum against it is the other operand. -/
theorem max_negInf (y : EReal) : max (Ideal.ofBits .f32 0xFF800000#32) y = y := by
  have h : Ideal.ofBits .f32 0xFF800000#32 = (⊥ : EReal) := by simp [Ideal.ofBits, Ideal.ieee]
  rw [h, max_eq_right bot_le]

end Cert.Lib.RowMax

end
-- ==== Proof.LibRowOps.lean ====
/-
  Two readings, at an entry, of operations on the rows of a matrix, for any sizes.

  A sum along the lanes of an `n × k` array gives one number per row: at row `r` it is the sum of that row's `k`
  entries.  An `a × 1` column spread over `b` lanes repeats each row's one entry along the row: at `(p, c)` it reads
  the column's entry of row `p`, whatever the lane `c` (also when `a = 1`).
-/
import Idealize.ShloMosaic.Lib.Pipeline.Value
import Idealize.ShloMosaic.Lib.ValueIdx
import Idealize.ShloMosaic.PureOps.Ideal.Laws

noncomputable section

open scoped BigOperators

namespace Cert.Lib.RowOps

open Idealize.ShloMosaic Idealize.ShloMosaic.ValueIdx

/-- A sum along the lanes of an `n × k` array from the zero word reads, at row `r`, the sum of that row's entries. -/
theorem laneSum_apply {n k : ℕ} (src : FVec Ideal ⟨2, ![n, k]⟩ .f32) (h : (⟨2, ![n, k]⟩ : Shape).Reduces [1] ⟨1, ![n]⟩)
    (hφ : FKind.Formats .f32) (hacc : (0x00000000#32 : BitVec 32) = 0x00000000#32) (r : Fin n) :
    multiReduction .add [1] ⟨1, ![n]⟩ src 0x00000000#32 h hφ hacc (ix1 r) = ∑ c : Fin k, src (ix2 r c) := by
  refine (Ideal.multiReduction_add_single src 0x00000000#32 h hφ hacc (ix1 r)).trans ?_
  exact Finset.sum_congr rfl fun c _ => congrArg src (funext fun ax => Fin.ext (by
    match ax with
    | ⟨0, _⟩ => rfl
    | ⟨1, _⟩ => rfl))

/-- An `a × 1` column spread over `b` lanes reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.RowOps

end
-- ==== Proof.LibGram.lean ====
/-
  Readings, at an entry, of the operations a table of distances between the rows of two arrays is built from, for any
  sizes.

  The squared distance between row `a` of one array and row `b` of another is the sum of the two rows' squared norms
  minus twice their inner product. A kernel keeps the first array's squared norms as a column (a length-`a` vector cast
  to `a × 1`), and takes the inner products by a matrix product that contracts one axis of each operand. The lemmas
  below read these two operations at an entry; the last one is the law by which halving a negated number is multiplying
  the number by minus one half, on every extended real.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.Gram

open Idealize.ShloMosaic Idealize.ShloMosaic.ValueIdx

variable {α : Type}

/-- A length-`a` vector cast to an `a × 1` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A matrix product accumulated into zero whose dimension numbers contract ONE axis, of extent `k`, reads at an
    output entry `j` the sum over that axis's coordinate `c` of the products of the two operands at the entries
    `li c` and `ri c` the dimension numbers pair with `j` and `c`. -/
theorem matmul_zero_single_apply {sl sr so : Shape} {φ₁ φ₂ : FTy} (D : DotDims sl sr so) (k : ℕ)
    (hrank : D.contr.rank = 1) (hsize : D.contr.size ⟨0, by omega⟩ = k) (prec : Option ContractPrecision)
    (A : FVec Ideal sl φ₁) (B : FVec Ideal sr φ₂) (j : so.Idx) (li : Fin k → sl.Idx) (ri : Fin k → sr.Idx)
    (hl : ∀ c, D.lhsIdx j ((contrEquiv1 D k hrank hsize).symm c) = li c)
    (hr : ∀ c, D.rhsIdx j ((contrEquiv1 D k hrank hsize).symm c) = ri c) :
    matmul D prec A B (constant so .f32 0x00000000#32) j = ∑ c : Fin k, A (li c) * B (ri c) := by
  show FloatOps.matmul D prec A B _ j = _
  rw [Ideal.matmul_constant_zero_apply, ← Equiv.sum_comp (contrEquiv1 D k hrank hsize).symm]
  exact Finset.sum_congr rfl fun c _ => by rw [hl c, hr c]

/-- Halving the negation of an extended real is multiplying it by minus one half: division by the real `2` is the
    product with `1/2`, and a sign moves freely across a product — also at the two infinities. -/
theorem div_neg_two (d : EReal) : Ideal.div (-d) ((2 : ℝ) : EReal) = d * ((-(1 / 2) : ℝ) : EReal) := by
  rw [Ideal.div_coe (by norm_num : (2 : ℝ) ≠ 0), EReal.coe_neg, mul_neg, neg_mul]

end Cert.Lib.Gram

end
-- ==== Proof.LibSoftmaxRows.lean ====
/-
  A row-wise centred softmax of an `a × n` block, as a kernel body spells it, read at an entry, for any sizes.

  The body takes the largest entry of each row (a lane maximum from minus infinity, then once more the maximum with
  minus infinity), keeps it as an `a × 1` column and spreads it back over the lanes, subtracts it, exponentiates, sums
  each row of exponentials the same way, divides, and subtracts a constant. At entry `(r, q)` nothing but row `r` of
  the block is read: the result is `exp (z r q - top r) / ∑ c, exp (z r c - top r)` minus the constant, where
  `top r = max ⊥ (fold max ⊥ (z r ·))`.
-/
import proofs.«153989_j16939351015663_2_alg».proof.Proof.LibRowMax
import proofs.«153989_j16939351015663_2_alg».proof.Proof.LibRowOps
import proofs.«153989_j16939351015663_2_alg».proof.Proof.LibGram
import Idealize.ShloMosaic.Lib.Pipeline.Value
import Idealize.ShloMosaic.Lib.ValueIdx
import Idealize.ShloMosaic.PureOps.Ideal.Laws

noncomputable section

open scoped BigOperators

namespace Cert.Lib.SoftmaxRows

open Idealize.ShloMosaic Idealize.ShloMosaic.ValueIdx

variable {a n : ℕ}

/-- The row maximum kept as a column and spread over the lanes reads, at `(r, q)`, the maximum with minus infinity of
    the fold of `max` over row `r`. -/
theorem spreadTop_apply (z : FVec Ideal ⟨2, ![a, n]⟩ .f32) (hred : (⟨2, ![a, n]⟩ : Shape).Reduces [1] ⟨1, ![a]⟩)
    (hcast : (⟨1, ![a]⟩ : Shape).ShapeCasts ⟨2, ![a, 1]⟩) (hb : (⟨2, ![a, 1]⟩ : Shape).Broadcasts ⟨2, ![a, n]⟩)
    (hφ : FKind.Formats .f32) (hacc : (0xFF800000#32 : BitVec 32) = 0xFF800000#32) (r : Fin a) (q : Fin n) :
    broadcastTo ⟨2, ![a, n]⟩ (shapeCast ⟨2, ![a, 1]⟩
        (maximumf (broadcast ⟨1, ![a]⟩ (Scalar.ofBits .f32 0xFF800000#32 : Ideal .f32))
          (multiReduction .maximumf [1] ⟨1, ![a]⟩ z 0xFF800000#32 hred hφ hacc)) hcast) hb (ix2 r q)
      = max (Ideal.ofBits .f32 0xFF800000#32)
          ((Finset.univ : Finset (Fin n)).fold max (Ideal.ofBits .f32 0xFF800000#32) (fun c => z (ix2 r c))) := by
  rw [Cert.Lib.RowOps.broadcastTo_a1_ab_apply, Cert.Lib.Gram.shapeCast_a_a1_apply]
  show max _ (multiReduction .maximumf [1] ⟨1, ![a]⟩ z 0xFF800000#32 hred hφ hacc (ix1 r)) = _
  rw [Cert.Lib.RowMax.laneMax_apply]
  rfl

/-- A row sum kept as a column and spread over the lanes reads, at `(r, q)`, the sum of row `r`. -/
theorem spreadSum_apply (e : FVec Ideal ⟨2, ![a, n]⟩ .f32) (hred : (⟨2, ![a, n]⟩ : Shape).Reduces [1] ⟨1, ![a]⟩)
    (hcast : (⟨1, ![a]⟩ : Shape).ShapeCasts ⟨2, ![a, 1]⟩) (hb : (⟨2, ![a, 1]⟩ : Shape).Broadcasts ⟨2, ![a, n]⟩)
    (hφ : FKind.Formats .f32) (hacc : (0x00000000#32 : BitVec 32) = 0x00000000#32) (r : Fin a) (q : Fin n) :
    broadcastTo ⟨2, ![a, n]⟩ (shapeCast ⟨2, ![a, 1]⟩
        (multiReduction .add [1] ⟨1, ![a]⟩ e 0x00000000#32 hred hφ hacc) hcast) hb (ix2 r q)
      = ∑ c : Fin n, e (ix2 r c) := by
  rw [Cert.Lib.RowOps.broadcastTo_a1_ab_apply, Cert.Lib.Gram.shapeCast_a_a1_apply, Cert.Lib.RowOps.laneSum_apply]

/-- The row maximum of a block, kept as a column and spread back over the lanes, as a kernel body spells it. -/
abbrev spreadTop (z : FVec Ideal ⟨2, ![a, n]⟩ .f32) (hred : (⟨2, ![a, n]⟩ : Shape).Reduces [1] ⟨1, ![a]⟩)
    (hcast : (⟨1, ![a]⟩ : Shape).ShapeCasts ⟨2, ![a, 1]⟩) (hb : (⟨2, ![a, 1]⟩ : Shape).Broadcasts ⟨2, ![a, n]⟩)
    (hφ : FKind.Formats .f32) (hacc : (0xFF800000#32 : BitVec 32) = 0xFF800000#32) : FVec Ideal ⟨2, ![a, n]⟩ .f32 :=
  broadcastTo ⟨2, ![a, n]⟩ (shapeCast ⟨2, ![a, 1]⟩
    (maximumf (broadcast ⟨1, ![a]⟩ (Scalar.ofBits .f32 0xFF800000#32 : Ideal .f32))
      (multiReduction .maximumf [1] ⟨1, ![a]⟩ z 0xFF800000#32 hred hφ hacc)) hcast) hb

/-- The spread row maximum under its name, read at an entry. -/
theorem spreadTop_eq (z : FVec Ideal ⟨2, ![a, n]⟩ .f32) (hred : (⟨2, ![a, n]⟩ : Shape).Reduces [1] ⟨1, ![a]⟩)
    (hcast : (⟨1, ![a]⟩ : Shape).ShapeCasts ⟨2, ![a, 1]⟩) (hb : (⟨2, ![a, 1]⟩ : Shape).Broadcasts ⟨2, ![a, n]⟩)
    (hφ : FKind.Formats .f32) (hacc : (0xFF800000#32 : BitVec 32) = 0xFF800000#32) (r : Fin a) (q : Fin n) :
    spreadTop z hred hcast hb hφ hacc (ix2 r q)
      = max (Ideal.ofBits .f32 0xFF800000#32)
          ((Finset.univ : Finset (Fin n)).fold max (Ideal.ofBits .f32 0xFF800000#32) (fun c => z (ix2 r c))) :=
  spreadTop_apply z hred hcast hb hφ hacc r q

/-- The centred softmax of one row `z` at column `q`, less the constant of word `w`. -/
def centredRow (w : BitVec 32) (z : Fin n → EReal) (q : Fin n) : EReal :=
  Ideal.div
      (Ideal.exp (z q - max (Ideal.ofBits .f32 0xFF800000#32)
        ((Finset.univ : Finset (Fin n)).fold max (Ideal.ofBits .f32 0xFF800000#32) z)))
      (∑ c : Fin n, Ideal.exp (z c - max (Ideal.ofBits .f32 0xFF800000#32)
        ((Finset.univ : Finset (Fin n)).fold max (Ideal.ofBits .f32 0xFF800000#32) z)))
    - Ideal.ofBits .f32 w

/-- The centred softmax of a block's rows read at `(r, q)`: the exponential of the entry less its row's top, over
    the sum of the row's such exponentials, less the constant `w`. Only row `r` of the block is read. -/
theorem centred_apply (z : FVec Ideal ⟨2, ![a, n]⟩ .f32) (hred : (⟨2, ![a, n]⟩ : Shape).Reduces [1] ⟨1, ![a]⟩)
    (hcast : (⟨1, ![a]⟩ : Shape).ShapeCasts ⟨2, ![a, 1]⟩) (hb : (⟨2, ![a, 1]⟩ : Shape).Broadcasts ⟨2, ![a, n]⟩)
    (hφ : FKind.Formats .f32) (haccM : (0xFF800000#32 : BitVec 32) = 0xFF800000#32)
    (hacc0 : (0x00000000#32 : BitVec 32) = 0x00000000#32) (w : BitVec 32) (r : Fin a) (q : Fin n) :
    subf (divf (exp (subf z (spreadTop z hred hcast hb hφ haccM)))
        (broadcastTo ⟨2, ![a, n]⟩ (shapeCast ⟨2, ![a, 1]⟩
          (multiReduction .add [1] ⟨1, ![a]⟩ (exp (subf z (spreadTop z hred hcast hb hφ haccM))) 0x00000000#32 hred hφ hacc0)
          hcast) hb))
      (broadcast ⟨2, ![a, n]⟩ (Scalar.ofBits .f32 w : Ideal .f32)) (ix2 r q)
      = centredRow w (fun c => z (ix2 r c)) q := by
  unfold centredRow
  show Ideal.div (Ideal.exp (z (ix2 r q) - spreadTop z hred hcast hb hφ haccM (ix2 r q)))
      (broadcastTo ⟨2, ![a, n]⟩ (shapeCast ⟨2, ![a, 1]⟩
          (multiReduction .add [1] ⟨1, ![a]⟩ (exp (subf z (spreadTop z hred hcast hb hφ haccM))) 0x00000000#32 hred hφ hacc0)
          hcast) hb (ix2 r q)) - Ideal.ofBits .f32 w = _
  rw [spreadSum_apply, spreadTop_eq]
  refine congrArg (fun s => Ideal.div _ s - _) (Finset.sum_congr rfl fun c _ => ?_)
  show Ideal.exp (z (ix2 r c) - spreadTop z hred hcast hb hφ haccM (ix2 r c)) = _
  rw [spreadTop_eq]

end Cert.Lib.SoftmaxRows

end
-- ==== Proof.Region3.lean ====
/-
  The centred beliefs, `E = softmax(Â t₂ + b₂) - 1/16` row by row, as the fourth pipelined call leaves them.

  The call walks the 10000 rows of the normalised adjacency `Â` in fifty blocks of 200. At each block it multiplies
  the block by the whole of `t₂`, adds the bias row `b₂`, and turns every row of the 200 × 16 block of logits into its
  softmax less one sixteenth: the row's largest entry is subtracted, the sixteen differences are exponentiated and
  divided by their sum. All of this reads one row of the block at a time, and row `r` of block `t` is row `200 t + r`
  of `Â`, so each block written back is the block of one whole-array function. Row `p` of the result lies in block
  `p / 200`, so the fifty blocks tile the result.
-/
import proofs.«153989_j16939351015663_2_alg».proof.Proof.Gen.KernelIdeal.Frame
import proofs.«153989_j16939351015663_2_alg».proof.Proof.BeliefSpec
import proofs.«153989_j16939351015663_2_alg».proof.Proof.LibTwoBlocks
import proofs.«153989_j16939351015663_2_alg».proof.Proof.LibSoftmaxRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region3

open Cert.KernelIdeal Cert.KernelIdeal.Gen Idealize.ShloMosaic Idealize.ShloMosaic.TcCoe Idealize.SL.Sem Idealize.ShloMosaic.ValueIdx Cert.BeliefSpec
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The whole-array function the call computes: the centred softmax of each row of the dense layer's logits. -/
def G (A : S10000x10000.Idx → EReal) (X : S10000x16.Idx → EReal) (b : S1x16.Idx → EReal) : S10000x16.Idx → EReal :=
  fun i => beliefs (dense (fun p k => A (ix2 p k)) (fun k q => X (ix2 k q)) (fun q => b (ix2 (0 : Fin 1) q)))
    ⟨(i 0).val, (i 0).isLt⟩ ⟨(i 1).val, (i 1).isLt⟩

/-- The body's result at row `r`, column `q` of a block: the centred softmax of row `r` of the logits, each logit the
    product's entry plus the bias of its column. -/
theorem pay_apply (x0 : Vec Ideal S200x10000 .f32) (x1 : Vec Ideal S10000x16 .bf16) (x2 : Vec Ideal S1x16 .f32)
    (r : Fin 200) (q : Fin 16) :
    k3_pay1 x0 x1 x2 (ix2 r q)
      = beliefs (dense (fun p k => x0 (ix2 p k)) (fun k q => x1 (ix2 k q)) (fun q => x2 (ix2 (0 : Fin 1) q))) r q := by
  unfold k3_pay1
  rw [shapeCast_self, shapeCast_self]
  refine (Cert.Lib.SoftmaxRows.centred_apply _ reduces_S200x16_S200 shapeCasts_S200_S200x1 broadcasts_S200x1_S200x16
    (.inl rfl) rfl rfl 0x3D800000#32 r q).trans ?_
  show smRow _ q = smRow _ q
  refine congrArg (fun z => smRow z q) (funext fun c => ?_)
  show _ + _ = _ + _
  refine congrArg₂ (· + ·) ?_ ?_
  · exact Cert.Lib.TwoBlocks.plain_matmul_zero_apply dot_S200x10000_S10000x16_S200x16_1_0_0_1_n_n rfl none _ _ r c
  · exact broadcastTo_1b_ab_apply x2 _ r c

/-- The index maps over the grid: the row blocks of `Â` and of the result move together, `t₂` and `b₂` stay. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row `r` of block `t` of `Â` is row `200 t + r` of the array. -/
theorem read_0 (c : Dev nD) (t : Fin cfg3.N) (r : Fin 200) (p : Fin 10000) (hp : p.val = t.val * 200 + r.val) (k : Fin 10000) :
    iblk3 V c 0 t (ix2 r k) = V c (Pipeline.arrRef spec3 0) (ix2 p k) := by
  obtain ⟨e0, e1, -, -, -, -, -, -⟩ := idx_facts t
  show V c (Pipeline.arrRef spec3 0) (((cfg3.win 0).blk t).view.emb (ix2 r k)) = _
  refine congrArg (V c (Pipeline.arrRef spec3 0)) (funext fun a => Fin.ext ?_)
  match a with
  | ⟨0, _⟩ => show win3_0.index t (0 : Fin 2) * 200 + 1 * r.val = p.val; omega
  | ⟨1, _⟩ => show win3_0.index t (1 : Fin 2) * 10000 + 1 * k.val = k.val; omega

/-- The block of `t₂` is the whole array at every point. -/
theorem read_1 (c : Dev nD) (t : Fin cfg3.N) (k : Fin 10000) (q : Fin 16) :
    iblk3 V c 1 t (ix2 k q) = V c (Pipeline.arrRef spec3 1) (ix2 k q) := by
  obtain ⟨-, -, e2, e3, -, -, -, -⟩ := idx_facts t
  show V c (Pipeline.arrRef spec3 1) (((cfg3.win 1).blk t).view.emb (ix2 k q)) = _
  refine congrArg (V c (Pipeline.arrRef spec3 1)) (funext fun a => Fin.ext ?_)
  match a with
  | ⟨0, _⟩ => show win3_1.index t (0 : Fin 2) * 10000 + 1 * k.val = k.val; omega
  | ⟨1, _⟩ => show win3_1.index t (1 : Fin 2) * 16 + 1 * q.val = q.val; omega

/-- The block of the bias row is the whole row at every point. -/
theorem read_2 (c : Dev nD) (t : Fin cfg3.N) (u : Fin 1) (q : Fin 16) :
    iblk3 V c 2 t (ix2 u q) = V c (Pipeline.arrRef spec3 2) (ix2 u q) := by
  obtain ⟨-, -, -, -, e4, e5, -, -⟩ := idx_facts t
  show V c (Pipeline.arrRef spec3 2) (((cfg3.win 2).blk t).view.emb (ix2 u q)) = _
  refine congrArg (V c (Pipeline.arrRef spec3 2)) (funext fun a => Fin.ext ?_)
  match a with
  | ⟨0, _⟩ => show win3_2.index t (0 : Fin 2) * 1 + 1 * u.val = u.val; omega
  | ⟨1, _⟩ => show win3_2.index t (1 : Fin 2) * 16 + 1 * q.val = q.val; omega

/-- What point `t` writes back is block `t` of the beliefs of the arrays as the call finds them. -/
theorem flushed_eq (c : Dev nD) (t : Fin cfg3.N) :
    (dat3 V c).flushed 3 t = ((cfg3.win 3).blk t).view.read (Elt Ideal)
      (G (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz]
  simp only [View.ld_unit_zero (S := S200x10000) hz, View.ld_unit_zero (S := S10000x16) hz, View.ld_unit_zero (S := S1x16) hz]
  obtain ⟨-, -, -, -, -, -, e6, e7⟩ := idx_facts t
  have hN : cfg3.N = 50 := N_3
  have ht := t.isLt
  funext j
  obtain ⟨r, q, rfl⟩ : ∃ (r : Fin 200) (q : Fin 16), j = ix2 r q := ⟨j 0, j 1, eq_ix2 j⟩
  have hr := r.isLt
  have hemb : ((cfg3.win 3).blk t).view.emb (ix2 r q) = ix2 (⟨t.val * 200 + r.val, by omega⟩ : Fin 10000) q :=
    funext fun a => Fin.ext (by
      match a with
      | ⟨0, _⟩ => show win3_3.index t (0 : Fin 2) * 200 + 1 * r.val = t.val * 200 + r.val; omega
      | ⟨1, _⟩ => show win3_3.index t (1 : Fin 2) * 16 + 1 * q.val = q.val; omega)
  show k3_pay1 (iblk3 V c 0 t) (iblk3 V c 1 t) (iblk3 V c 2 t) (ix2 r q)
    = G (V c (Pipeline.arrRef spec3 0)) (V c (Pipeline.arrRef spec3 1)) (V c (Pipeline.arrRef spec3 2))
        (((cfg3.win 3).blk t).view.emb (ix2 r q))
  rw [hemb]
  refine (pay_apply (iblk3 V c 0 t) (iblk3 V c 1 t) (iblk3 V c 2 t) r q).trans ?_
  show beliefs (dense (fun p k => iblk3 V c 0 t (ix2 p k)) (fun k q => iblk3 V c 1 t (ix2 k q)) (fun q => iblk3 V c 2 t (ix2 (0 : Fin 1) q))) r q
    = beliefs (dense (fun p k => V c (Pipeline.arrRef spec3 0) (ix2 p k)) (fun k q => V c (Pipeline.arrRef spec3 1) (ix2 k q))
        (fun q => V c (Pipeline.arrRef spec3 2) (ix2 (0 : Fin 1) q))) (⟨t.val * 200 + r.val, by omega⟩ : Fin 10000) q
  refine beliefs_congr r _ (fun c' => dense_congr r _ c' (fun k => ?_) (fun k => ?_) ?_) q
  · exact read_0 V c t r _ rfl k
  · exact read_1 V c t k c'
  · exact read_2 V c t 0 c'

/-- An index of the result lies in point `t`'s block iff its row is among the block's 200 rows. -/
theorem mem_blk (t : Fin cfg3.N) (i : S10000x16.Idx) :
    i ∈ ((cfg3.win 3).blk t).view.set ↔ ∀ a : Fin 2, win3_3.index t a * S200x16.size a ≤ (i a).val ∧ (i a).val < win3_3.index t a * S200x16.size a + S200x16.size a := by
  show i ∈ ((View.whole main_v5).slice (win3_3.rect t)).set ↔ _
  rw [View.set_slice_whole, Rect.mem_set_unit]
  exact Iff.rfl

/-- Every index of the result is in some point's block: row `p` in block `p / 200`. -/
theorem cover (i : S10000x16.Idx) : ∃ t : Fin cfg3.N, (cfg3.win 3).flush t = true ∧ i ∈ ((cfg3.win 3).blk t).view.set := by
  have hi0 : (i 0).val < 10000 := (i 0).isLt
  have hi1 : (i 1).val < 16 := (i 1).isLt
  have hN : cfg3.N = 50 := N_3
  let t : Fin cfg3.N := ⟨(i 0).val / 200, by rw [hN]; omega⟩
  obtain ⟨-, -, -, -, -, -, e6, e7⟩ := idx_facts t
  have e6' : win3_3.index t (0 : Fin 2) = (i 0).val / 200 := e6
  refine ⟨t, flush3_3 t, ?_⟩
  rw [mem_blk]
  intro a
  match a with
  | ⟨0, _⟩ => show win3_3.index t (0 : Fin 2) * 200 ≤ (i 0).val ∧ (i 0).val < win3_3.index t (0 : Fin 2) * 200 + 200; omega
  | ⟨1, _⟩ => show win3_3.index t (1 : Fin 2) * 16 ≤ (i 1).val ∧ (i 1).val < win3_3.index t (1 : Fin 2) * 16 + 16; omega

/-- The result array after the call is the beliefs of the three arrays the call found. -/
theorem final (c : Dev nD) : (dat3 V c).arrAt 3 cfg3.N
    = G (V c (Pipeline.arrRef spec3 0)) (V c (Pipeline.arrRef spec3 1)) (V c (Pipeline.arrRef spec3 2)) :=
  (dat3 V c).arrAt_eq_of_cover 3 _ (fun t _ => flushed_eq V c t) cover

/-- The same, entry by entry. -/
theorem final_apply (c : Dev nD) (p : Fin 10000) (q : Fin 16) :
    (dat3 V c).arrAt 3 cfg3.N (ix2 p q)
      = beliefs (dense (fun p k => V c (Pipeline.arrRef spec3 0) (ix2 p k)) (fun k q => V c (Pipeline.arrRef spec3 1) (ix2 k q))
          (fun q => V c (Pipeline.arrRef spec3 2) (ix2 (0 : Fin 1) q))) p q := by
  rw [final]; rfl

end Cert.KernelIdeal.Region3

end
-- ==== Proof.Region5.lean ====
/-
  The second propagation step, `B₂ = E + A u₁`, as the sixth pipelined call leaves it.

  The call walks the 10000 rows of the copy of the raw adjacency `A` in twenty-five blocks of 400. At each block it
  multiplies the block by the whole of `u₁` and adds the matching 400 rows of the prior beliefs `E`. The kernel adds
  the beliefs to the product; addition of extended reals commutes, so that is the beliefs plus the product. Row `r` of
  block `t` is row `400 t + r` of `A` and of `E`, and row `p` of the result lies in block `p / 400`, so the
  twenty-five blocks tile the result.
-/
import proofs.«153989_j16939351015663_2_alg».proof.Proof.Gen.KernelIdeal.Frame
import proofs.«153989_j16939351015663_2_alg».proof.Proof.BeliefSpec
import proofs.«153989_j16939351015663_2_alg».proof.Proof.LibTwoBlocks
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region5

open Cert.KernelIdeal Cert.KernelIdeal.Gen Idealize.ShloMosaic Idealize.ShloMosaic.TcCoe Idealize.SL.Sem Idealize.ShloMosaic.ValueIdx Cert.BeliefSpec
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The whole-array function the call computes: the propagation step, entry by entry. -/
def G (A : S10000x10000.Idx → EReal) (U : S10000x16.Idx → EReal) (E : S10000x16.Idx → EReal) : S10000x16.Idx → EReal :=
  fun i => step (fun p k => A (ix2 p k)) (fun k q => U (ix2 k q)) (fun p q => E (ix2 p q))
    ⟨(i 0).val, (i 0).isLt⟩ ⟨(i 1).val, (i 1).isLt⟩

/-- The body's result at row `r`, column `q` of a block: the product's entry plus the prior belief, which is the
    prior belief plus the product's entry. -/
theorem pay_apply (x0 : Vec Ideal S400x10000 .bf16) (x1 : Vec Ideal S10000x16 .bf16) (x2 : Vec Ideal S400x16 .f32)
    (r : Fin 400) (q : Fin 16) :
    k5_pay1 x0 x1 x2 (ix2 r q)
      = step (fun p k => x0 (ix2 p k)) (fun k q => x1 (ix2 k q)) (fun p q => x2 (ix2 p q)) r q := by
  unfold k5_pay1
  rw [shapeCast_self, shapeCast_self, shapeCast_self]
  show _ + _ = _ + _
  refine (add_comm _ _).trans (congrArg₂ (· + ·) rfl ?_)
  exact Cert.Lib.TwoBlocks.plain_matmul_zero_apply dot_S400x10000_S10000x16_S400x16_1_0_0_1_n_n rfl none _ _ r q

/-- The index maps over the grid: the row blocks of `A`, of `E` and of the result move together, `u₁` stays. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

/-- Row `r` of block `t` of `A` is row `400 t + r` of the array. -/
theorem read_0 (c : Dev nD) (t : Fin cfg5.N) (r : Fin 400) (p : Fin 10000) (hp : p.val = t.val * 400 + r.val) (k : Fin 10000) :
    iblk5 V c 0 t (ix2 r k) = V c (Pipeline.arrRef spec5 0) (ix2 p k) := by
  obtain ⟨e0, e1, -, -, -, -, -, -⟩ := idx_facts t
  show V c (Pipeline.arrRef spec5 0) (((cfg5.win 0).blk t).view.emb (ix2 r k)) = _
  refine congrArg (V c (Pipeline.arrRef spec5 0)) (funext fun a => Fin.ext ?_)
  match a with
  | ⟨0, _⟩ => show win5_0.index t (0 : Fin 2) * 400 + 1 * r.val = p.val; omega
  | ⟨1, _⟩ => show win5_0.index t (1 : Fin 2) * 10000 + 1 * k.val = k.val; omega

/-- The block of `u₁` is the whole array at every point. -/
theorem read_1 (c : Dev nD) (t : Fin cfg5.N) (k : Fin 10000) (q : Fin 16) :
    iblk5 V c 1 t (ix2 k q) = V c (Pipeline.arrRef spec5 1) (ix2 k q) := by
  obtain ⟨-, -, e2, e3, -, -, -, -⟩ := idx_facts t
  show V c (Pipeline.arrRef spec5 1) (((cfg5.win 1).blk t).view.emb (ix2 k q)) = _
  refine congrArg (V c (Pipeline.arrRef spec5 1)) (funext fun a => Fin.ext ?_)
  match a with
  | ⟨0, _⟩ => show win5_1.index t (0 : Fin 2) * 10000 + 1 * k.val = k.val; omega
  | ⟨1, _⟩ => show win5_1.index t (1 : Fin 2) * 16 + 1 * q.val = q.val; omega

/-- Row `r` of block `t` of `E` is row `400 t + r` of the array. -/
theorem read_2 (c : Dev nD) (t : Fin cfg5.N) (r : Fin 400) (p : Fin 10000) (hp : p.val = t.val * 400 + r.val) (q : Fin 16) :
    iblk5 V c 2 t (ix2 r q) = V c (Pipeline.arrRef spec5 2) (ix2 p q) := by
  obtain ⟨-, -, -, -, e4, e5, -, -⟩ := idx_facts t
  show V c (Pipeline.arrRef spec5 2) (((cfg5.win 2).blk t).view.emb (ix2 r q)) = _
  refine congrArg (V c (Pipeline.arrRef spec5 2)) (funext fun a => Fin.ext ?_)
  match a with
  | ⟨0, _⟩ => show win5_2.index t (0 : Fin 2) * 400 + 1 * r.val = p.val; omega
  | ⟨1, _⟩ => show win5_2.index t (1 : Fin 2) * 16 + 1 * q.val = q.val; omega

/-- What point `t` writes back is block `t` of the step of the arrays as the call finds them. -/
theorem flushed_eq (c : Dev nD) (t : Fin cfg5.N) :
    (dat5 V c).flushed 3 t = ((cfg5.win 3).blk t).view.read (Elt Ideal)
      (G (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hz]
  simp only [View.ld_unit_zero (S := S400x10000) hz, View.ld_unit_zero (S := S10000x16) hz, View.ld_unit_zero (S := S400x16) hz]
  obtain ⟨-, -, -, -, -, -, e6, e7⟩ := idx_facts t
  have hN : cfg5.N = 25 := N_5
  have ht := t.isLt
  funext j
  obtain ⟨r, q, rfl⟩ : ∃ (r : Fin 400) (q : Fin 16), j = ix2 r q := ⟨j 0, j 1, eq_ix2 j⟩
  have hr := r.isLt
  have hemb : ((cfg5.win 3).blk t).view.emb (ix2 r q) = ix2 (⟨t.val * 400 + r.val, by omega⟩ : Fin 10000) q :=
    funext fun a => Fin.ext (by
      match a with
      | ⟨0, _⟩ => show win5_3.index t (0 : Fin 2) * 400 + 1 * r.val = t.val * 400 + r.val; omega
      | ⟨1, _⟩ => show win5_3.index t (1 : Fin 2) * 16 + 1 * q.val = q.val; omega)
  show k5_pay1 (iblk5 V c 0 t) (iblk5 V c 1 t) (iblk5 V c 2 t) (ix2 r q)
    = G (V c (Pipeline.arrRef spec5 0)) (V c (Pipeline.arrRef spec5 1)) (V c (Pipeline.arrRef spec5 2))
        (((cfg5.win 3).blk t).view.emb (ix2 r q))
  rw [hemb]
  refine (pay_apply (iblk5 V c 0 t) (iblk5 V c 1 t) (iblk5 V c 2 t) r q).trans ?_
  show step (fun p k => iblk5 V c 0 t (ix2 p k)) (fun k q => iblk5 V c 1 t (ix2 k q)) (fun p q => iblk5 V c 2 t (ix2 p q)) r q
    = step (fun p k => V c (Pipeline.arrRef spec5 0) (ix2 p k)) (fun k q => V c (Pipeline.arrRef spec5 1) (ix2 k q))
        (fun p q => V c (Pipeline.arrRef spec5 2) (ix2 p q)) (⟨t.val * 400 + r.val, by omega⟩ : Fin 10000) q
  exact step_congr r _ q (fun k => read_0 V c t r _ rfl k) (fun k => read_1 V c t k q) (read_2 V c t r _ rfl q)

/-- An index of the result lies in point `t`'s block iff its row is among the block's 400 rows. -/
theorem mem_blk (t : Fin cfg5.N) (i : S10000x16.Idx) :
    i ∈ ((cfg5.win 3).blk t).view.set ↔ ∀ a : Fin 2, win5_3.index t a * S400x16.size a ≤ (i a).val ∧ (i a).val < win5_3.index t a * S400x16.size a + S400x16.size a := by
  show i ∈ ((View.whole main_v11).slice (win5_3.rect t)).set ↔ _
  rw [View.set_slice_whole, Rect.mem_set_unit]
  exact Iff.rfl

/-- Every index of the result is in some point's block: row `p` in block `p / 400`. -/
theorem cover (i : S10000x16.Idx) : ∃ t : Fin cfg5.N, (cfg5.win 3).flush t = true ∧ i ∈ ((cfg5.win 3).blk t).view.set := by
  have hi0 : (i 0).val < 10000 := (i 0).isLt
  have hi1 : (i 1).val < 16 := (i 1).isLt
  have hN : cfg5.N = 25 := N_5
  let t : Fin cfg5.N := ⟨(i 0).val / 400, by rw [hN]; omega⟩
  obtain ⟨-, -, -, -, -, -, e6, e7⟩ := idx_facts t
  have e6' : win5_3.index t (0 : Fin 2) = (i 0).val / 400 := e6
  refine ⟨t, flush5_3 t, ?_⟩
  rw [mem_blk]
  intro a
  match a with
  | ⟨0, _⟩ => show win5_3.index t (0 : Fin 2) * 400 ≤ (i 0).val ∧ (i 0).val < win5_3.index t (0 : Fin 2) * 400 + 400; omega
  | ⟨1, _⟩ => show win5_3.index t (1 : Fin 2) * 16 ≤ (i 1).val ∧ (i 1).val < win5_3.index t (1 : Fin 2) * 16 + 16; omega

/-- The result array after the call is the step of the three arrays the call found. -/
theorem final (c : Dev nD) : (dat5 V c).arrAt 3 cfg5.N
    = G (V c (Pipeline.arrRef spec5 0)) (V c (Pipeline.arrRef spec5 1)) (V c (Pipeline.arrRef spec5 2)) :=
  (dat5 V c).arrAt_eq_of_cover 3 _ (fun t _ => flushed_eq V c t) cover

/-- The same, entry by entry. -/
theorem final_apply (c : Dev nD) (p : Fin 10000) (q : Fin 16) :
    (dat5 V c).arrAt 3 cfg5.N (ix2 p q)
      = step (fun p k => V c (Pipeline.arrRef spec5 0) (ix2 p k)) (fun k q => V c (Pipeline.arrRef spec5 1) (ix2 k q))
          (fun p q => V c (Pipeline.arrRef spec5 2) (ix2 p q)) p q := by
  rw [final]; rfl

end Cert.KernelIdeal.Region5

end
-- ==== Proof.Region6.lean ====
/-
  The third propagation step, `B₃ = E + A u₂`, as the seventh pipelined call leaves it.

  The call walks the 10000 rows of the copy of the raw adjacency `A` in twenty-five blocks of 400. At each block it
  multiplies the block by the whole of `u₂` and adds the matching 400 rows of the prior beliefs `E`. The kernel adds
  the beliefs to the product; addition of extended reals commutes, so that is the beliefs plus the product. Row `r` of
  block `t` is row `400 t + r` of `A` and of `E`, and row `p` of the result lies in block `p / 400`, so the
  twenty-five blocks tile the result.
-/
import proofs.«153989_j16939351015663_2_alg».proof.Proof.Gen.KernelIdeal.Frame
import proofs.«153989_j16939351015663_2_alg».proof.Proof.BeliefSpec
import proofs.«153989_j16939351015663_2_alg».proof.Proof.LibTwoBlocks
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region6

open Cert.KernelIdeal Cert.KernelIdeal.Gen Idealize.ShloMosaic Idealize.ShloMosaic.TcCoe Idealize.SL.Sem Idealize.ShloMosaic.ValueIdx Cert.BeliefSpec
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The whole-array function the call computes: the propagation step, entry by entry. -/
def G (A : S10000x10000.Idx → EReal) (U : S10000x16.Idx → EReal) (E : S10000x16.Idx → EReal) : S10000x16.Idx → EReal :=
  fun i => step (fun p k => A (ix2 p k)) (fun k q => U (ix2 k q)) (fun p q => E (ix2 p q))
    ⟨(i 0).val, (i 0).isLt⟩ ⟨(i 1).val, (i 1).isLt⟩

/-- The body's result at row `r`, column `q` of a block: the product's entry plus the prior belief, which is the
    prior belief plus the product's entry. -/
theorem pay_apply (x0 : Vec Ideal S400x10000 .bf16) (x1 : Vec Ideal S10000x16 .bf16) (x2 : Vec Ideal S400x16 .f32)
    (r : Fin 400) (q : Fin 16) :
    k6_pay1 x0 x1 x2 (ix2 r q)
      = step (fun p k => x0 (ix2 p k)) (fun k q => x1 (ix2 k q)) (fun p q => x2 (ix2 p q)) r q := by
  unfold k6_pay1
  rw [shapeCast_self, shapeCast_self, shapeCast_self]
  show _ + _ = _ + _
  refine (add_comm _ _).trans (congrArg₂ (· + ·) rfl ?_)
  exact Cert.Lib.TwoBlocks.plain_matmul_zero_apply dot_S400x10000_S10000x16_S400x16_1_0_0_1_n_n rfl none _ _ r q

/-- The index maps over the grid: the row blocks of `A`, of `E` and of the result move together, `u₂` stays. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0 :=
  (by decide +kernel : ∀ t : Fin grid6.N, _)

/-- Row `r` of block `t` of `A` is row `400 t + r` of the array. -/
theorem read_0 (c : Dev nD) (t : Fin cfg6.N) (r : Fin 400) (p : Fin 10000) (hp : p.val = t.val * 400 + r.val) (k : Fin 10000) :
    iblk6 V c 0 t (ix2 r k) = V c (Pipeline.arrRef spec6 0) (ix2 p k) := by
  obtain ⟨e0, e1, -, -, -, -, -, -⟩ := idx_facts t
  show V c (Pipeline.arrRef spec6 0) (((cfg6.win 0).blk t).view.emb (ix2 r k)) = _
  refine congrArg (V c (Pipeline.arrRef spec6 0)) (funext fun a => Fin.ext ?_)
  match a with
  | ⟨0, _⟩ => show win6_0.index t (0 : Fin 2) * 400 + 1 * r.val = p.val; omega
  | ⟨1, _⟩ => show win6_0.index t (1 : Fin 2) * 10000 + 1 * k.val = k.val; omega

/-- The block of `u₂` is the whole array at every point. -/
theorem read_1 (c : Dev nD) (t : Fin cfg6.N) (k : Fin 10000) (q : Fin 16) :
    iblk6 V c 1 t (ix2 k q) = V c (Pipeline.arrRef spec6 1) (ix2 k q) := by
  obtain ⟨-, -, e2, e3, -, -, -, -⟩ := idx_facts t
  show V c (Pipeline.arrRef spec6 1) (((cfg6.win 1).blk t).view.emb (ix2 k q)) = _
  refine congrArg (V c (Pipeline.arrRef spec6 1)) (funext fun a => Fin.ext ?_)
  match a with
  | ⟨0, _⟩ => show win6_1.index t (0 : Fin 2) * 10000 + 1 * k.val = k.val; omega
  | ⟨1, _⟩ => show win6_1.index t (1 : Fin 2) * 16 + 1 * q.val = q.val; omega

/-- Row `r` of block `t` of `E` is row `400 t + r` of the array. -/
theorem read_2 (c : Dev nD) (t : Fin cfg6.N) (r : Fin 400) (p : Fin 10000) (hp : p.val = t.val * 400 + r.val) (q : Fin 16) :
    iblk6 V c 2 t (ix2 r q) = V c (Pipeline.arrRef spec6 2) (ix2 p q) := by
  obtain ⟨-, -, -, -, e4, e5, -, -⟩ := idx_facts t
  show V c (Pipeline.arrRef spec6 2) (((cfg6.win 2).blk t).view.emb (ix2 r q)) = _
  refine congrArg (V c (Pipeline.arrRef spec6 2)) (funext fun a => Fin.ext ?_)
  match a with
  | ⟨0, _⟩ => show win6_2.index t (0 : Fin 2) * 400 + 1 * r.val = p.val; omega
  | ⟨1, _⟩ => show win6_2.index t (1 : Fin 2) * 16 + 1 * q.val = q.val; omega

/-- What point `t` writes back is block `t` of the step of the arrays as the call finds them. -/
theorem flushed_eq (c : Dev nD) (t : Fin cfg6.N) :
    (dat6 V c).flushed 3 t = ((cfg6.win 3).blk t).view.read (Elt Ideal)
      (G (V c (Pipeline.arrRef spec6 0)) (V c (Pipeline.arrRef spec6 1)) (V c (Pipeline.arrRef spec6 2))) := by
  show (cfg6.win 3).cut (grid6.coords t) ((dat6 V c).after 3 t) = _
  rw [after6_3]
  unfold out6_3
  rw [View.canon_unit_zero hz]
  simp only [View.ld_unit_zero (S := S400x10000) hz, View.ld_unit_zero (S := S10000x16) hz, View.ld_unit_zero (S := S400x16) hz]
  obtain ⟨-, -, -, -, -, -, e6, e7⟩ := idx_facts t
  have hN : cfg6.N = 25 := N_6
  have ht := t.isLt
  funext j
  obtain ⟨r, q, rfl⟩ : ∃ (r : Fin 400) (q : Fin 16), j = ix2 r q := ⟨j 0, j 1, eq_ix2 j⟩
  have hr := r.isLt
  have hemb : ((cfg6.win 3).blk t).view.emb (ix2 r q) = ix2 (⟨t.val * 400 + r.val, by omega⟩ : Fin 10000) q :=
    funext fun a => Fin.ext (by
      match a with
      | ⟨0, _⟩ => show win6_3.index t (0 : Fin 2) * 400 + 1 * r.val = t.val * 400 + r.val; omega
      | ⟨1, _⟩ => show win6_3.index t (1 : Fin 2) * 16 + 1 * q.val = q.val; omega)
  show k6_pay1 (iblk6 V c 0 t) (iblk6 V c 1 t) (iblk6 V c 2 t) (ix2 r q)
    = G (V c (Pipeline.arrRef spec6 0)) (V c (Pipeline.arrRef spec6 1)) (V c (Pipeline.arrRef spec6 2))
        (((cfg6.win 3).blk t).view.emb (ix2 r q))
  rw [hemb]
  refine (pay_apply (iblk6 V c 0 t) (iblk6 V c 1 t) (iblk6 V c 2 t) r q).trans ?_
  show step (fun p k => iblk6 V c 0 t (ix2 p k)) (fun k q => iblk6 V c 1 t (ix2 k q)) (fun p q => iblk6 V c 2 t (ix2 p q)) r q
    = step (fun p k => V c (Pipeline.arrRef spec6 0) (ix2 p k)) (fun k q => V c (Pipeline.arrRef spec6 1) (ix2 k q))
        (fun p q => V c (Pipeline.arrRef spec6 2) (ix2 p q)) (⟨t.val * 400 + r.val, by omega⟩ : Fin 10000) q
  exact step_congr r _ q (fun k => read_0 V c t r _ rfl k) (fun k => read_1 V c t k q) (read_2 V c t r _ rfl q)

/-- An index of the result lies in point `t`'s block iff its row is among the block's 400 rows. -/
theorem mem_blk (t : Fin cfg6.N) (i : S10000x16.Idx) :
    i ∈ ((cfg6.win 3).blk t).view.set ↔ ∀ a : Fin 2, win6_3.index t a * S400x16.size a ≤ (i a).val ∧ (i a).val < win6_3.index t a * S400x16.size a + S400x16.size a := by
  show i ∈ ((View.whole main_v14).slice (win6_3.rect t)).set ↔ _
  rw [View.set_slice_whole, Rect.mem_set_unit]
  exact Iff.rfl

/-- Every index of the result is in some point's block: row `p` in block `p / 400`. -/
theorem cover (i : S10000x16.Idx) : ∃ t : Fin cfg6.N, (cfg6.win 3).flush t = true ∧ i ∈ ((cfg6.win 3).blk t).view.set := by
  have hi0 : (i 0).val < 10000 := (i 0).isLt
  have hi1 : (i 1).val < 16 := (i 1).isLt
  have hN : cfg6.N = 25 := N_6
  let t : Fin cfg6.N := ⟨(i 0).val / 400, by rw [hN]; omega⟩
  obtain ⟨-, -, -, -, -, -, e6, e7⟩ := idx_facts t
  have e6' : win6_3.index t (0 : Fin 2) = (i 0).val / 400 := e6
  refine ⟨t, flush6_3 t, ?_⟩
  rw [mem_blk]
  intro a
  match a with
  | ⟨0, _⟩ => show win6_3.index t (0 : Fin 2) * 400 ≤ (i 0).val ∧ (i 0).val < win6_3.index t (0 : Fin 2) * 400 + 400; omega
  | ⟨1, _⟩ => show win6_3.index t (1 : Fin 2) * 16 ≤ (i 1).val ∧ (i 1).val < win6_3.index t (1 : Fin 2) * 16 + 16; omega

/-- The result array after the call is the step of the three arrays the call found. -/
theorem final (c : Dev nD) : (dat6 V c).arrAt 3 cfg6.N
    = G (V c (Pipeline.arrRef spec6 0)) (V c (Pipeline.arrRef spec6 1)) (V c (Pipeline.arrRef spec6 2)) :=
  (dat6 V c).arrAt_eq_of_cover 3 _ (fun t _ => flushed_eq V c t) cover

/-- The same, entry by entry. -/
theorem final_apply (c : Dev nD) (p : Fin 10000) (q : Fin 16) :
    (dat6 V c).arrAt 3 cfg6.N (ix2 p q)
      = step (fun p k => V c (Pipeline.arrRef spec6 0) (ix2 p k)) (fun k q => V c (Pipeline.arrRef spec6 1) (ix2 k q))
          (fun p q => V c (Pipeline.arrRef spec6 2) (ix2 p q)) p q := by
  rw [final]; rfl

end Cert.KernelIdeal.Region6

end
-- ==== Proof.Region7.lean ====
/-
  The last propagation step with the one sixteenth put back, `B₄ + 1/16 = (E + A u₃) + 1/16`, as the eighth
  pipelined call leaves it.

  The call walks the 10000 rows of the copy of the raw adjacency `A` in twenty-five blocks of 400. At each block it
  multiplies the block by the whole of `u₃`, adds the matching 400 rows of the prior beliefs `E`, and adds one
  sixteenth to every entry. The kernel adds the beliefs to the product; addition of extended reals commutes, so that
  is the beliefs plus the product. Row `r` of block `t` is row `400 t + r` of `A` and of `E`, and row `p` of the result
  lies in block `p / 400`, so the twenty-five blocks tile the result.
-/
import proofs.«153989_j16939351015663_2_alg».proof.Proof.Gen.KernelIdeal.Frame
import proofs.«153989_j16939351015663_2_alg».proof.Proof.BeliefSpec
import proofs.«153989_j16939351015663_2_alg».proof.Proof.LibTwoBlocks
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region7

open Cert.KernelIdeal Cert.KernelIdeal.Gen Idealize.ShloMosaic Idealize.ShloMosaic.TcCoe Idealize.SL.Sem Idealize.ShloMosaic.ValueIdx Cert.BeliefSpec
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The whole-array function the call computes: the last propagation step, entry by entry. -/
def G (A : S10000x10000.Idx → EReal) (U : S10000x16.Idx → EReal) (E : S10000x16.Idx → EReal) : S10000x16.Idx → EReal :=
  fun i => lastStep (fun p k => A (ix2 p k)) (fun k q => U (ix2 k q)) (fun p q => E (ix2 p q))
    ⟨(i 0).val, (i 0).isLt⟩ ⟨(i 1).val, (i 1).isLt⟩

/-- The body's result at row `r`, column `q` of a block: the product's entry plus the prior belief plus one sixteenth,
    which is the prior belief plus the product's entry, plus one sixteenth. -/
theorem pay_apply (x0 : Vec Ideal S400x10000 .bf16) (x1 : Vec Ideal S10000x16 .bf16) (x2 : Vec Ideal S400x16 .f32)
    (r : Fin 400) (q : Fin 16) :
    k7_pay1 x0 x1 x2 (ix2 r q)
      = lastStep (fun p k => x0 (ix2 p k)) (fun k q => x1 (ix2 k q)) (fun p q => x2 (ix2 p q)) r q := by
  unfold k7_pay1
  rw [shapeCast_self, shapeCast_self, shapeCast_self]
  show (_ + _) + _ = (_ + _) + _
  refine congrArg₂ (· + ·) ((add_comm _ _).trans (congrArg₂ (· + ·) rfl ?_)) rfl
  exact Cert.Lib.TwoBlocks.plain_matmul_zero_apply dot_S400x10000_S10000x16_S400x16_1_0_0_1_n_n rfl none _ _ r q

/-- The index maps over the grid: the row blocks of `A`, of `E` and of the result move together, `u₃` stays. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0 :=
  (by decide +kernel : ∀ t : Fin grid7.N, _)

/-- Row `r` of block `t` of `A` is row `400 t + r` of the array. -/
theorem read_0 (c : Dev nD) (t : Fin cfg7.N) (r : Fin 400) (p : Fin 10000) (hp : p.val = t.val * 400 + r.val) (k : Fin 10000) :
    iblk7 V c 0 t (ix2 r k) = V c (Pipeline.arrRef spec7 0) (ix2 p k) := by
  obtain ⟨e0, e1, -, -, -, -, -, -⟩ := idx_facts t
  show V c (Pipeline.arrRef spec7 0) (((cfg7.win 0).blk t).view.emb (ix2 r k)) = _
  refine congrArg (V c (Pipeline.arrRef spec7 0)) (funext fun a => Fin.ext ?_)
  match a with
  | ⟨0, _⟩ => show win7_0.index t (0 : Fin 2) * 400 + 1 * r.val = p.val; omega
  | ⟨1, _⟩ => show win7_0.index t (1 : Fin 2) * 10000 + 1 * k.val = k.val; omega

/-- The block of `u₃` is the whole array at every point. -/
theorem read_1 (c : Dev nD) (t : Fin cfg7.N) (k : Fin 10000) (q : Fin 16) :
    iblk7 V c 1 t (ix2 k q) = V c (Pipeline.arrRef spec7 1) (ix2 k q) := by
  obtain ⟨-, -, e2, e3, -, -, -, -⟩ := idx_facts t
  show V c (Pipeline.arrRef spec7 1) (((cfg7.win 1).blk t).view.emb (ix2 k q)) = _
  refine congrArg (V c (Pipeline.arrRef spec7 1)) (funext fun a => Fin.ext ?_)
  match a with
  | ⟨0, _⟩ => show win7_1.index t (0 : Fin 2) * 10000 + 1 * k.val = k.val; omega
  | ⟨1, _⟩ => show win7_1.index t (1 : Fin 2) * 16 + 1 * q.val = q.val; omega

/-- Row `r` of block `t` of `E` is row `400 t + r` of the array. -/
theorem read_2 (c : Dev nD) (t : Fin cfg7.N) (r : Fin 400) (p : Fin 10000) (hp : p.val = t.val * 400 + r.val) (q : Fin 16) :
    iblk7 V c 2 t (ix2 r q) = V c (Pipeline.arrRef spec7 2) (ix2 p q) := by
  obtain ⟨-, -, -, -, e4, e5, -, -⟩ := idx_facts t
  show V c (Pipeline.arrRef spec7 2) (((cfg7.win 2).blk t).view.emb (ix2 r q)) = _
  refine congrArg (V c (Pipeline.arrRef spec7 2)) (funext fun a => Fin.ext ?_)
  match a with
  | ⟨0, _⟩ => show win7_2.index t (0 : Fin 2) * 400 + 1 * r.val = p.val; omega
  | ⟨1, _⟩ => show win7_2.index t (1 : Fin 2) * 16 + 1 * q.val = q.val; omega

/-- What point `t` writes back is block `t` of the last step of the arrays as the call finds them. -/
theorem flushed_eq (c : Dev nD) (t : Fin cfg7.N) :
    (dat7 V c).flushed 3 t = ((cfg7.win 3).blk t).view.read (Elt Ideal)
      (G (V c (Pipeline.arrRef spec7 0)) (V c (Pipeline.arrRef spec7 1)) (V c (Pipeline.arrRef spec7 2))) := by
  show (cfg7.win 3).cut (grid7.coords t) ((dat7 V c).after 3 t) = _
  rw [after7_3]
  unfold out7_3
  rw [View.canon_unit_zero hz]
  simp only [View.ld_unit_zero (S := S400x10000) hz, View.ld_unit_zero (S := S10000x16) hz, View.ld_unit_zero (S := S400x16) hz]
  obtain ⟨-, -, -, -, -, -, e6, e7⟩ := idx_facts t
  have hN : cfg7.N = 25 := N_7
  have ht := t.isLt
  funext j
  obtain ⟨r, q, rfl⟩ : ∃ (r : Fin 400) (q : Fin 16), j = ix2 r q := ⟨j 0, j 1, eq_ix2 j⟩
  have hr := r.isLt
  have hemb : ((cfg7.win 3).blk t).view.emb (ix2 r q) = ix2 (⟨t.val * 400 + r.val, by omega⟩ : Fin 10000) q :=
    funext fun a => Fin.ext (by
      match a with
      | ⟨0, _⟩ => show win7_3.index t (0 : Fin 2) * 400 + 1 * r.val = t.val * 400 + r.val; omega
      | ⟨1, _⟩ => show win7_3.index t (1 : Fin 2) * 16 + 1 * q.val = q.val; omega)
  show k7_pay1 (iblk7 V c 0 t) (iblk7 V c 1 t) (iblk7 V c 2 t) (ix2 r q)
    = G (V c (Pipeline.arrRef spec7 0)) (V c (Pipeline.arrRef spec7 1)) (V c (Pipeline.arrRef spec7 2))
        (((cfg7.win 3).blk t).view.emb (ix2 r q))
  rw [hemb]
  refine (pay_apply (iblk7 V c 0 t) (iblk7 V c 1 t) (iblk7 V c 2 t) r q).trans ?_
  show lastStep (fun p k => iblk7 V c 0 t (ix2 p k)) (fun k q => iblk7 V c 1 t (ix2 k q)) (fun p q => iblk7 V c 2 t (ix2 p q)) r q
    = lastStep (fun p k => V c (Pipeline.arrRef spec7 0) (ix2 p k)) (fun k q => V c (Pipeline.arrRef spec7 1) (ix2 k q))
        (fun p q => V c (Pipeline.arrRef spec7 2) (ix2 p q)) (⟨t.val * 400 + r.val, by omega⟩ : Fin 10000) q
  exact lastStep_congr r _ q (fun k => read_0 V c t r _ rfl k) (fun k => read_1 V c t k q) (read_2 V c t r _ rfl q)

/-- An index of the result lies in point `t`'s block iff its row is among the block's 400 rows. -/
theorem mem_blk (t : Fin cfg7.N) (i : S10000x16.Idx) :
    i ∈ ((cfg7.win 3).blk t).view.set ↔ ∀ a : Fin 2, win7_3.index t a * S400x16.size a ≤ (i a).val ∧ (i a).val < win7_3.index t a * S400x16.size a + S400x16.size a := by
  show i ∈ ((View.whole main_v17).slice (win7_3.rect t)).set ↔ _
  rw [View.set_slice_whole, Rect.mem_set_unit]
  exact Iff.rfl

/-- Every index of the result is in some point's block: row `p` in block `p / 400`. -/
theorem cover (i : S10000x16.Idx) : ∃ t : Fin cfg7.N, (cfg7.win 3).flush t = true ∧ i ∈ ((cfg7.win 3).blk t).view.set := by
  have hi0 : (i 0).val < 10000 := (i 0).isLt
  have hi1 : (i 1).val < 16 := (i 1).isLt
  have hN : cfg7.N = 25 := N_7
  let t : Fin cfg7.N := ⟨(i 0).val / 400, by rw [hN]; omega⟩
  obtain ⟨-, -, -, -, -, -, e6, e7⟩ := idx_facts t
  have e6' : win7_3.index t (0 : Fin 2) = (i 0).val / 400 := e6
  refine ⟨t, flush7_3 t, ?_⟩
  rw [mem_blk]
  intro a
  match a with
  | ⟨0, _⟩ => show win7_3.index t (0 : Fin 2) * 400 ≤ (i 0).val ∧ (i 0).val < win7_3.index t (0 : Fin 2) * 400 + 400; omega
  | ⟨1, _⟩ => show win7_3.index t (1 : Fin 2) * 16 ≤ (i 1).val ∧ (i 1).val < win7_3.index t (1 : Fin 2) * 16 + 16; omega

/-- The result array after the call is the last step of the three arrays the call found. -/
theorem final (c : Dev nD) : (dat7 V c).arrAt 3 cfg7.N
    = G (V c (Pipeline.arrRef spec7 0)) (V c (Pipeline.arrRef spec7 1)) (V c (Pipeline.arrRef spec7 2)) :=
  (dat7 V c).arrAt_eq_of_cover 3 _ (fun t _ => flushed_eq V c t) cover

/-- The same, entry by entry. -/
theorem final_apply (c : Dev nD) (p : Fin 10000) (q : Fin 16) :
    (dat7 V c).arrAt 3 cfg7.N (ix2 p q)
      = lastStep (fun p k => V c (Pipeline.arrRef spec7 0) (ix2 p k)) (fun k q => V c (Pipeline.arrRef spec7 1) (ix2 k q))
          (fun p q => V c (Pipeline.arrRef spec7 2) (ix2 p q)) p q := by
  rw [final]; rfl

end Cert.KernelIdeal.Region7

end
-- ==== Proof.LibPlainDot.lean ====
/-
  The host's plain matrix product read at an entry, for any sizes.

  An `M × K` by `K × N` product taken by the host, with no batch axis and the left operand's columns contracted with
  the right operand's rows, reads at `(p, q)` the sum over the shared index `c` of `A (p, c) * B (c, q)`: over the
  extended reals the host's product is the textbook contraction, whatever its precision attribute.
-/
import Idealize.ShloMosaic.Lib.Pipeline.Value
import Idealize.ShloMosaic.Lib.ValueIdx
import Idealize.ShloMosaic.PureOps.Ideal.Laws

noncomputable section

open scoped BigOperators

namespace Cert.Lib.PlainDot

open Idealize.ShloMosaic Idealize.ShloMosaic.ValueIdx

/-- The host's `M × K` by `K × N` product reads, at `(p, q)`, the sum over the shared axis. The dimension numbers are
    any that contract the left operand's columns with the right operand's rows and batch nothing (`hD`). -/
theorem plain_dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (p : Fin M) (q : Fin N) :
    Host.dotGeneral D prec A B (ix2 p q) = ∑ c : Fin K, A (ix2 p c) * B (ix2 c q) := by
  subst hD
  simp only [Host.dotGeneral]
  rw [Ideal.dotGeneral_apply, ← Equiv.sum_comp (contrEquiv1 (DotDims.plain M K N) K rfl rfl).symm]
  refine Finset.sum_congr rfl fun c _ => ?_
  have hk := contrEquiv1_symm_val (DotDims.plain M K N) K rfl rfl c
  have el : (DotDims.plain M K N).lhsIdx (ix2 p q) ((contrEquiv1 (DotDims.plain M K N) K rfl rfl).symm c) = ix2 p c :=
    funext fun ax => Fin.ext (by
      match ax with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm c) = ix2 c q :=
    funext fun ax => Fin.ext (by
      match ax with
      | ⟨0, _⟩ => exact ((DotDims.plain M K N).rhsIdx_val_of_single rfl (ix2 p q) _).trans hk
      | ⟨1, _⟩ => rfl)
  rw [el, er]

end Cert.Lib.PlainDot

end
-- ==== Proof.KernelValue.lean ====
/-
  The kernel program's result array is the posterior beliefs of the specification.

  Segment by segment: each pipelined call leaves in its result array the whole-array function proved of it (one module
  per call), applied to the arrays it finds at its entry; each array found is either an argument as launched, a
  reshaped bias, or an earlier segment's result, by the boundary facts. The small host products between the
  propagation calls read at an entry as the sum over the sixteen classes. Chained from the first product to the last
  step, the result array at an entry is the specification's `answer` of the argument arrays.
-/
import proofs.«153989_j16939351015663_2_alg».proof.Proof.Boundaries
import proofs.«153989_j16939351015663_2_alg».proof.Proof.Region0
import proofs.«153989_j16939351015663_2_alg».proof.Proof.Region1
import proofs.«153989_j16939351015663_2_alg».proof.Proof.Region2
import proofs.«153989_j16939351015663_2_alg».proof.Proof.Region3
import proofs.«153989_j16939351015663_2_alg».proof.Proof.Region4
import proofs.«153989_j16939351015663_2_alg».proof.Proof.Region5
import proofs.«153989_j16939351015663_2_alg».proof.Proof.Region6
import proofs.«153989_j16939351015663_2_alg».proof.Proof.Region7
import proofs.«153989_j16939351015663_2_alg».proof.Proof.LibPlainDot
import proofs.«153989_j16939351015663_2_alg».proof.Proof.BeliefSpec

set_option maxRecDepth 16384

noncomputable section

open scoped BigOperators

namespace Cert.KernelIdeal.KernelValue

open Cert.KernelIdeal Cert.KernelIdeal.Gen Cert.KernelIdeal.Boundaries Idealize.ShloMosaic Idealize.ShloMosaic.TcCoe Idealize.SL.Sem
open Idealize.ShloMosaic.ValueIdx Idealize.ShloMosaic.StableHlo Cert.BeliefSpec
open Idealize.ShloMosaic.Pipeline (Dat Cfg Window)

variable (m : (ℓ : Loc nD τ sig) → Buf (Elt Ideal) ℓ) (ρ : Dev nD → PrngReg) (c : Dev nD)

/-- The argument arrays as launched, as functions of a row and a column (the biases of a column). -/
abbrev cA : Fin 10000 → Fin 10000 → EReal := fun p k => m ((c : Thread nD τ).loc main_arg0) (ix2 p k)
abbrev cAh : Fin 10000 → Fin 10000 → EReal := fun p k => m ((c : Thread nD τ).loc main_arg1) (ix2 p k)
abbrev cX : Fin 10000 → Fin 512 → EReal := fun p k => m ((c : Thread nD τ).loc main_arg2) (ix2 p k)
abbrev cW1 : Fin 512 → Fin 256 → EReal := fun k q => m ((c : Thread nD τ).loc main_arg5) (ix2 k q)
abbrev cb1 : Fin 256 → EReal := fun q => m ((c : Thread nD τ).loc main_arg6) (ix1 q)
abbrev cW2 : Fin 256 → Fin 16 → EReal := fun k q => m ((c : Thread nD τ).loc main_arg7) (ix2 k q)
abbrev cb2 : Fin 16 → EReal := fun q => m ((c : Thread nD τ).loc main_arg8) (ix1 q)
abbrev cH : Fin 16 → Fin 16 → EReal := fun k q => m ((c : Thread nD τ).loc main_arg9) (ix2 k q)

/-- The prior beliefs of the launched arguments. -/
abbrev prior : Fin 10000 → Fin 16 → EReal :=
  priorBeliefs (cAh m c) (cX m c) (cW1 m c) (cb1 m c) (cW2 m c) (cb2 m c)

/-! ## The network -/

/-- After the first call: the first product. -/
theorem t1_apply (p : Fin 10000) (q : Fin 256) :
    W2 m ρ c (Proc.devRef .tc main_v2) (ix2 p q) = mm (cX m c) (cW1 m c) p q := by
  refine (congrFun (W2_arr m ρ c 2) (ix2 p q)).trans ?_
  refine (Cert.KernelIdeal.Region0.final_apply (V1 m ρ) c p q).trans ?_
  refine mm_congr p p q (fun k => ?_) (fun k => ?_)
  · exact congrFun (W1_arg2 m ρ c) (ix2 p k)
  · exact congrFun (W1_arg5 m ρ c) (ix2 k q)

/-- After the second call: the hidden layer. -/
theorem hidden_apply (p : Fin 10000) (q : Fin 256) :
    W3 m ρ c (Proc.devRef .tc main_v3) (ix2 p q) = hiddenLayer (cAh m c) (cX m c) (cW1 m c) (cb1 m c) p q := by
  refine (congrFun (W3_arr m ρ c 3) (ix2 p q)).trans ?_
  refine (Cert.KernelIdeal.Region1.final_apply (V2 m ρ) c p q).trans ?_
  unfold hiddenLayer
  refine reluLayer_congr p p q (fun k => ?_) (fun k => ?_) ?_
  · exact congrFun (W2_arg1 m ρ c) (ix2 p k)
  · exact t1_apply m ρ c k q
  · exact W2_v0_apply m ρ c 0 q

/-- After the third call: the second small product. -/
theorem t2_apply (p : Fin 10000) (q : Fin 16) :
    W4 m ρ c (Proc.devRef .tc main_v4) (ix2 p q)
      = mm (hiddenLayer (cAh m c) (cX m c) (cW1 m c) (cb1 m c)) (cW2 m c) p q := by
  refine (congrFun (W4_arr m ρ c 2) (ix2 p q)).trans ?_
  refine (Cert.KernelIdeal.Region2.final_apply (V3 m ρ) c p q).trans ?_
  refine mm_congr p p q (fun k => ?_) (fun k => ?_)
  · exact hidden_apply m ρ c p k
  · exact congrFun (W3_arg7 m ρ c) (ix2 k q)

/-- After the fourth call: the prior beliefs. -/
theorem prior_apply (p : Fin 10000) (q : Fin 16) :
    W5 m ρ c (Proc.devRef .tc main_v5) (ix2 p q) = prior m c p q := by
  refine (congrFun (W5_arr m ρ c 3) (ix2 p q)).trans ?_
  refine (Cert.KernelIdeal.Region3.final_apply (V4 m ρ) c p q).trans ?_
  show _ = priorBeliefs (cAh m c) (cX m c) (cW1 m c) (cb1 m c) (cW2 m c) (cb2 m c) p q
  unfold priorBeliefs
  refine beliefs_congr p p (fun c' => ?_) q
  unfold logits
  refine dense_congr p p c' (fun k => ?_) (fun k => ?_) ?_
  · exact congrFun (W4_arg1 m ρ c) (ix2 p k)
  · exact t2_apply m ρ c k c'
  · exact W4_v1_apply m ρ c 0 c'

/-! ## The propagation steps -/

/-- The compatibilities of the priors, as the host product before the first propagation call leaves them. -/
theorem u0_apply (k : Fin 10000) (q : Fin 16) :
    W6 m ρ c (Proc.devRef .tc main_v7) (ix2 k q) = mm (prior m c) (cH m c) k q := by
  show StableHlo.after hostOps4 (W5 m ρ c) (Proc.devRef .tc main_v7) (ix2 k q) = _
  after_results
  refine (Cert.Lib.PlainDot.plain_dotGeneral_apply (φ₁ := .f32) (φ₂ := .f32) dot_S10000x16_S16x16_S10000x16_1_0_0_1_n_n rfl none
    (W5 m ρ c (Proc.devRef .tc main_v5)) (W5 m ρ c (Proc.devRef .tc main_arg9)) k q).trans ?_
  refine Finset.sum_congr rfl fun j _ => ?_
  rw [prior_apply m ρ c k j, congrFun (W5_arg9 m ρ c) (ix2 j q)]

/-- After the fifth call: the first propagation. -/
theorem prop1_apply (p : Fin 10000) (q : Fin 16) :
    W7 m ρ c (Proc.devRef .tc main_v8_0) (ix2 p q) = propagate (cA m c) (cH m c) (prior m c) (prior m c) p q := by
  refine (congrFun (W7_arr m ρ c 3) (ix2 p q)).trans ?_
  refine (Cert.KernelIdeal.Region4.final_apply (V6 m ρ) c p q).trans ?_
  unfold propagate
  refine step_congr p p q (fun k => ?_) (fun k => ?_) ?_
  · exact congrFun (W6_arg0 m ρ c) (ix2 p k)
  · exact u0_apply m ρ c k q
  · exact (congrFun (W6_v5 m ρ c) (ix2 p q)).trans (prior_apply m ρ c p q)

/-- The compatibilities of the first propagation. -/
theorem u1_apply (k : Fin 10000) (q : Fin 16) :
    W8 m ρ c (Proc.devRef .tc main_v10) (ix2 k q)
      = mm (propagate (cA m c) (cH m c) (prior m c) (prior m c)) (cH m c) k q := by
  show StableHlo.after hostOps5 (W7 m ρ c) (Proc.devRef .tc main_v10) (ix2 k q) = _
  after_results
  refine (Cert.Lib.PlainDot.plain_dotGeneral_apply (φ₁ := .f32) (φ₂ := .f32) dot_S10000x16_S16x16_S10000x16_1_0_0_1_n_n rfl none
    (W7 m ρ c (Proc.devRef .tc main_v8_0)) (W7 m ρ c (Proc.devRef .tc main_arg9)) k q).trans ?_
  refine Finset.sum_congr rfl fun j _ => ?_
  rw [prop1_apply m ρ c k j, congrFun (W7_arg9 m ρ c) (ix2 j q)]

/-- After the sixth call: the second propagation. -/
theorem prop2_apply (p : Fin 10000) (q : Fin 16) :
    W9 m ρ c (Proc.devRef .tc main_v11) (ix2 p q)
      = propagate (cA m c) (cH m c) (prior m c) (propagate (cA m c) (cH m c) (prior m c) (prior m c)) p q := by
  refine (congrFun (W9_arr m ρ c 3) (ix2 p q)).trans ?_
  refine (Cert.KernelIdeal.Region5.final_apply (V8 m ρ) c p q).trans ?_
  refine step_congr p p q (fun k => ?_) (fun k => ?_) ?_
  · exact W8_v8_1_apply m ρ c p k
  · exact u1_apply m ρ c k q
  · exact (congrFun (W8_v5 m ρ c) (ix2 p q)).trans (prior_apply m ρ c p q)

/-- The compatibilities of the second propagation. -/
theorem u2_apply (k : Fin 10000) (q : Fin 16) :
    W10 m ρ c (Proc.devRef .tc main_v13) (ix2 k q)
      = mm (propagate (cA m c) (cH m c) (prior m c) (propagate (cA m c) (cH m c) (prior m c) (prior m c))) (cH m c) k q := by
  show StableHlo.after hostOps6 (W9 m ρ c) (Proc.devRef .tc main_v13) (ix2 k q) = _
  after_results
  refine (Cert.Lib.PlainDot.plain_dotGeneral_apply (φ₁ := .f32) (φ₂ := .f32) dot_S10000x16_S16x16_S10000x16_1_0_0_1_n_n rfl none
    (W9 m ρ c (Proc.devRef .tc main_v11)) (W9 m ρ c (Proc.devRef .tc main_arg9)) k q).trans ?_
  refine Finset.sum_congr rfl fun j _ => ?_
  rw [prop2_apply m ρ c k j, congrFun (W9_arg9 m ρ c) (ix2 j q)]

/-- After the seventh call: the third propagation. -/
theorem prop3_apply (p : Fin 10000) (q : Fin 16) :
    W11 m ρ c (Proc.devRef .tc main_v14) (ix2 p q)
      = propagate (cA m c) (cH m c) (prior m c)
          (propagate (cA m c) (cH m c) (prior m c) (propagate (cA m c) (cH m c) (prior m c) (prior m c))) p q := by
  refine (congrFun (W11_arr m ρ c 3) (ix2 p q)).trans ?_
  refine (Cert.KernelIdeal.Region6.final_apply (V10 m ρ) c p q).trans ?_
  refine step_congr p p q (fun k => ?_) (fun k => ?_) ?_
  · exact W10_v8_1_apply m ρ c p k
  · exact u2_apply m ρ c k q
  · exact (congrFun (W10_v5 m ρ c) (ix2 p q)).trans (prior_apply m ρ c p q)

/-- The compatibilities of the third propagation. -/
theorem u3_apply (k : Fin 10000) (q : Fin 16) :
    W12 m ρ c (Proc.devRef .tc main_v16) (ix2 k q)
      = mm (propagate (cA m c) (cH m c) (prior m c)
          (propagate (cA m c) (cH m c) (prior m c) (propagate (cA m c) (cH m c) (prior m c) (prior m c)))) (cH m c) k q := by
  show StableHlo.after hostOps7 (W11 m ρ c) (Proc.devRef .tc main_v16) (ix2 k q) = _
  after_results
  refine (Cert.Lib.PlainDot.plain_dotGeneral_apply (φ₁ := .f32) (φ₂ := .f32) dot_S10000x16_S16x16_S10000x16_1_0_0_1_n_n rfl none
    (W11 m ρ c (Proc.devRef .tc main_v14)) (W11 m ρ c (Proc.devRef .tc main_arg9)) k q).trans ?_
  refine Finset.sum_congr rfl fun j _ => ?_
  rw [prop3_apply m ρ c k j, congrFun (W11_arg9 m ρ c) (ix2 j q)]

/-- After the eighth call: the posterior beliefs. -/
theorem answer_apply (p : Fin 10000) (q : Fin 16) :
    W13 m ρ c (Proc.devRef .tc main_v17) (ix2 p q)
      = answer (cA m c) (cAh m c) (cX m c) (cW1 m c) (cb1 m c) (cW2 m c) (cb2 m c) (cH m c) p q := by
  refine (congrFun (W13_arr m ρ c 3) (ix2 p q)).trans ?_
  refine (Cert.KernelIdeal.Region7.final_apply (V12 m ρ) c p q).trans ?_
  unfold answer finish
  refine lastStep_congr p p q (fun k => ?_) (fun k => ?_) ?_
  · exact W12_v8_1_apply m ρ c p k
  · exact u3_apply m ρ c k q
  · exact (congrFun (W12_v5 m ρ c) (ix2 p q)).trans (prior_apply m ρ c p q)

/-- The result array, whole. -/
theorem answer_eq :
    W13 m ρ c (Proc.devRef .tc main_v17)
      = fun i => answer (cA m c) (cAh m c) (cX m c) (cW1 m c) (cb1 m c) (cW2 m c) (cb2 m c) (cH m c)
          ⟨(i 0).val, (i 0).isLt⟩ ⟨(i 1).val, (i 1).isLt⟩ := by
  funext i
  obtain ⟨p, q, rfl⟩ : ∃ (p : Fin 10000) (q : Fin 16), i = ix2 p q := ⟨i 0, i 1, eq_ix2 i⟩
  exact answer_apply m ρ c p q

end Cert.KernelIdeal.KernelValue

end
-- ==== Proof.LibHostRowMax.lean ====
/-
  The host's maximum along the lanes of a matrix, read at a row, for any sizes.

  A one-operand reduce whose body is the maximum, taken along the second axis of an `n × k` array from an initial
  scalar, gives one number per row: at row `r` it is the fold of `max` from the initial value over that row's `k`
  entries (in any order: `max` commutes and associates on the extended reals).
-/
import Idealize.ShloMosaic.Lib.Pipeline.Value
import Idealize.ShloMosaic.Lib.ValueIdx
import Idealize.ShloMosaic.PureOps.Ideal.Laws

noncomputable section

namespace Cert.Lib.HostRowMax

open Idealize.ShloMosaic Idealize.ShloMosaic.ValueIdx

/-- The host's max-reduce along the lanes of an `n × k` array from the scalar `init` reads, at row `r`, the fold of
    `max` from `init`'s one entry over the row's entries. -/
theorem hostLaneMax_apply {n k : ℕ} {u : Shape} (x : FVec Ideal ⟨2, ![n, k]⟩ .f32) (init : FVec Ideal u .f32)
    (h' : (⟨2, ![n, k]⟩ : Shape).ReducesTo [1] ⟨1, ![n]⟩) (h : (⟨2, ![n, k]⟩ : Shape).Reduces [1] ⟨1, ![n]⟩)
    (hu : 0 < u.numel) (r : Fin n) :
    Host.reduce FloatOps.maximumf x init h' hu (ix1 r)
      = (Finset.univ : Finset (Fin k)).fold max (init (Shape.Idx.first hu)) (fun c => x (ix2 r c)) := by
  rw [Host.reduce_eq_fold_single FloatOps.maximumf x init h' h hu]
  refine congrArg (fun f => (Finset.univ : Finset (Fin k)).fold max (init (Shape.Idx.first hu)) f) (funext fun c => ?_)
  exact congrArg x (funext fun ax => Fin.ext (by
    match ax with
    | ⟨0, _⟩ => rfl
    | ⟨1, _⟩ => rfl))

end Cert.Lib.HostRowMax

end
-- ==== Proof.RefValue.lean ====
/-
  The reference program's result, read stage by stage, is the posterior beliefs of the specification.

  The reference is a straight line of host operations on whole arrays. Read at an entry, each matrix product is the
  sum over the shared index of the products of entries, each bias is spread down the rows, the positive part is a
  maximum with zero, and the softmax of a row is assembled from a row maximum, a difference, an exponential, a row sum
  (which the host starts from the word of zero) and a quotient. Stage by stage these are the specification's
  functions of the argument arrays, so the final array is its `answer`.
-/
import proofs.«153989_j16939351015663_2_alg».proof.Proof.Gen.ReferenceIdeal.Read
import proofs.«153989_j16939351015663_2_alg».proof.Proof.BeliefSpec
import proofs.«153989_j16939351015663_2_alg».proof.Proof.LibHostRowMax
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.ValueIdx Cert.BeliefSpec
open Cert.ReferenceIdeal.Facts₀ Cert.ReferenceIdeal.Facts

variable (x0 x1 : (⟨S10000x10000, .f32⟩ : BufTy).Contents (Elt Ideal)) (x2 : (⟨S10000x512, .f32⟩ : BufTy).Contents (Elt Ideal)) (x5 : (⟨S512x256, .f32⟩ : BufTy).Contents (Elt Ideal))
  (x6 : (⟨S256, .f32⟩ : BufTy).Contents (Elt Ideal)) (x7 : (⟨S256x16, .f32⟩ : BufTy).Contents (Elt Ideal)) (x8 : (⟨S16, .f32⟩ : BufTy).Contents (Elt Ideal)) (x9 : (⟨S16x16, .f32⟩ : BufTy).Contents (Elt Ideal))

/-- The argument arrays as functions of a row and a column (the biases of a column). -/
abbrev cA : Fin 10000 → Fin 10000 → EReal := fun p k => x0 (ix2 p k)
abbrev cAh : Fin 10000 → Fin 10000 → EReal := fun p k => x1 (ix2 p k)
abbrev cX : Fin 10000 → Fin 512 → EReal := fun p k => x2 (ix2 p k)
abbrev cW1 : Fin 512 → Fin 256 → EReal := fun k q => x5 (ix2 k q)
abbrev cb1 : Fin 256 → EReal := fun q => x6 (ix1 q)
abbrev cW2 : Fin 256 → Fin 16 → EReal := fun k q => x7 (ix2 k q)
abbrev cb2 : Fin 16 → EReal := fun q => x8 (ix1 q)
abbrev cH : Fin 16 → Fin 16 → EReal := fun k q => x9 (ix2 k q)

/-- The first product. -/
theorem t1_apply (p : Fin 10000) (q : Fin 256) : val_main_v0 (F := Ideal) x2 x5 (ix2 p q) = mm (cX x2) (cW1 x5) p q := by
  rw [val_main_v0_apply]
  refine Finset.sum_congr rfl fun k _ => ?_
  have el : lidx_main_v0 (ix2 p q) k = ix2 p k := funext fun a => Fin.ext (by match a with | ⟨0, _⟩ => rfl | ⟨1, _⟩ => rfl)
  have er : ridx_main_v0 (ix2 p q) k = ix2 k q := funext fun a => Fin.ext (by match a with | ⟨0, _⟩ => rfl | ⟨1, _⟩ => rfl)
  rw [el, er]

/-- The hidden layer. -/
theorem hidden_apply (p : Fin 10000) (q : Fin 256) :
    val_main_v5 (F := Ideal) x1 x2 x5 x6 (ix2 p q) = hiddenLayer (cAh x1) (cX x2) (cW1 x5) (cb1 x6) p q := by
  rw [val_main_v5_apply, val_main_v4_apply, val_main_v1_apply, val_main_v3_apply, val_main_v2_apply,
    val_main_call0_v0_apply, val_main_call0_cst_apply]
  unfold hiddenLayer reluLayer dense
  refine congrArg₂ max (congrArg₂ (· + ·) (Finset.sum_congr rfl fun k _ => ?_) ?_) rfl
  · have el : lidx_main_v1 (ix2 p q) k = ix2 p k := funext fun a => Fin.ext (by match a with | ⟨0, _⟩ => rfl | ⟨1, _⟩ => rfl)
    have er : ridx_main_v1 (ix2 p q) k = ix2 k q := funext fun a => Fin.ext (by match a with | ⟨0, _⟩ => rfl | ⟨1, _⟩ => rfl)
    rw [el, er, t1_apply]
  · exact congrArg x6 (funext fun a => Fin.ext (by match a with | ⟨0, _⟩ => rfl))

/-- The second small product. -/
theorem t2_apply (p : Fin 10000) (q : Fin 16) :
    val_main_v6 (F := Ideal) x1 x2 x5 x6 x7 (ix2 p q) = mm (hiddenLayer (cAh x1) (cX x2) (cW1 x5) (cb1 x6)) (cW2 x7) p q := by
  rw [val_main_v6_apply]
  refine Finset.sum_congr rfl fun k _ => ?_
  have el : lidx_main_v6 (ix2 p q) k = ix2 p k := funext fun a => Fin.ext (by match a with | ⟨0, _⟩ => rfl | ⟨1, _⟩ => rfl)
  have er : ridx_main_v6 (ix2 p q) k = ix2 k q := funext fun a => Fin.ext (by match a with | ⟨0, _⟩ => rfl | ⟨1, _⟩ => rfl)
  rw [el, er, hidden_apply]

/-- The logits. -/
theorem logits_apply (p : Fin 10000) (q : Fin 16) :
    val_main_v10 (F := Ideal) x1 x2 x5 x6 x7 x8 (ix2 p q) = logits (cAh x1) (cX x2) (cW1 x5) (cb1 x6) (cW2 x7) (cb2 x8) p q := by
  rw [val_main_v10_apply, val_main_v7_apply, val_main_v9_apply, val_main_v8_apply]
  unfold logits dense
  refine congrArg₂ (· + ·) (Finset.sum_congr rfl fun k _ => ?_) ?_
  · have el : lidx_main_v7 (ix2 p q) k = ix2 p k := funext fun a => Fin.ext (by match a with | ⟨0, _⟩ => rfl | ⟨1, _⟩ => rfl)
    have er : ridx_main_v7 (ix2 p q) k = ix2 k q := funext fun a => Fin.ext (by match a with | ⟨0, _⟩ => rfl | ⟨1, _⟩ => rfl)
    rw [el, er, t2_apply]
  · exact congrArg x8 (funext fun a => Fin.ext (by match a with | ⟨0, _⟩ => rfl))

/-- The largest logit of a row, as the host takes it. -/
theorem top_apply (p : Fin 10000) :
    val_main_v13 (F := Ideal) x1 x2 x5 x6 x7 x8 (ix1 p)
      = rowTop (logits (cAh x1) (cX x2) (cW1 x5) (cb1 x6) (cW2 x7) (cb2 x8) p) := by
  rw [val_main_v13_apply, val_main_v12_apply, val_main_cst_0_apply]
  unfold val_main_v11 rowTop
  refine congrArg₂ max rfl ?_
  refine (Cert.Lib.HostRowMax.hostLaneMax_apply _ _ Facts₀.reducesTo_S10000x16_S10000_d1 (by decide) Facts₀.h_S_ p).trans ?_
  refine congrArg₂ (fun a f => (Finset.univ : Finset (Fin 16)).fold max a f) rfl (funext fun c => ?_)
  exact logits_apply x1 x2 x5 x6 x7 x8 p c

/-- The exponential of a logit less its row's largest. -/
theorem exp_apply (p : Fin 10000) (q : Fin 16) :
    val_main_v17 (F := Ideal) x1 x2 x5 x6 x7 x8 (ix2 p q)
      = Ideal.exp (logits (cAh x1) (cX x2) (cW1 x5) (cb1 x6) (cW2 x7) (cb2 x8) p q
          - rowTop (logits (cAh x1) (cX x2) (cW1 x5) (cb1 x6) (cW2 x7) (cb2 x8) p)) := by
  rw [val_main_v17_apply, val_main_v16_apply, val_main_v15_apply, val_main_v14_apply, logits_apply]
  have e : idx_main_v14 (idx_main_v15 (ix2 p q)) = ix1 p := funext fun a => Fin.ext (by match a with | ⟨0, _⟩ => rfl)
  rw [e, top_apply]
  rfl

/-- The prior beliefs. -/
theorem prior_apply (p : Fin 10000) (q : Fin 16) :
    val_main_v23 (F := Ideal) x1 x2 x5 x6 x7 x8 (ix2 p q)
      = priorBeliefs (cAh x1) (cX x2) (cW1 x5) (cb1 x6) (cW2 x7) (cb2 x8) p q := by
  rw [val_main_v23_apply, val_main_v21_apply, val_main_v20_apply, val_main_v19_apply, val_main_v18_apply,
    val_main_v22_apply, val_main_cst_2_apply, val_main_cst_1_apply, exp_apply]
  unfold priorBeliefs beliefs smRow
  refine congrArg₂ (· - ·) (congrArg₂ Ideal.div rfl ?_) rfl
  refine (congrArg₂ (· + ·) Ideal.ofBits_zero_f32 rfl).trans ((zero_add _).trans (Finset.sum_congr rfl fun k _ => ?_))
  have e : idx_main_v18 (idx_main_v19 (idx_main_v20 (ix2 p q))) k = ix2 p k :=
    funext fun a => Fin.ext (by match a with | ⟨0, _⟩ => rfl | ⟨1, _⟩ => rfl)
  rw [e, exp_apply]

/-- The first propagation: the priors plus the adjacency applied to the priors' compatibilities. -/
theorem prop1_apply (p : Fin 10000) (q : Fin 16) :
    val_main_v26 (F := Ideal) x0 x1 x2 x5 x6 x7 x8 x9 (ix2 p q)
      = propagate (cA x0) (cH x9) (priorBeliefs (cAh x1) (cX x2) (cW1 x5) (cb1 x6) (cW2 x7) (cb2 x8))
          (priorBeliefs (cAh x1) (cX x2) (cW1 x5) (cb1 x6) (cW2 x7) (cb2 x8)) p q := by
  rw [val_main_v26_apply, val_main_v25_apply, prior_apply]
  unfold propagate step
  refine congrArg₂ (· + ·) rfl (Finset.sum_congr rfl fun k _ => ?_)
  have el : lidx_main_v25 (ix2 p q) k = ix2 p k := funext fun a => Fin.ext (by match a with | ⟨0, _⟩ => rfl | ⟨1, _⟩ => rfl)
  have er : ridx_main_v25 (ix2 p q) k = ix2 k q := funext fun a => Fin.ext (by match a with | ⟨0, _⟩ => rfl | ⟨1, _⟩ => rfl)
  rw [el, er, val_main_v24_apply]
  refine congrArg₂ (· * ·) rfl (Finset.sum_congr rfl fun j _ => ?_)
  have el' : lidx_main_v24 (ix2 k q) j = ix2 k j := funext fun a => Fin.ext (by match a with | ⟨0, _⟩ => rfl | ⟨1, _⟩ => rfl)
  have er' : ridx_main_v24 (ix2 k q) j = ix2 j q := funext fun a => Fin.ext (by match a with | ⟨0, _⟩ => rfl | ⟨1, _⟩ => rfl)
  rw [el', er', prior_apply]

/-- The second propagation, from the first. -/
theorem prop2_apply (p : Fin 10000) (q : Fin 16) :
    val_main_v29 (F := Ideal) x0 x1 x2 x5 x6 x7 x8 x9 (ix2 p q)
      = propagate (cA x0) (cH x9) (priorBeliefs (cAh x1) (cX x2) (cW1 x5) (cb1 x6) (cW2 x7) (cb2 x8))
          (propagate (cA x0) (cH x9) (priorBeliefs (cAh x1) (cX x2) (cW1 x5) (cb1 x6) (cW2 x7) (cb2 x8))
            (priorBeliefs (cAh x1) (cX x2) (cW1 x5) (cb1 x6) (cW2 x7) (cb2 x8))) p q := by
  rw [val_main_v29_apply, val_main_v28_apply, prior_apply]
  refine congrArg₂ (· + ·) rfl (Finset.sum_congr rfl fun k _ => ?_)
  have el : lidx_main_v28 (ix2 p q) k = ix2 p k := funext fun a => Fin.ext (by match a with | ⟨0, _⟩ => rfl | ⟨1, _⟩ => rfl)
  have er : ridx_main_v28 (ix2 p q) k = ix2 k q := funext fun a => Fin.ext (by match a with | ⟨0, _⟩ => rfl | ⟨1, _⟩ => rfl)
  rw [el, er, val_main_v27_apply]
  refine congrArg₂ (· * ·) rfl (Finset.sum_congr rfl fun j _ => ?_)
  have el' : lidx_main_v27 (ix2 k q) j = ix2 k j := funext fun a => Fin.ext (by match a with | ⟨0, _⟩ => rfl | ⟨1, _⟩ => rfl)
  have er' : ridx_main_v27 (ix2 k q) j = ix2 j q := funext fun a => Fin.ext (by match a with | ⟨0, _⟩ => rfl | ⟨1, _⟩ => rfl)
  rw [el', er', prop1_apply]

/-- The third propagation, from the second. -/
theorem prop3_apply (p : Fin 10000) (q : Fin 16) :
    val_main_v32 (F := Ideal) x0 x1 x2 x5 x6 x7 x8 x9 (ix2 p q)
      = propagate (cA x0) (cH x9) (priorBeliefs (cAh x1) (cX x2) (cW1 x5) (cb1 x6) (cW2 x7) (cb2 x8))
          (propagate (cA x0) (cH x9) (priorBeliefs (cAh x1) (cX x2) (cW1 x5) (cb1 x6) (cW2 x7) (cb2 x8))
            (propagate (cA x0) (cH x9) (priorBeliefs (cAh x1) (cX x2) (cW1 x5) (cb1 x6) (cW2 x7) (cb2 x8))
              (priorBeliefs (cAh x1) (cX x2) (cW1 x5) (cb1 x6) (cW2 x7) (cb2 x8)))) p q := by
  rw [val_main_v32_apply, val_main_v31_apply, prior_apply]
  refine congrArg₂ (· + ·) rfl (Finset.sum_congr rfl fun k _ => ?_)
  have el : lidx_main_v31 (ix2 p q) k = ix2 p k := funext fun a => Fin.ext (by match a with | ⟨0, _⟩ => rfl | ⟨1, _⟩ => rfl)
  have er : ridx_main_v31 (ix2 p q) k = ix2 k q := funext fun a => Fin.ext (by match a with | ⟨0, _⟩ => rfl | ⟨1, _⟩ => rfl)
  rw [el, er, val_main_v30_apply]
  refine congrArg₂ (· * ·) rfl (Finset.sum_congr rfl fun j _ => ?_)
  have el' : lidx_main_v30 (ix2 k q) j = ix2 k j := funext fun a => Fin.ext (by match a with | ⟨0, _⟩ => rfl | ⟨1, _⟩ => rfl)
  have er' : ridx_main_v30 (ix2 k q) j = ix2 j q := funext fun a => Fin.ext (by match a with | ⟨0, _⟩ => rfl | ⟨1, _⟩ => rfl)
  rw [el', er', prop2_apply]

/-- The reference's result: the last propagation, from the third, with the one sixteenth put back. -/
theorem answer_apply (p : Fin 10000) (q : Fin 16) :
    val_main_v37 (F := Ideal) x0 x1 x2 x5 x6 x7 x8 x9 (ix2 p q)
      = answer (cA x0) (cAh x1) (cX x2) (cW1 x5) (cb1 x6) (cW2 x7) (cb2 x8) (cH x9) p q := by
  rw [val_main_v37_apply, val_main_v35_apply, val_main_v34_apply, val_main_v36_apply, val_main_cst_3_apply, prior_apply]
  unfold answer finish lastStep step
  refine congrArg₂ (· + ·) (congrArg₂ (· + ·) rfl (Finset.sum_congr rfl fun k _ => ?_)) rfl
  have el : lidx_main_v34 (ix2 p q) k = ix2 p k := funext fun a => Fin.ext (by match a with | ⟨0, _⟩ => rfl | ⟨1, _⟩ => rfl)
  have er : ridx_main_v34 (ix2 p q) k = ix2 k q := funext fun a => Fin.ext (by match a with | ⟨0, _⟩ => rfl | ⟨1, _⟩ => rfl)
  rw [el, er, val_main_v33_apply]
  refine congrArg₂ (· * ·) rfl (Finset.sum_congr rfl fun j _ => ?_)
  have el' : lidx_main_v33 (ix2 k q) j = ix2 k j := funext fun a => Fin.ext (by match a with | ⟨0, _⟩ => rfl | ⟨1, _⟩ => rfl)
  have er' : ridx_main_v33 (ix2 k q) j = ix2 j q := funext fun a => Fin.ext (by match a with | ⟨0, _⟩ => rfl | ⟨1, _⟩ => rfl)
  rw [el', er', prop3_apply]

/-- The reference's result array, whole. -/
theorem answer_eq :
    val_main_v37 (F := Ideal) x0 x1 x2 x5 x6 x7 x8 x9
      = fun i => answer (cA x0) (cAh x1) (cX x2) (cW1 x5) (cb1 x6) (cW2 x7) (cb2 x8) (cH x9)
          ⟨(i 0).val, (i 0).isLt⟩ ⟨(i 1).val, (i 1).isLt⟩ := by
  funext i
  obtain ⟨p, q, rfl⟩ : ∃ (p : Fin 10000) (q : Fin 16), i = ix2 p q := ⟨i 0, i 1, eq_ix2 i⟩
  exact answer_apply x0 x1 x2 x5 x6 x7 x8 x9 p q

end Cert.ReferenceIdeal.RefValue

end
-- ==== Proof.lean ====
/-
  The certificate of a belief-propagation network on a graph of 10000 nodes: a Pallas kernel program of eight
  pipelined calls against its plain jnp reference, equal as extended reals.

  Both programs compute, from a normalised adjacency `Â`, a raw adjacency `A`, node features `X` and the parameters
  `W₁, b₁, W₂, b₂, H`: the hidden layer `h = max(Â (X W₁) + b₁, 0)`, the logits `z = Â (h W₂) + b₂`, the prior beliefs
  `E = softmax(z) - 1/16` row by row, and four propagations `B ← E + A (B H)` from `B = E`; the result is the last `B`
  plus `1/16`. The kernel tiles each large product by rows, keeps intermediate arrays in a narrower float format (the
  same numbers over the extended reals), writes a copy of `A` for the later steps, adds the beliefs to the product
  where the reference adds the product to the beliefs, and folds the final `+ 1/16` into its last call. None of this
  changes an entry: a row-tiled product is the product, and addition of extended reals commutes. No precondition is
  used.

  The three frames: the kernel's two are the generated frame certificates; the reference has no kernel and its frame
  is its run with the result dropped. The ideal pass rewrote nothing, so the sanctioned-idealization claim is trivial.
  The equivalence: the kernel's result array is the specification's `answer` of the argument arrays (KernelRun,
  KernelValue), so is the reference's (RefValue), and the argument arrays agree.
-/
import proofs.«153989_j16939351015663_2_alg».proof.Defs
import proofs.«153989_j16939351015663_2_alg».proof.Proof.Gen.Kernel
import proofs.«153989_j16939351015663_2_alg».proof.Proof.Gen.Kernel.Skeleton
import proofs.«153989_j16939351015663_2_alg».proof.Proof.Gen.Kernel.Launch
import proofs.«153989_j16939351015663_2_alg».proof.Proof.Gen.Kernel.Points
import proofs.«153989_j16939351015663_2_alg».proof.Proof.Gen.Kernel.Frame
import proofs.«153989_j16939351015663_2_alg».proof.Proof.Gen.KernelIdeal
import proofs.«153989_j16939351015663_2_alg».proof.Proof.Gen.KernelIdeal.Skeleton
import proofs.«153989_j16939351015663_2_alg».proof.Proof.Gen.KernelIdeal.Launch
import proofs.«153989_j16939351015663_2_alg».proof.Proof.Gen.KernelIdeal.Points
import proofs.«153989_j16939351015663_2_alg».proof.Proof.Gen.KernelIdeal.Frame
import proofs.«153989_j16939351015663_2_alg».proof.Proof.Gen.ReferenceIdeal
import proofs.«153989_j16939351015663_2_alg».proof.Proof.Gen.Pre_finite_inputs
import proofs.«153989_j16939351015663_2_alg».proof.Proof.Gen.ReferenceIdeal.Run
import proofs.«153989_j16939351015663_2_alg».proof.Proof.Gen.ReferenceIdeal.Read
import proofs.«153989_j16939351015663_2_alg».proof.Proof.KernelRun
import proofs.«153989_j16939351015663_2_alg».proof.Proof.KernelValue
import proofs.«153989_j16939351015663_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The reference runs and leaves its arguments as launched: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both programs end with the specification's posterior beliefs of those
    arguments in their result arrays. -/
theorem algebraic : Cert.algebraic_KernelIdeal_ReferenceIdeal := by
  intro m ρ m' ρ' _ hagree
  refine ⟨fun c => Cert.KernelIdeal.Gen.W13 m ρ c (Proc.devRef .tc Cert.KernelIdeal.main_v17),
    Cert.KernelIdeal.RunValue.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  show Cert.ReferenceIdeal.Value.res_main_v37 m' c
    = Cert.KernelIdeal.Gen.W13 m ρ c (Proc.devRef .tc Cert.KernelIdeal.main_v17)
  rw [Cert.ReferenceIdeal.Read.val_main_v37_eq, Cert.ReferenceIdeal.RefValue.answer_eq, h0, h1, h2, h5, h6, h7, h8, h9]
  exact (Cert.KernelIdeal.KernelValue.answer_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
